-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S_ : Shape := ⟨0, ![]⟩

class Facts : Prop where
  bcast_S_S1x2000x256 : S_.BroadcastsInDim S1x2000x256 (![] : Fin 0 → Fin S1x2000x256.rank)
  reducesTo_S1x2000x256_S_d0_1_2 : S1x2000x256.ReducesTo [0, 1, 2] S_
  h_S_ : 0 < S_.numel
  bcast_S_S49x2000x256 : S_.BroadcastsInDim S49x2000x256 (![] : Fin 0 → Fin S49x2000x256.rank)
  reducesTo_S49x2000x256_S_d0_1_2 : S49x2000x256.ReducesTo [0, 1, 2] S_
  bcast_S_S256x32768 : S_.BroadcastsInDim S256x32768 (![] : Fin 0 → Fin S256x32768.rank)
  reducesTo_S256x32768_S_d0_1 : S256x32768.ReducesTo [0, 1] S_
  bcast_S_S32768 : S_.BroadcastsInDim S32768 (![] : Fin 0 → Fin S32768.rank)
  reducesTo_S32768_S_d0 : S32768.ReducesTo [0] S_
  bcast_S_S12544x256 : S_.BroadcastsInDim S12544x256 (![] : Fin 0 → Fin S12544x256.rank)
  reducesTo_S12544x256_S_d0_1 : S12544x256.ReducesTo [0, 1] S_
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S64 .f32) (main_arg8 : FVec F S256 .f32) (main_arg9 : FVec F S256 .f32) (main_arg10 : FVec F S256 .f32) (main_arg11 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S12544x256 .f32) (main_arg5 : FVec F S256 .f32) (main_arg6 : FVec F S64 .f32) (main_arg7 : FVec F S64 .f32) (main_arg8 : FVec F S256 .f32) (main_arg9 : FVec F S256 .f32) (main_arg10 : FVec F S256 .f32) (main_arg11 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S12544x256 .f32 := Host.absf main_arg4
  let main_cst_6 : FVec F S_ .f32 := constant S_ .f32 0x7F800000#32
  let main_v20 : FVec F S12544x256 .f32 := broadcastInDim S12544x256 ![] bcast_S_S12544x256 main_cst_6
  let main_v21 : IVec S12544x256 1 := cmpf .olt main_v19 main_v20
  let main_c_7 : IVec S_ 1 := constantI S_ 1 1#1
  let main_v22 : IVec S_ 1 := (fun x v => Host.reduce IntOp.andi x v reducesTo_S12544x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x2000x256 .f32) (main_arg1 : FVec F S49x2000x256 .f32) (main_arg2 : FVec F S256x32768 .f32) (main_arg3 : FVec F S32768 .f32) (main_arg4 : FVec F S12544x256 .f32) (main_arg5 : FVec F S256 .f32) (main_arg6 : FVec F S64 .f32) (main_arg7 : FVec F S64 .f32) (main_arg8 : FVec F S256 .f32) (main_arg9 : FVec F S256 .f32) (main_arg10 : FVec F S256 .f32) (main_arg11 : FVec F S256 .f32) : IVec S_ 1 :=
  let main_v0 : FVec F S1x2000x256 .f32 := Host.absf main_arg0
  let main_cst : FVec F S_ .f32 := constant S_ .f32 0x7F800000#32
  let main_v1 : FVec F S1x2000x256 .f32 := broadcastInDim S1x2000x256 ![] bcast_S_S1x2000x256 main_cst
  let main_v2 : IVec S1x2000x256 1 := cmpf .olt main_v0 main_v1
  let main_c : IVec S_ 1 := constantI S_ 1 1#1
  let main_v3 : IVec S_ 1 := (fun x v => Host.reduce IntOp.andi x v reducesTo_S1x2000x256_S_d0_1_2 h_S_) main_v2 main_c
  let main_v4 : FVec F S49x2000x256 .f32 := Host.absf main_arg1
  let main_cst_0 : FVec F S_ .f32 := constant S_ .f32 0x7F800000#32
  let main_v5 : FVec F S49x2000x256 .f32 := broadcastInDim S49x2000x256 ![] bcast_S_S49x2000x256 main_cst_0
  let main_v6 : IVec S49x2000x256 1 := cmpf .olt main_v4 main_v5
  let main_c_1 : IVec S_ 1 := constantI S_ 1 1#1
  let main_v7 : IVec S_ 1 := (fun x v => Host.reduce IntOp.andi x v reducesTo_S49x2000x256_S_d0_1_2 h_S_) main_v6 main_c_1
  let main_v8 : IVec S_ 1 := andi main_v3 main_v7
  let main_v9 : FVec F S256x32768 .f32 := Host.absf main_arg2
  let main_cst_2 : FVec F S_ .f32 := constant S_ .f32 0x7F800000#32
  let main_v10 : FVec F S256x32768 .f32 := broadcastInDim S256x32768 ![] bcast_S_S256x32768 main_cst_2
  let main_v11 : IVec S256x32768 1 := cmpf .olt main_v9 main_v10
  let main_c_3 : IVec S_ 1 := constantI S_ 1 1#1
  let main_v12 : IVec S_ 1 := (fun x v => Host.reduce IntOp.andi x v reducesTo_S256x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_v13 main_v16
-- ==== Kernel.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S2000x256 : Shape := ⟨2, ![2000, 256]⟩
abbrev S49x256x256 : Shape := ⟨3, ![49, 256, 256]⟩
abbrev S40x256 : Shape := ⟨2, ![40, 256]⟩
abbrev S49x40x256 : Shape := ⟨3, ![49, 40, 256]⟩
abbrev S256x16384 : Shape := ⟨2, ![256, 16384]⟩
abbrev S16384 : Shape := ⟨1, ![16384]⟩
abbrev S40x16384 : Shape := ⟨2, ![40, 16384]⟩
abbrev S1x16384 : Shape := ⟨2, ![1, 16384]⟩
abbrev S40x256x64 : Shape := ⟨3, ![40, 256, 64]⟩
abbrev S40x64x256 : Shape := ⟨3, ![40, 64, 256]⟩
abbrev S1x40x256 : Shape := ⟨3, ![1, 40, 256]⟩
abbrev S40x1x256 : Shape := ⟨3, ![40, 1, 256]⟩
abbrev S40x49x256 : Shape := ⟨3, ![40, 49, 256]⟩
abbrev S40x49x64 : Shape := ⟨3, ![40, 49, 64]⟩
abbrev S40x49 : Shape := ⟨2, ![40, 49]⟩
abbrev S40x49x1 : Shape := ⟨3, ![40, 49, 1]⟩
abbrev S1x1x64 : Shape := ⟨3, ![1, 1, 64]⟩
abbrev S1x1x256 : Shape := ⟨3, ![1, 1, 256]⟩
abbrev S1x256x256 : Shape := ⟨3, ![1, 256, 256]⟩
abbrev S256x256 : Shape := ⟨2, ![256, 256]⟩
abbrev S1x256 : Shape := ⟨2, ![1, 256]⟩
abbrev S40 : Shape := ⟨1, ![40]⟩
abbrev S40x1 : Shape := ⟨2, ![40, 1]⟩

abbrev nBuf : Space → Nat
  | .hbm => 17
  | .vmem => 16
  | .smem => 0
  | _ => 0

abbrev bufTy : (tb : Table) → Fin (tcTables nBuf tb) → BufTy
  | .hbm, ⟨0, _⟩ => ⟨S1x2000x256, .f32⟩
  | .hbm, ⟨1, _⟩ => ⟨S49x2000x256, .f32⟩
  | .hbm, ⟨2, _⟩ => ⟨S256x32768, .f32⟩
  | .hbm, ⟨3, _⟩ => ⟨S32768, .f32⟩
  | .hbm, ⟨4, _⟩ => ⟨S12544x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2000x256, .f32⟩
  | .hbm, ⟨13, _⟩ => ⟨S256x32768, .bf16⟩
  | .hbm, ⟨14, _⟩ => ⟨S49x256x256, .f32⟩
  | .hbm, ⟨15, _⟩ => ⟨S49x256x256, .bf16⟩
  | .hbm, ⟨16, _⟩ => ⟨S2000x256, .f32⟩
  | .local _ .vmem, ⟨0, _⟩ => ⟨S40x256, .f32⟩
  | .local _ .vmem, ⟨1, _⟩ => ⟨S40x256, .f32⟩
  | .local _ .vmem, ⟨2, _⟩ => ⟨S49x40x256, .f32⟩
  | .local _ .vmem, ⟨3, _⟩ => ⟨S49x40x256, .f32⟩
  | .local _ .vmem, ⟨4, _⟩ => ⟨S256x32768, .bf16⟩
  | .local _ .vmem, ⟨5, _⟩ => ⟨S32768, .f32⟩
  | .local _ .vmem, ⟨6, _⟩ => ⟨S49x256x256, .bf16⟩
  | .local _ .vmem, ⟨7, _⟩ => ⟨S256, .f32⟩
  | .local _ .vmem, ⟨8, _⟩ => ⟨S64, .f32⟩
  | .local _ .vmem, ⟨9, _⟩ => ⟨S64, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S40x256, .f32⟩
  | .local _ .vmem, ⟨15, _⟩ => ⟨S40x256, .f32⟩
  | _, _ => ⟨S1x2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S49x40x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S40x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x2000x256_S2000x256 : S1x2000x256.ShapeCasts S2000x256
  bitsLt_bf16_f32 : FTy.bits .bf16 < FTy.bits .f32
  shapeCasts_S12544x256_S49x256x256 : S12544x256.ShapeCasts S49x256x256
  inb_S40x256_S40x256_0_0 : ∀ a, (![0, 0] : Fin 2 → Nat) a + S40x256.size a ≤ S40x256.size a
  h_S40x256 : 0 < S40x256.numel
  shapeCasts_S40x256_S40x256 : S40x256.ShapeCasts S40x256
  inb_S256x32768_S256x16384_0_0 : ∀ a, (![0, 0] : Fin 2 → Nat) a + S256x16384.size a ≤ S256x32768.size a
  h_S256x16384 : 0 < S256x16384.numel
  shapeCasts_S256x16384_S256x16384 : S256x16384.ShapeCasts S256x16384
  inb_S256x32768_S256x16384_0_16384 : ∀ a, (![0, 16384] : Fin 2 → Nat) a + S256x16384.size a ≤ S256x32768.size a
  inb_S32768_S16384_0 : ∀ a, (![0] : Fin 1 → Nat) a + S16384.size a ≤ S32768.size a
  h_S16384 : 0 < S16384.numel
  inb_S32768_S16384_16384 : ∀ a, (![16384] : Fin 1 → Nat) a + S16384.size a ≤ S32768.size a
  shapeCasts_S16384_S1x16384 : S16384.ShapeCasts S1x16384
  broadcasts_S1x16384_S40x16384 : S1x16384.Broadcasts S40x16384
  shapeCasts_S40x16384_S40x256x64 : S40x16384.ShapeCasts S40x256x64
  shapeCasts_S40x16384_S40x64x256 : S40x16384.ShapeCasts S40x64x256
  inb_S49x40x256_S1x40x256_0_0_0 : ∀ a, (![0, 0, 0] : Fin 3 → Nat) a + S1x40x256.size a ≤ S49x40x256.size a
  h_S1x40x256 : 0 < S1x40x256.numel
  shapeCasts_S1x40x256_S40x256 : S1x40x256.ShapeCasts S40x256
  inb_S49x40x256_S1x40x256_1_0_0 : ∀ a, (![1, 0, 0] : Fin 3 → Nat) a + S1x40x256.size a ≤ S49x40x256.size a
  inb_S49x40x256_S1x40x256_2_0_0 : ∀ a, (![2, 0, 0] : Fin 3 → Nat) a + S1x40x256.size a ≤ S49x40x256.size a
  inb_S49x40x256_S1x40x256_3_0_0 : ∀ a, (![3, 0, 0] : Fin 3 → Nat) a + S1x40x256.size a ≤ S49x40x256.size a
  inb_S49x40x256_S1x40x256_4_0_0 : ∀ a, (![4, 0, 0] : Fin 3 → Nat) a + S1x40x256.size a ≤ S49x40x256.size a
  inb_S49x40x256_S1x40x256_5_0_0 : ∀ a, (![5, 0, 0] : Fin 3 → Nat) a + S1x40x256.size a ≤ S49x40x256.size a
  inb_S49x40x256_S1x40x256_6_0_0 : ∀ a, (![6, 0, 0] : Fin 3 → Nat) a + S1x40x256.size a ≤ S49x40x256.size a
  inb_S49x40x256_S1x40x256_7_0_0 : ∀ a, (![7, 0, 0] : Fin 3 → Nat) a + S1x40x256.size a ≤ S49x40x256.size a
  inb_S49x40x256_S1x40x256_8_0_0 : ∀ a, (![8, 0, 0] : Fin 3 → Nat) a + S1x40x256.size a ≤ S49x40x256.size a
  inb_S49x40x256_S1x40x256_9_0_0 : ∀ a, (![9, 0, 0] : Fin 3 → Nat) a + S1x40x256.size a ≤ S49x40x256.size a
  inb_S49x40x256_S1x40x256_10_0_0 : ∀ a, (![10, 0, 0] : Fin 3 → Nat) a + S1x40x256.size a ≤ S49x40x256.size a
  inb_S49x40x256_S1x40x256_11_0_0 : ∀ a, (![11, 0, 0] : Fin 3 → Nat) a + S1x40x256.size a ≤ S49x40x256.size a
  inb_S49x40x256_S1x40x256_12_0_0 : ∀ a, (![12, 0, 0] : Fin 3 → Nat) a + S1x40x256.size a ≤ S49x40x256.size a
  inb_S49x40x256_S1x40x256_13_0_0 : ∀ a, (![13, 0, 0] : Fin 3 → Nat) a + S1x40x256.size a ≤ S49x40x256.size a
  inb_S49x40x256_S1x40x256_14_0_0 : ∀ a, (![14, 0, 0] : Fin 3 → Nat) a + S1x40x256.size a ≤ S49x40x256.size a
  inb_S49x40x256_S1x40x256_15_0_0 : ∀ a, (![15, 0, 0] : Fin 3 → Nat) a + S1x40x256.size a ≤ S49x40x256.size a
  inb_S49x40x256_S1x40x256_16_0_0 : ∀ a, (![16, 0, 0] : Fin 3 → Nat) a + S1x40x256.size a ≤ S49x40x256.size a
  inb_S49x40x256_S1x40x256_17_0_0 : ∀ a, (![17, 0, 0] : Fin 3 → Nat) a + S1x40x256.size a ≤ S49x40x256.size a
  inb_S49x40x256_S1x40x256_18_0_0 : ∀ a, (![18, 0, 0] : Fin 3 → Nat) a + S1x40x256.size a ≤ S49x40x256.size a
  inb_S49x40x256_S1x40x256_19_0_0 : ∀ a, (![19, 0, 0] : Fin 3 → Nat) a + S1x40x256.size a ≤ S49x40x256.size a
  inb_S49x40x256_S1x40x256_20_0_0 : ∀ a, (![20, 0, 0] : Fin 3 → Nat) a + S1x40x256.size a ≤ S49x40x256.size a
  inb_S49x40x256_S1x40x256_21_0_0 : ∀ a, (![21, 0, 0] : Fin 3 → Nat) a + S1x40x256.size a ≤ S49x40x256.size a
  inb_S49x40x256_S1x40x256_22_0_0 : ∀ a, (![22, 0, 0] : Fin 3 → Nat) a + S1x40x256.size a ≤ S49x40x256.size a
  inb_S49x40x256_S1x40x256_23_0_0 : ∀ a, (![23, 0, 0] : Fin 3 → Nat) a + S1x40x256.size a ≤ S49x40x256.size a
  inb_S49x40x256_S1x40x256_24_0_0 : ∀ a, (![24, 0, 0] : Fin 3 → Nat) a + S1x40x256.size a ≤ S49x40x256.size a
  inb_S49x40x256_S1x40x256_25_0_0 : ∀ a, (![25, 0, 0] : Fin 3 → Nat) a + S1x40x256.size a ≤ S49x40x256.size a
  inb_S49x40x256_S1x40x256_26_0_0 : ∀ a, (![26, 0, 0] : Fin 3 → Nat) a + S1x40x256.size a ≤ S49x40x256.size a
  inb_S49x40x256_S1x40x256_27_0_0 : ∀ a, (![27, 0, 0] : Fin 3 → Nat) a + S1x40x256.size a ≤ S49x40x256.size a
  inb_S49x40x256_S1x40x256_28_0_0 : ∀ a, (![28, 0, 0] : Fin 3 → Nat) a + S1x40x256.size a ≤ S49x40x256.size a
  inb_S49x40x256_S1x40x256_29_0_0 : ∀ a, (![29, 0, 0] : Fin 3 → Nat) a + S1x40x256.size a ≤ S49x40x256.size a
  inb_S49x40x256_S1x40x256_30_0_0 : ∀ a, (![30, 0, 0] : Fin 3 → Nat) a + S1x40x256.size a ≤ S49x40x256.size a
  inb_S49x40x256_S1x40x256_31_0_0 : ∀ a, (![31, 0, 0] : Fin 3 → Nat) a + S1x40x256.size a ≤ S49x40x256.size a
  inb_S49x40x256_S1x40x256_32_0_0 : ∀ a, (![32, 0, 0] : Fin 3 → Nat) a + S1x40x256.size a ≤ S49x40x256.size a
  inb_S49x40x256_S1x40x256_33_0_0 : ∀ a, (![33, 0, 0] : Fin 3 → Nat) a + S1x40x256.size a ≤ S49x40x256.size a
  inb_S49x40x256_S1x40x256_34_0_0 : ∀ a, (![34, 0, 0] : Fin 3 → Nat) a + S1x40x256.size a ≤ S49x40x256.size a
  inb_S49x40x256_S1x40x256_35_0_0 : ∀ a, (![35, 0, 0] : Fin 3 → Nat) a + S1x40x256.size a ≤ S49x40x256.size a
  inb_S49x40x256_S1x40x256_36_0_0 : ∀ a, (![36, 0, 0] : Fin 3 → Nat) a + S1x40x256.size a ≤ S49x40x256.size a
  inb_S49x40x256_S1x40x256_37_0_0 : ∀ a, (![37, 0, 0] : Fin 3 → Nat) a + S1x40x256.size a ≤ S49x40x256.size a
  inb_S49x40x256_S1x40x256_38_0_0 : ∀ a, (![38, 0, 0] : Fin 3 → Nat) a + S1x40x256.size a ≤ S49x40x256.size a
  inb_S49x40x256_S1x40x256_39_0_0 : ∀ a, (![39, 0, 0] : Fin 3 → Nat) a + S1x40x256.size a ≤ S49x40x256.size a
  inb_S49x40x256_S1x40x256_40_0_0 : ∀ a, (![40, 0, 0] : Fin 3 → Nat) a + S1x40x256.size a ≤ S49x40x256.size a
  inb_S49x40x256_S1x40x256_41_0_0 : ∀ a, (![41, 0, 0] : Fin 3 → Nat) a + S1x40x256.size a ≤ S49x40x256.size a
  inb_S49x40x256_S1x40x256_42_0_0 : ∀ a, (![42, 0, 0] : Fin 3 → Nat) a + S1x40x256.size a ≤ S49x40x256.size a
  inb_S49x40x256_S1x40x256_43_0_0 : ∀ a, (![43, 0, 0] : Fin 3 → Nat) a + S1x40x256.size a ≤ S49x40x256.size a
  inb_S49x40x256_S1x40x256_44_0_0 : ∀ a, (![44, 0, 0] : Fin 3 → Nat) a + S1x40x256.size a ≤ S49x40x256.size a
  inb_S49x40x256_S1x40x256_45_0_0 : ∀ a, (![45, 0, 0] : Fin 3 → Nat) a + S1x40x256.size a ≤ S49x40x256.size a
  inb_S49x40x256_S1x40x256_46_0_0 : ∀ a, (![46, 0, 0] : Fin 3 → Nat) a + S1x40x256.size a ≤ S49x40x256.size a
  inb_S49x40x256_S1x40x256_47_0_0 : ∀ a, (![47, 0, 0] : Fin 3 → Nat) a + S1x40x256.size a ≤ S49x40x256.size a
  inb_S49x40x256_S1x40x256_48_0_0 : ∀ a, (![48, 0, 0] : Fin 3 → Nat) a + S1x40x256.size a ≤ S49x40x256.size a
  shapeCasts_S40x256_S40x1x256 : S40x256.ShapeCasts S40x1x256
  concatenates_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x49x256_d1 : Shape.Concatenates (S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: S40x1x256 :: []) S40x49x256 1
  inb_S64_S64_0 : ∀ a, (![0] : Fin 1 → Nat) a + S64.size a ≤ S64.size a
  h_S64 : 0 < S64.numel
  inb_S256_S256_0 : ∀ a, (![0] : Fin 1 → Nat) a + S256.size a ≤ S256.size a
  h_S256 : 0 < S256.numel
  reduces_S40x49x64_S40x49 : S40x49x64.Reduces [2] S40x49
  shapeCasts_S40x49_S40x49x1 : S40x49.ShapeCasts S40x49x1
  broadcasts_S40x49x1_S40x49x64 : S40x49x1.Broadcasts S40x49x64
  shapeCasts_S64_S1x1x64 : S64.ShapeCasts S1x1x64
  broadcasts_S1x1x64_S40x49x64 : S1x1x64.Broadcasts S40x49x64
  reduces_S40x49x256_S40x49 : S40x49x256.Reduces [2] S40x49
  broadcasts_S40x49x1_S40x49x256 : S40x49x1.Broadcasts S40x49x256
  shapeCasts_S256_S1x1x256 : S256.ShapeCasts S1x1x256
  broadcasts_S1x1x256_S40x49x256 : S1x1x256.Broadcasts S40x49x256
  slices_S40x49x256_o0_0_0_S40x1x256 : S40x49x256.Slices ![0, 0, 0] S40x1x256
  shapeCasts_S40x1x256_S40x256 : S40x1x256.ShapeCasts S40x256
  inb_S49x256x256_S1x256x256_0_0_0 : ∀ a, (![0, 0, 0] : Fin 3 → Nat) a + S1x256x256.size a ≤ S49x256x256.size a
  h_S1x256x256 : 0 < S1x256x256.numel
  shapeCasts_S1x256x256_S256x256 : S1x256x256.ShapeCasts S256x256
  slices_S40x49x256_o0_1_0_S40x1x256 : S40x49x256.Slices ![0, 1, 0] S40x1x256
  inb_S49x256x256_S1x256x256_1_0_0 : ∀ a, (![1, 0, 0] : Fin 3 → Nat) a + S1x256x256.size a ≤ S49x256x256.size a
  slices_S40x49x256_o0_2_0_S40x1x256 : S40x49x256.Slices ![0, 2, 0] S40x1x256
  inb_S49x256x256_S1x256x256_2_0_0 : ∀ a, (![2, 0, 0] : Fin 3 → Nat) a + S1x256x256.size a ≤ S49x256x256.size a
  slices_S40x49x256_o0_3_0_S40x1x256 : S40x49x256.Slices ![0, 3, 0] S40x1x256
  inb_S49x256x256_S1x256x256_3_0_0 : ∀ a, (![3, 0, 0] : Fin 3 → Nat) a + S1x256x256.size a ≤ S49x256x256.size a
  slices_S40x49x256_o0_4_0_S40x1x256 : S40x49x256.Slices ![0, 4, 0] S40x1x256
  inb_S49x256x256_S1x256x256_4_0_0 : ∀ a, (![4, 0, 0] : Fin 3 → Nat) a + S1x256x256.size a ≤ S49x256x256.size a
  slices_S40x49x256_o0_5_0_S40x1x256 : S40x49x256.Slices ![0, 5, 0] S40x1x256
  inb_S49x256x256_S1x256x256_5_0_0 : ∀ a, (![5, 0, 0] : Fin 3 → Nat) a + S1x256x256.size a ≤ S49x256x256.size a
  slices_S40x49x256_o0_6_0_S40x1x256 : S40x49x256.Slices ![0, 6, 0] S40x1x256
  inb_S49x256x256_S1x256x256_6_0_0 : ∀ a, (![6, 0, 0] : Fin 3 → Nat) a + S1x256x256.size a ≤ S49x256x256.size a
  slices_S40x49x256_o0_7_0_S40x1x256 : S40x49x256.Slices ![0, 7, 0] S40x1x256
  inb_S49x256x256_S1x256x256_7_0_0 : ∀ a, (![7, 0, 0] : Fin 3 → Nat) a + S1x256x256.size a ≤ S49x256x256.size a
  slices_S40x49x256_o0_8_0_S40x1x256 : S40x49x256.Slices ![0, 8, 0] S40x1x256
  inb_S49x256x256_S1x256x256_8_0_0 : ∀ a, (![8, 0, 0] : Fin 3 → Nat) a + S1x256x256.size a ≤ S49x256x256.size a
  slices_S40x49x256_o0_9_0_S40x1x256 : S40x49x256.Slices ![0, 9, 0] S40x1x256
  inb_S49x256x256_S1x256x256_9_0_0 : ∀ a, (![9, 0, 0] : Fin 3 → Nat) a + S1x256x256.size a ≤ S49x256x256.size a
  slices_S40x49x256_o0_10_0_S40x1x256 : S40x49x256.Slices ![0, 10, 0] S40x1x256
  inb_S49x256x256_S1x256x256_10_0_0 : ∀ a, (![10, 0, 0] : Fin 3 → Nat) a + S1x256x256.size a ≤ S49x256x256.size a
  slices_S40x49x256_o0_11_0_S40x1x256 : S40x49x256.Slices ![0, 11, 0] S40x1x256
  inb_S49x256x256_S1x256x256_11_0_0 : ∀ a, (![11, 0, 0] : Fin 3 → Nat) a + S1x256x256.size a ≤ S49x256x256.size a
  slices_S40x49x256_o0_12_0_S40x1x256 : S40x49x256.Slices ![0, 12, 0] S40x1x256
  inb_S49x256x256_S1x256x256_12_0_0 : ∀ a, (![12, 0, 0] : Fin 3 → Nat) a + S1x256x256.size a ≤ S49x256x256.size a
  slices_S40x49x256_o0_13_0_S40x1x256 : S40x49x256.Slices ![0, 13, 0] S40x1x256
  inb_S49x256x256_S1x256x256_13_0_0 : ∀ a, (![13, 0, 0] : Fin 3 → Nat) a + S1x256x256.size a ≤ S49x256x256.size a
  slices_S40x49x256_o0_14_0_S40x1x256 : S40x49x256.Slices ![0, 14, 0] S40x1x256
  inb_S49x256x256_S1x256x256_14_0_0 : ∀ a, (![14, 0, 0] : Fin 3 → Nat) a + S1x256x256.size a ≤ S49x256x256.size a
  slices_S40x49x256_o0_15_0_S40x1x256 : S40x49x256.Slices ![0, 15, 0] S40x1x256
  inb_S49x256x256_S1x256x256_15_0_0 : ∀ a, (![15, 0, 0] : Fin 3 → Nat) a + S1x256x256.size a ≤ S49x256x256.size a
  slices_S40x49x256_o0_16_0_S40x1x256 : S40x49x256.Slices ![0, 16, 0] S40x1x256
  inb_S49x256x256_S1x256x256_16_0_0 : ∀ a, (![16, 0, 0] : Fin 3 → Nat) a + S1x256x256.size a ≤ S49x256x256.size a
  slices_S40x49x256_o0_17_0_S40x1x256 : S40x49x256.Slices ![0, 17, 0] S40x1x256
  inb_S49x256x256_S1x256x256_17_0_0 : ∀ a, (![17, 0, 0] : Fin 3 → Nat) a + S1x256x256.size a ≤ S49x256x256.size a
  slices_S40x49x256_o0_18_0_S40x1x256 : S40x49x256.Slices ![0, 18, 0] S40x1x256
  inb_S49x256x256_S1x256x256_18_0_0 : ∀ a, (![18, 0, 0] : Fin 3 → Nat) a + S1x256x256.size a ≤ S49x256x256.size a
  slices_S40x49x256_o0_19_0_S40x1x256 : S40x49x256.Slices ![0, 19, 0] S40x1x256
  inb_S49x256x256_S1x256x256_19_0_0 : ∀ a, (![19, 0, 0] : Fin 3 → Nat) a + S1x256x256.size a ≤ S49x256x256.size a
  slices_S40x49x256_o0_20_0_S40x1x256 : S40x49x256.Slices ![0, 20, 0] S40x1x256
  inb_S49x256x256_S1x256x256_20_0_0 : ∀ a, (![20, 0, 0] : Fin 3 → Nat) a + S1x256x256.size a ≤ S49x256x256.size a
  slices_S40x49x256_o0_21_0_S40x1x256 : S40x49x256.Slices ![0, 21, 0] S40x1x256
  inb_S49x256x256_S1x256x256_21_0_0 : ∀ a, (![21, 0, 0] : Fin 3 → Nat) a + S1x256x256.size a ≤ S49x256x256.size a
  slices_S40x49x256_o0_22_0_S40x1x256 : S40x49x256.Slices ![0, 22, 0] S40x1x256
  inb_S49x256x256_S1x256x256_22_0_0 : ∀ a, (![22, 0, 0] : Fin 3 → Nat) a + S1x256x256.size a ≤ S49x256x256.size a
  slices_S40x49x256_o0_23_0_S40x1x256 : S40x49x256.Slices ![0, 23, 0] S40x1x256
  inb_S49x256x256_S1x256x256_23_0_0 : ∀ a, (![23, 0, 0] : Fin 3 → Nat) a + S1x256x256.size a ≤ S49x256x256.size a
  slices_S40x49x256_o0_24_0_S40x1x256 : S40x49x256.Slices ![0, 24, 0] S40x1x256
  inb_S49x256x256_S1x256x256_24_0_0 : ∀ a, (![24, 0, 0] : Fin 3 → Nat) a + S1x256x256.size a ≤ S49x256x256.size a
  slices_S40x49x256_o0_25_0_S40x1x256 : S40x49x256.Slices ![0, 25, 0] S40x1x256
  inb_S49x256x256_S1x256x256_25_0_0 : ∀ a, (![25, 0, 0] : Fin 3 → Nat) a + S1x256x256.size a ≤ S49x256x256.size a
  slices_S40x49x256_o0_26_0_S40x1x256 : S40x49x256.Slices ![0, 26, 0] S40x1x256
  inb_S49x256x256_S1x256x256_26_0_0 : ∀ a, (![26, 0, 0] : Fin 3 → Nat) a + S1x256x256.size a ≤ S49x256x256.size a
  slices_S40x49x256_o0_27_0_S40x1x256 : S40x49x256.Slices ![0, 27, 0] S40x1x256
  inb_S49x256x256_S1x256x256_27_0_0 : ∀ a, (![27, 0, 0] : Fin 3 → Nat) a + S1x256x256.size a ≤ S49x256x256.size a
  slices_S40x49x256_o0_28_0_S40x1x256 : S40x49x256.Slices ![0, 28, 0] S40x1x256
  inb_S49x256x256_S1x256x256_28_0_0 : ∀ a, (![28, 0, 0] : Fin 3 → Nat) a + S1x256x256.size a ≤ S49x256x256.size a
  slices_S40x49x256_o0_29_0_S40x1x256 : S40x49x256.Slices ![0, 29, 0] S40x1x256
  inb_S49x256x256_S1x256x256_29_0_0 : ∀ a, (![29, 0, 0] : Fin 3 → Nat) a + S1x256x256.size a ≤ S49x256x256.size a
  slices_S40x49x256_o0_30_0_S40x1x256 : S40x49x256.Slices ![0, 30, 0] S40x1x256
  inb_S49x256x256_S1x256x256_30_0_0 : ∀ a, (![30, 0, 0] : Fin 3 → Nat) a + S1x256x256.size a ≤ S49x256x256.size a
  slices_S40x49x256_o0_31_0_S40x1x256 : S40x49x256.Slices ![0, 31, 0] S40x1x256
  inb_S49x256x256_S1x256x256_31_0_0 : ∀ a, (![31, 0, 0] : Fin 3 → Nat) a + S1x256x256.size a ≤ S49x256x256.size a
  slices_S40x49x256_o0_32_0_S40x1x256 : S40x49x256.Slices ![0, 32, 0] S40x1x256
  inb_S49x256x256_S1x256x256_32_0_0 : ∀ a, (![32, 0, 0] : Fin 3 → Nat) a + S1x256x256.size a ≤ S49x256x256.size a
  slices_S40x49x256_o0_33_0_S40x1x256 : S40x49x256.Slices ![0, 33, 0] S40x1x256
  inb_S49x256x256_S1x256x256_33_0_0 : ∀ a, (![33, 0, 0] : Fin 3 → Nat) a + S1x256x256.size a ≤ S49x256x256.size a
  slices_S40x49x256_o0_34_0_S40x1x256 : S40x49x256.Slices ![0, 34, 0] S40x1x256
  inb_S49x256x256_S1x256x256_34_0_0 : ∀ a, (![34, 0, 0] : Fin 3 → Nat) a + S1x256x256.size a ≤ S49x256x256.size a
  slices_S40x49x256_o0_35_0_S40x1x256 : S40x49x256.Slices ![0, 35, 0] S40x1x256
  inb_S49x256x256_S1x256x256_35_0_0 : ∀ a, (![35, 0, 0] : Fin 3 → Nat) a + S1x256x256.size a ≤ S49x256x256.size a
  slices_S40x49x256_o0_36_0_S40x1x256 : S40x49x256.Slices ![0, 36, 0] S40x1x256
  inb_S49x256x256_S1x256x256_36_0_0 : ∀ a, (![36, 0, 0] : Fin 3 → Nat) a + S1x256x256.size a ≤ S49x256x256.size a
  slices_S40x49x256_o0_37_0_S40x1x256 : S40x49x256.Slices ![0, 37, 0] S40x1x256
  inb_S49x256x256_S1x256x256_37_0_0 : ∀ a, (![37, 0, 0] : Fin 3 → Nat) a + S1x256x256.size a ≤ S49x256x256.size a
  slices_S40x49x256_o0_38_0_S40x1x256 : S40x49x256.Slices ![0, 38, 0] S40x1x256
  inb_S49x256x256_S1x256x256_38_0_0 : ∀ a, (![38, 0, 0] : Fin 3 → Nat) a + S1x256x256.size a ≤ S49x256x256.size a
  slices_S40x49x256_o0_39_0_S40x1x256 : S40x49x256.Slices ![0, 39, 0] S40x1x256
  inb_S49x256x256_S1x256x256_39_0_0 : ∀ a, (![39, 0, 0] : Fin 3 → Nat) a + S1x256x256.size a ≤ S49x256x256.size a
  slices_S40x49x256_o0_40_0_S40x1x256 : S40x49x256.Slices ![0, 40, 0] S40x1x256
  inb_S49x256x256_S1x256x256_40_0_0 : ∀ a, (![40, 0, 0] : Fin 3 → Nat) a + S1x256x256.size a ≤ S49x256x256.size a
  slices_S40x49x256_o0_41_0_S40x1x256 : S40x49x256.Slices ![0, 41, 0] S40x1x256
  inb_S49x256x256_S1x256x256_41_0_0 : ∀ a, (![41, 0, 0] : Fin 3 → Nat) a + S1x256x256.size a ≤ S49x256x256.size a
  slices_S40x49x256_o0_42_0_S40x1x256 : S40x49x256.Slices ![0, 42, 0] S40x1x256
  inb_S49x256x256_S1x256x256_42_0_0 : ∀ a, (![42, 0, 0] : Fin 3 → Nat) a + S1x256x256.size a ≤ S49x256x256.size a
  slices_S40x49x256_o0_43_0_S40x1x256 : S40x49x256.Slices ![0, 43, 0] S40x1x256
  inb_S49x256x256_S1x256x256_43_0_0 : ∀ a, (![43, 0, 0] : Fin 3 → Nat) a + S1x256x256.size a ≤ S49x256x256.size a
  slices_S40x49x256_o0_44_0_S40x1x256 : S40x49x256.Slices ![0, 44, 0] S40x1x256
  inb_S49x256x256_S1x256x256_44_0_0 : ∀ a, (![44, 0, 0] : Fin 3 → Nat) a + S1x256x256.size a ≤ S49x256x256.size a
  slices_S40x49x256_o0_45_0_S40x1x256 : S40x49x256.Slices ![0, 45, 0] S40x1x256
  inb_S49x256x256_S1x256x256_45_0_0 : ∀ a, (![45, 0, 0] : Fin 3 → Nat) a + S1x256x256.size a ≤ S49x256x256.size a
  slices_S40x49x256_o0_46_0_S40x1x256 : S40x49x256.Slices ![0, 46, 0] S40x1x256
  inb_S49x256x256_S1x256x256_46_0_0 : ∀ a, (![46, 0, 0] : Fin 3 → Nat) a + S1x256x256.size a ≤ S49x256x256.size a
  slices_S40x49x256_o0_47_0_S40x1x256 : S40x49x256.Slices ![0, 47, 0] S40x1x256
  inb_S49x256x256_S1x256x256_47_0_0 : ∀ a, (![47, 0, 0] : Fin 3 → Nat) a + S1x256x256.size a ≤ S49x256x256.size a
  slices_S40x49x256_o0_48_0_S40x1x256 : S40x49x256.Slices ![0, 48, 0] S40x1x256
  inb_S49x256x256_S1x256x256_48_0_0 : ∀ a, (![48, 0, 0] : Fin 3 → Nat) a + S1x256x256.size a ≤ S49x256x256.size a
  shapeCasts_S256_S1x256 : S256.ShapeCasts S1x256
  broadcasts_S1x256_S40x256 : S1x256.Broadcasts S40x256
  reduces_S40x256_S40 : S40x256.Reduces [1] S40
  shapeCasts_S40_S40x1 : S40.ShapeCasts S40x1
  broadcasts_S40x1_S40x256 : S40x1.Broadcasts S40x256
  dot_S40x256_S256x16384_S40x16384_1_0_0_1_n_n_wf : DotDims.WF S40x256 S256x16384 S40x16384 [1] [0] [0] [1] [] []
  dot_S40x49x256_S40x256x64_S40x49x64_2_1_1_2_0_0_wf : DotDims.WF S40x49x256 S40x256x64 S40x49x64 [2] [1] [1] [2] [0] [0]
  dot_S40x49x64_S40x64x256_S40x49x256_2_1_1_2_0_0_wf : DotDims.WF S40x49x64 S40x64x256 S40x49x256 [2] [1] [1] [2] [0] [0]
  dot_S40x256_S256x256_S40x256_1_0_0_1_n_n_wf : DotDims.WF S40x256 S256x256 S40x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x256.size a ≤ S2000x256.size a
  hwx0_0 : ∀ i : grid0.Coords, EltTy.bits .f32 = 32 ∨ (Rect.block (s := S2000x256) S40x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S49x40x256.size a ≤ S49x2000x256.size a
  hwx0_1 : ∀ i : grid0.Coords, EltTy.bits .f32 = 32 ∨ (Rect.block (s := S49x2000x256) S49x40x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32768.size a ≤ S256x32768.size a
  hwx0_2 : ∀ i : grid0.Coords, EltTy.bits .bf16 = 32 ∨ (Rect.block (s := S256x32768) S256x32768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32768.size a ≤ S32768.size a
  hwx0_3 : ∀ i : grid0.Coords, EltTy.bits .f32 = 32 ∨ (Rect.block (s := S32768) S32768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x256x256.size a ≤ S49x256x256.size a
  hwx0_4 : ∀ i : grid0.Coords, EltTy.bits .bf16 = 32 ∨ (Rect.block (s := S49x256x256) S49x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S40x256.size a ≤ S2000x256.size a
  hwx0_12 : ∀ i : grid0.Coords, EltTy.bits .f32 = 32 ∨ (Rect.block (s := S2000x256) S40x256.size (cc0_transform_12 i) (hinb0_12 i)).WholeWords (EltTy.packing .f32)

variable [Facts₀]

def dot_S40x256_S256x16384_S40x16384_1_0_0_1_n_n : DotDims S40x256 S256x16384 S40x16384 where
  lhsContracting := [1]
  rhsContracting := [0]
  lhsNonContracting := [0]
  rhsNonContracting := [1]
  lhsBatch := []
  rhsBatch := []
  wf := dot_S40x256_S256x16384_S40x16384_1_0_0_1_n_n_wf
def dot_S40x49x256_S40x256x64_S40x49x64_2_1_1_2_0_0 : DotDims S40x49x256 S40x256x64 S40x49x64 where
  lhsContracting := [2]
  rhsContracting := [1]
  lhsNonContracting := [1]
  rhsNonContracting := [2]
  lhsBatch := [0]
  rhsBatch := [0]
  wf := dot_S40x49x256_S40x256x64_S40x49x64_2_1_1_2_0_0_wf
def dot_S40x49x64_S40x64x256_S40x49x256_2_1_1_2_0_0 : DotDims S40x49x64 S40x64x256 S40x49x256 where
  lhsContracting := [2]
  rhsContracting := [1]
  lhsNonContracting := [1]
  rhsNonContracting := [2]
  lhsBatch := [0]
  rhsBatch := [0]
  wf := dot_S40x49x64_S40x64x256_S40x49x256_2_1_1_2_0_0_wf
def dot_S40x256_S256x256_S40x256_1_0_0_1_n_n : DotDims S40x256 S256x256 S40x256 where
  lhsContracting := [1]
  rhsContracting := [0]
  lhsNonContracting := [0]
  rhsNonContracting := [1]
  lhsBatch := []
  rhsBatch := []
  wf := dot_S40x256_S256x256_S40x256_1_0_0_1_n_n_wf

abbrev win0_0 : Pipeline.Window sig grid0 :=
  Pipeline.Window.ofSpec (Memref.whole main_v0) S40x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S49x40x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S40x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S2000x49x256 : Shape := ⟨3, ![2000, 49, 256]⟩
abbrev S2000x256 : Shape := ⟨2, ![2000, 256]⟩
abbrev S2000x32768 : Shape := ⟨2, ![2000, 32768]⟩
abbrev S1x32768 : Shape := ⟨2, ![1, 32768]⟩
abbrev S2000x16384 : Shape := ⟨2, ![2000, 16384]⟩
abbrev S2000x256x64 : Shape := ⟨3, ![2000, 256, 64]⟩
abbrev S2000x64x256 : Shape := ⟨3, ![2000, 64, 256]⟩
abbrev S2000x49x64 : Shape := ⟨3, ![2000, 49, 64]⟩
abbrev S_ : Shape := ⟨0, ![]⟩
abbrev S2000x49 : Shape := ⟨2, ![2000, 49]⟩
abbrev S2000x49x1 : Shape := ⟨3, ![2000, 49, 1]⟩
abbrev S1x1x64 : Shape := ⟨3, ![1, 1, 64]⟩
abbrev S1x1x256 : Shape := ⟨3, ![1, 1, 256]⟩
abbrev S2000x12544 : Shape := ⟨2, ![2000, 12544]⟩
abbrev S1x256 : Shape := ⟨2, ![1, 256]⟩
abbrev S2000 : Shape := ⟨1, ![2000]⟩
abbrev S2000x1 : Shape := ⟨2, ![2000, 1]⟩

abbrev nBuf : Space → Nat
  | .hbm => 125
  | .vmem => 0
  | .smem => 0
  | _ => 0

abbrev bufTy : (tb : Table) → Fin (tcTables nBuf tb) → BufTy
  | .hbm, ⟨0, _⟩ => ⟨S1x2000x256, .f32⟩
  | .hbm, ⟨1, _⟩ => ⟨S49x2000x256, .f32⟩
  | .hbm, ⟨2, _⟩ => ⟨S256x32768, .f32⟩
  | .hbm, ⟨3, _⟩ => ⟨S32768, .f32⟩
  | .hbm, ⟨4, _⟩ => ⟨S12544x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2000x49x256, .f32⟩
  | .hbm, ⟨13, _⟩ => ⟨S2000x256, .f32⟩
  | .hbm, ⟨14, _⟩ => ⟨S2000x32768, .f32⟩
  | .hbm, ⟨15, _⟩ => ⟨S1x32768, .f32⟩
  | .hbm, ⟨16, _⟩ => ⟨S2000x32768, .f32⟩
  | .hbm, ⟨17, _⟩ => ⟨S2000x32768, .f32⟩
  | .hbm, ⟨18, _⟩ => ⟨S2000x16384, .f32⟩
  | .hbm, ⟨19, _⟩ => ⟨S2000x256x64, .f32⟩
  | .hbm, ⟨20, _⟩ => ⟨S2000x16384, .f32⟩
  | .hbm, ⟨21, _⟩ => ⟨S2000x64x256, .f32⟩
  | .hbm, ⟨22, _⟩ => ⟨S2000x49x64, .f32⟩
  | .hbm, ⟨23, _⟩ => ⟨S_, .f32⟩
  | .hbm, ⟨24, _⟩ => ⟨S2000x49, .f32⟩
  | .hbm, ⟨25, _⟩ => ⟨S2000x49x1, .f32⟩
  | .hbm, ⟨26, _⟩ => ⟨S_, .f32⟩
  | .hbm, ⟨27, _⟩ => ⟨S2000x49x1, .f32⟩
  | .hbm, ⟨28, _⟩ => ⟨S2000x49x1, .f32⟩
  | .hbm, ⟨29, _⟩ => ⟨S2000x49x64, .f32⟩
  | .hbm, ⟨30, _⟩ => ⟨S2000x49x64, .f32⟩
  | .hbm, ⟨31, _⟩ => ⟨S2000x49x64, .f32⟩
  | .hbm, ⟨32, _⟩ => ⟨S_, .f32⟩
  | .hbm, ⟨33, _⟩ => ⟨S2000x49, .f32⟩
  | .hbm, ⟨34, _⟩ => ⟨S2000x49x1, .f32⟩
  | .hbm, ⟨35, _⟩ => ⟨S_, .f32⟩
  | .hbm, ⟨36, _⟩ => ⟨S2000x49x1, .f32⟩
  | .hbm, ⟨37, _⟩ => ⟨S2000x49x1, .f32⟩
  | .hbm, ⟨38, _⟩ => ⟨S2000x49x64, .f32⟩
  | .hbm, ⟨39, _⟩ => ⟨S2000x49x64, .f32⟩
  | .hbm, ⟨40, _⟩ => ⟨S_, .f32⟩
  | .hbm, ⟨41, _⟩ => ⟨S2000x49x1, .f32⟩
  | .hbm, ⟨42, _⟩ => ⟨S2000x49x1, .f32⟩
  | .hbm, ⟨43, _⟩ => ⟨S2000x49x1, .f32⟩
  | .hbm, ⟨44, _⟩ => ⟨S2000x49x64, .f32⟩
  | .hbm, ⟨45, _⟩ => ⟨S2000x49x64, .f32⟩
  | .hbm, ⟨46, _⟩ => ⟨S1x1x64, .f32⟩
  | .hbm, ⟨47, _⟩ => ⟨S2000x49x64, .f32⟩
  | .hbm, ⟨48, _⟩ => ⟨S2000x49x64, .f32⟩
  | .hbm, ⟨49, _⟩ => ⟨S1x1x64, .f32⟩
  | .hbm, ⟨50, _⟩ => ⟨S2000x49x64, .f32⟩
  | .hbm, ⟨51, _⟩ => ⟨S2000x49x64, .f32⟩
  | .hbm, ⟨52, _⟩ => ⟨S_, .f32⟩
  | .hbm, ⟨53, _⟩ => ⟨S2000x49x64, .f32⟩
  | .hbm, ⟨54, _⟩ => ⟨S2000x49x64, .f32⟩
  | .hbm, ⟨55, _⟩ => ⟨S2000x49x256, .f32⟩
  | .hbm, ⟨56, _⟩ => ⟨S_, .f32⟩
  | .hbm, ⟨57, _⟩ => ⟨S2000x49, .f32⟩
  | .hbm, ⟨58, _⟩ => ⟨S2000x49x1, .f32⟩
  | .hbm, ⟨59, _⟩ => ⟨S_, .f32⟩
  | .hbm, ⟨60, _⟩ => ⟨S2000x49x1, .f32⟩
  | .hbm, ⟨61, _⟩ => ⟨S2000x49x1, .f32⟩
  | .hbm, ⟨62, _⟩ => ⟨S2000x49x256, .f32⟩
  | .hbm, ⟨63, _⟩ => ⟨S2000x49x256, .f32⟩
  | .hbm, ⟨64, _⟩ => ⟨S2000x49x256, .f32⟩
  | .hbm, ⟨65, _⟩ => ⟨S_, .f32⟩
  | .hbm, ⟨66, _⟩ => ⟨S2000x49, .f32⟩
  | .hbm, ⟨67, _⟩ => ⟨S2000x49x1, .f32⟩
  | .hbm, ⟨68, _⟩ => ⟨S_, .f32⟩
  | .hbm, ⟨69, _⟩ => ⟨S2000x49x1, .f32⟩
  | .hbm, ⟨70, _⟩ => ⟨S2000x49x1, .f32⟩
  | .hbm, ⟨71, _⟩ => ⟨S2000x49x256, .f32⟩
  | .hbm, ⟨72, _⟩ => ⟨S2000x49x256, .f32⟩
  | .hbm, ⟨73, _⟩ => ⟨S_, .f32⟩
  | .hbm, ⟨74, _⟩ => ⟨S2000x49x1, .f32⟩
  | .hbm, ⟨75, _⟩ => ⟨S2000x49x1, .f32⟩
  | .hbm, ⟨76, _⟩ => ⟨S2000x49x1, .f32⟩
  | .hbm, ⟨77, _⟩ => ⟨S2000x49x256, .f32⟩
  | .hbm, ⟨78, _⟩ => ⟨S2000x49x256, .f32⟩
  | .hbm, ⟨79, _⟩ => ⟨S1x1x256, .f32⟩
  | .hbm, ⟨80, _⟩ => ⟨S2000x49x256, .f32⟩
  | .hbm, ⟨81, _⟩ => ⟨S2000x49x256, .f32⟩
  | .hbm, ⟨82, _⟩ => ⟨S1x1x256, .f32⟩
  | .hbm, ⟨83, _⟩ => ⟨S2000x49x256, .f32⟩
  | .hbm, ⟨84, _⟩ => ⟨S2000x49x256, .f32⟩
  | .hbm, ⟨85, _⟩ => ⟨S_, .f32⟩
  | .hbm, ⟨86, _⟩ => ⟨S2000x49x256, .f32⟩
  | .hbm, ⟨87, _⟩ => ⟨S2000x49x256, .f32⟩
  | .hbm, ⟨88, _⟩ => ⟨S2000x12544, .f32⟩
  | .hbm, ⟨89, _⟩ => ⟨S2000x256, .f32⟩
  | .hbm, ⟨90, _⟩ => ⟨S1x256, .f32⟩
  | .hbm, ⟨91, _⟩ => ⟨S2000x256, .f32⟩
  | .hbm, ⟨92, _⟩ => ⟨S2000x256, .f32⟩
  | .hbm, ⟨93, _⟩ => ⟨S_, .f32⟩
  | .hbm, ⟨94, _⟩ => ⟨S2000, .f32⟩
  | .hbm, ⟨95, _⟩ => ⟨S2000x1, .f32⟩
  | .hbm, ⟨96, _⟩ => ⟨S_, .f32⟩
  | .hbm, ⟨97, _⟩ => ⟨S2000x1, .f32⟩
  | .hbm, ⟨98, _⟩ => ⟨S2000x1, .f32⟩
  | .hbm, ⟨99, _⟩ => ⟨S2000x256, .f32⟩
  | .hbm, ⟨100, _⟩ => ⟨S2000x256, .f32⟩
  | .hbm, ⟨101, _⟩ => ⟨S2000x256, .f32⟩
  | .hbm, ⟨102, _⟩ => ⟨S_, .f32⟩
  | .hbm, ⟨103, _⟩ => ⟨S2000, .f32⟩
  | .hbm, ⟨104, _⟩ => ⟨S2000x1, .f32⟩
  | .hbm, ⟨105, _⟩ => ⟨S_, .f32⟩
  | .hbm, ⟨106, _⟩ => ⟨S2000x1, .f32⟩
  | .hbm, ⟨107, _⟩ => ⟨S2000x1, .f32⟩
  | .hbm, ⟨108, _⟩ => ⟨S2000x256, .f32⟩
  | .hbm, ⟨109, _⟩ => ⟨S2000x256, .f32⟩
  | .hbm, ⟨110, _⟩ => ⟨S_, .f32⟩
  | .hbm, ⟨111, _⟩ => ⟨S2000x1, .f32⟩
  | .hbm, ⟨112, _⟩ => ⟨S2000x1, .f32⟩
  | .hbm, ⟨113, _⟩ => ⟨S2000x1, .f32⟩
  | .hbm, ⟨114, _⟩ => ⟨S2000x256, .f32⟩
  | .hbm, ⟨115, _⟩ => ⟨S2000x256, .f32⟩
  | .hbm, ⟨116, _⟩ => ⟨S1x256, .f32⟩
  | .hbm, ⟨117, _⟩ => ⟨S2000x256, .f32⟩
  | .hbm, ⟨118, _⟩ => ⟨S2000x256, .f32⟩
  | .hbm, ⟨119, _⟩ => ⟨S1x256, .f32⟩
  | .hbm, ⟨120, _⟩ => ⟨S2000x256, .f32⟩
  | .hbm, ⟨121, _⟩ => ⟨S2000x256, .f32⟩
  | .hbm, ⟨122, _⟩ => ⟨S_, .f32⟩
  | .hbm, ⟨123, _⟩ => ⟨S2000x256, .f32⟩
  | .hbm, ⟨124, _⟩ => ⟨S2000x256, .f32⟩
  | _, _ => ⟨S1x2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_cst : Ref sig .tc := ⟨.hbm, 122, rfl⟩
abbrev main_call2_v0 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  transposes_S49x2000x256_S2000x49x256_1_0_2 : S49x2000x256.Transposes [1, 0, 2] S2000x49x256
  shapeCasts_S1x2000x256_S2000x256 : S1x2000x256.ShapeCasts S2000x256
  bcast_S32768_S1x32768_1 : S32768.BroadcastsInDim S1x32768 (![1] : Fin 1 → Fin S1x32768.rank)
  bcast_S1x32768_S2000x32768_0_1 : S1x32768.BroadcastsInDim S2000x32768 (![0, 1] : Fin 2 → Fin S2000x32768.rank)
  slices_S2000x32768_S2000x16384_0_0 : S2000x32768.Slices ![0, 0] S2000x16384
  shapeCasts_S2000x16384_S2000x256x64 : S2000x16384.ShapeCasts S2000x256x64
  slices_S2000x32768_S2000x16384_0_16384 : S2000x32768.Slices ![0, 16384] S2000x16384
  shapeCasts_S2000x16384_S2000x64x256 : S2000x16384.ShapeCasts S2000x64x256
  reducesTo_S2000x49x64_S2000x49_d2 : S2000x49x64.ReducesTo [2] S2000x49
  h_S_ : 0 < S_.numel
  bcast_S2000x49_S2000x49x1_0_1 : S2000x49.BroadcastsInDim S2000x49x1 (![0, 1] : Fin 2 → Fin S2000x49x1.rank)
  bcast_S_S2000x49x1 : S_.BroadcastsInDim S2000x49x1 (![] : Fin 0 → Fin S2000x49x1.rank)
  bcast_S2000x49x1_S2000x49x64_0_1_2 : S2000x49x1.BroadcastsInDim S2000x49x64 (![0, 1, 2] : Fin 3 → Fin S2000x49x64.rank)
  bcast_S64_S1x1x64_2 : S64.BroadcastsInDim S1x1x64 (![2] : Fin 1 → Fin S1x1x64.rank)
  bcast_S1x1x64_S2000x49x64_0_1_2 : S1x1x64.BroadcastsInDim S2000x49x64 (![0, 1, 2] : Fin 3 → Fin S2000x49x64.rank)
  bcast_S_S2000x49x64 : S_.BroadcastsInDim S2000x49x64 (![] : Fin 0 → Fin S2000x49x64.rank)
  reducesTo_S2000x49x256_S2000x49_d2 : S2000x49x256.ReducesTo [2] S2000x49
  bcast_S2000x49x1_S2000x49x256_0_1_2 : S2000x49x1.BroadcastsInDim S2000x49x256 (![0, 1, 2] : Fin 3 → Fin S2000x49x256.rank)
  bcast_S256_S1x1x256_2 : S256.BroadcastsInDim S1x1x256 (![2] : Fin 1 → Fin S1x1x256.rank)
  bcast_S1x1x256_S2000x49x256_0_1_2 : S1x1x256.BroadcastsInDim S2000x49x256 (![0, 1, 2] : Fin 3 → Fin S2000x49x256.rank)
  bcast_S_S2000x49x256 : S_.BroadcastsInDim S2000x49x256 (![] : Fin 0 → Fin S2000x49x256.rank)
  shapeCasts_S2000x49x256_S2000x12544 : S2000x49x256.ShapeCasts S2000x12544
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bcast_S_S2000x256 : S_.BroadcastsInDim S2000x256 (![] : Fin 0 → Fin S2000x256.rank)
  dot_S2000x256_S256x32768_S2000x32768_1_0_0_1_n_n_wf : DotDims.WF S2000x256 S256x32768 S2000x32768 [1] [0] [0] [1] [] []
  dot_S2000x49x256_S2000x256x64_S2000x49x64_2_1_1_2_0_0_wf : DotDims.WF S2000x49x256 S2000x256x64 S2000x49x64 [2] [1] [1] [2] [0] [0]
  dot_S2000x49x64_S2000x64x256_S2000x49x256_2_1_1_2_0_0_wf : DotDims.WF S2000x49x64 S2000x64x256 S2000x49x256 [2] [1] [1] [2] [0] [0]
  dot_S2000x12544_S12544x256_S2000x256_1_0_0_1_n_n_wf : DotDims.WF S2000x12544 S12544x256 S2000x256 [1] [0] [0] [1] [] []

variable [Facts₀]

def dot_S2000x256_S256x32768_S2000x32768_1_0_0_1_n_n : DotDims S2000x256 S256x32768 S2000x32768 where
  lhsContracting := [1]
  rhsContracting := [0]
  lhsNonContracting := [0]
  rhsNonContracting := [1]
  lhsBatch := []
  rhsBatch := []
  wf := dot_S2000x256_S256x32768_S2000x32768_1_0_0_1_n_n_wf
def dot_S2000x49x256_S2000x256x64_S2000x49x64_2_1_1_2_0_0 : DotDims S2000x49x256 S2000x256x64 S2000x49x64 where
  lhsContracting := [2]
  rhsContracting := [1]
  lhsNonContracting := [1]
  rhsNonContracting := [2]
  lhsBatch := [0]
  rhsBatch := [0]
  wf := dot_S2000x49x256_S2000x256x64_S2000x49x64_2_1_1_2_0_0_wf
def dot_S2000x49x64_S2000x64x256_S2000x49x256_2_1_1_2_0_0 : DotDims S2000x49x64 S2000x64x256 S2000x49x256 where
  lhsContracting := [2]
  rhsContracting := [1]
  lhsNonContracting := [1]
  rhsNonContracting := [2]
  lhsBatch := [0]
  rhsBatch := [0]
  wf := dot_S2000x49x64_S2000x64x256_S2000x49x256_2_1_1_2_0_0_wf
def dot_S2000x12544_S12544x256_S2000x256_1_0_0_1_n_n : DotDims S2000x12544 S12544x256 S2000x256 where
  lhsContracting := [1]
  rhsContracting := [0]
  lhsNonContracting := [0]
  rhsNonContracting := [1]
  lhsBatch := []
  rhsBatch := []
  wf := dot_S2000x12544_S12544x256_S2000x256_1_0_0_1_n_n_wf

class Facts : Prop extends Facts₀ where

variable [Facts]
-- ==== Proof.Spec.lean ====
/-
  The function both programs compute, one output row at a time.

  An output row depends on one proposal only: on that proposal's feature row `x` (256 numbers) and its 49 pooled rows
  `y r` (256 numbers each), and on the weights. The row of dynamic parameters is `P j = (∑ k, x k · W k j) + b j`
  (32768 numbers); its first half, read as a 256 × 64 matrix, maps each pooled row to 64 features, which are normalised
  (mean and variance over the 64), scaled, shifted and clipped at zero; its second half, read as a 64 × 256 matrix, maps
  those back to 256 features, normalised and clipped the same way; the 49 × 256 numbers that result, flattened in
  row-major order, are multiplied by the output matrix (12544 × 256), the bias is added, and the 256 results are
  normalised and clipped once more.

  Everything is over the extended reals with the exact operations; no law of arithmetic is used beyond regrouping a
  finite sum, so nothing here asks for finiteness.
-/
import Idealize.ShloMosaic.PureOps.Ideal
import Idealize.ShloMosaic.Lib.ValueIdx
import Mathlib.Algebra.BigOperators.Fin
import Mathlib.Algebra.BigOperators.Intervals
import Mathlib.Logic.Equiv.Fin.Basic

noncomputable section

open scoped BigOperators
open Idealize.ShloMosaic

namespace Cert.DynConv

/-- The three float literals of the normalisations, as the extended reals their words denote: 64, 256 and the
    epsilon (the same words in both programs, so their values are never needed). -/
abbrev w64 : EReal := Ideal.ofBits .f32 0x42800000#32
abbrev w256 : EReal := Ideal.ofBits .f32 0x43800000#32
abbrev wEps : EReal := Ideal.ofBits .f32 0x3727C5AC#32

/-- The mean of a finite family: its sum divided by the literal `N` of its length. -/
def mean {n : ℕ} (N : EReal) (f : Fin n → EReal) : EReal := Ideal.div (∑ k : Fin n, f k) N

/-- Layer normalisation of `f` at `i`: centred, times the reciprocal root of (variance + epsilon), times the gain, plus
    the shift — in the order both programs multiply. -/
def lnorm {n : ℕ} (N : EReal) (g b f : Fin n → EReal) (i : Fin n) : EReal :=
  (f i - mean N f) * Ideal.rsqrt (mean N (fun k => (f k - mean N f) * (f k - mean N f)) + wEps) * g i + b i

/-- … then clipped at zero. -/
def lnrelu {n : ℕ} (N : EReal) (g b f : Fin n → EReal) (i : Fin n) : EReal := max (lnorm N g b f i) 0

/-- Entry `j` of the proposal's dynamic parameters. -/
def params (x : Fin 256 → EReal) (W : Fin 256 → Fin 32768 → EReal) (b : Fin 32768 → EReal) (j : Fin 32768) : EReal :=
  (∑ k : Fin 256, x k * W k j) + b j

/-- Where entry (h, d) of the first parameter matrix (256 × 64) sits among the parameters. -/
def j1 (h : Fin 256) (d : Fin 64) : Fin 32768 := ⟨h.val * 64 + d.val, by have := h.isLt; have := d.isLt; omega⟩
/-- Where entry (d, h) of the second parameter matrix (64 × 256) sits: after the first 16384. -/
def j2 (d : Fin 64) (h : Fin 256) : Fin 32768 := ⟨16384 + (d.val * 256 + h.val), by have := h.isLt; have := d.isLt; omega⟩
/-- Where entry (r, h) of the 49 × 256 activations sits once flattened. -/
def kflat (r : Fin 49) (h : Fin 256) : Fin 12544 := ⟨r.val * 256 + h.val, by have := r.isLt; have := h.isLt; omega⟩

/-- First product: pooled row `r` through the first parameter matrix. -/
def feat1 (y : Fin 49 → Fin 256 → EReal) (P : Fin 32768 → EReal) (r : Fin 49) (d : Fin 64) : EReal :=
  ∑ h : Fin 256, y r h * P (j1 h d)

/-- Second product: the 64 features of row `r` through the second parameter matrix. -/
def feat2 (a1 : Fin 49 → Fin 64 → EReal) (P : Fin 32768 → EReal) (r : Fin 49) (h : Fin 256) : EReal :=
  ∑ d : Fin 64, a1 r d * P (j2 d h)

/-- The output projection of the flattened activations, plus the bias. -/
def proj (a2 : Fin 49 → Fin 256 → EReal) (Wo : Fin 12544 → Fin 256 → EReal) (bo : Fin 256 → EReal) (c : Fin 256) : EReal :=
  (∑ k : Fin 12544, a2 ⟨k.val / 256, by have := k.isLt; omega⟩ ⟨k.val % 256, Nat.mod_lt _ (by decide)⟩ * Wo k c) + bo c

/-- Activations after the first normalisation. -/
def act1 (x : Fin 256 → EReal) (y : Fin 49 → Fin 256 → EReal) (W : Fin 256 → Fin 32768 → EReal) (b : Fin 32768 → EReal)
    (g1 b1 : Fin 64 → EReal) (r : Fin 49) (d : Fin 64) : EReal :=
  lnrelu w64 g1 b1 (feat1 y (params x W b) r) d

/-- Activations after the second normalisation. -/
def act2 (x : Fin 256 → EReal) (y : Fin 49 → Fin 256 → EReal) (W : Fin 256 → Fin 32768 → EReal) (b : Fin 32768 → EReal)
    (g1 b1 : Fin 64 → EReal) (g2 b2 : Fin 256 → EReal) (r : Fin 49) (h : Fin 256) : EReal :=
  lnrelu w256 g2 b2 (feat2 (act1 x y W b g1 b1) (params x W b) r) h

/-- THE ROW FUNCTION: entry `c` of the output row of the proposal with feature row `x` and pooled rows `y`. -/
def rowOut (x : Fin 256 → EReal) (y : Fin 49 → Fin 256 → EReal) (W : Fin 256 → Fin 32768 → EReal) (b : Fin 32768 → EReal)
    (Wo : Fin 12544 → Fin 256 → EReal) (bo : Fin 256 → EReal) (g1 b1 : Fin 64 → EReal) (g2 b2 g3 b3 : Fin 256 → EReal)
    (c : Fin 256) : EReal :=
  lnrelu w256 g3 b3 (proj (act2 x y W b g1 b1 g2 b2) Wo bo) c

/-! ## Regrouping the projection's sum -/

/-- A sum over the 12544 flattened positions is the double sum over the 49 rows and the 256 places in a row. -/
theorem sum_flat {M : Type*} [AddCommMonoid M] (F : Fin 12544 → M) :
    ∑ k : Fin 12544, F k = ∑ r : Fin 49, ∑ h : Fin 256, F (kflat r h) := by
  rw [← Equiv.sum_comp (finProdFinEquiv (m := 49) (n := 256)) F, Fintype.sum_prod_type]
  refine Finset.sum_congr rfl fun r _ => Finset.sum_congr rfl fun h _ => congrArg F (Fin.ext ?_)
  show h.val + 256 * r.val = r.val * 256 + h.val
  omega

/-- The projection as the kernel adds it up: row by row. -/
theorem proj_rows (a2 : Fin 49 → Fin 256 → EReal) (Wo : Fin 12544 → Fin 256 → EReal) (bo : Fin 256 → EReal) (c : Fin 256) :
    proj a2 Wo bo c = (∑ r : Fin 49, ∑ h : Fin 256, a2 r h * Wo (kflat r h) c) + bo c := by
  unfold proj
  rw [sum_flat]
  refine congrArg (· + bo c) (Finset.sum_congr rfl fun r _ => Finset.sum_congr rfl fun h _ => ?_)
  have hr : (kflat r h).val / 256 = r.val := by
    show (r.val * 256 + h.val) / 256 = r.val
    have := h.isLt; omega
  have hh : (kflat r h).val % 256 = h.val := by
    show (r.val * 256 + h.val) % 256 = h.val
    have := h.isLt; omega
  congr 2
  · exact Fin.ext hr
  · exact Fin.ext hh

/-- A sum of 49 terms added one after the other from zero, as the kernel's accumulator does. -/
theorem sum49_chain {M : Type*} [AddCommMonoid M] (T : ℕ → M) :
    ∑ r : Fin 49, T r.val = ∑ r ∈ Finset.range 49, T r := (Finset.sum_range T).symm

end Cert.DynConv

end
-- ==== Proof.KTerms.lean ====
/-
  Names for the sub-terms of what the kernel body stores (the generated `Gen.out0_12`), so that each can be read at an
  index by a lemma of its own: `stack` — the 49 pooled blocks cast to bf16, stacked along a new middle axis, multiplied
  with the first parameter matrix and normalised (the first layer normalisation, before its clipping); `acc88` …
  `acc108` — the output projection accumulated row by row over the 49 rows of the activations; `projAcc` — that
  accumulation completed, with the bias. `out0_12_eq` says the generated term is built from these names (it is the same
  term, spelt with the names). The text of the definitions below is a table written out by
  scratch/gen_kterms.js from the generated Frame.lean's `def out0_12`; nothing is proved here beyond `rfl`.
-/
import proofs.«100884_j79053168050560_2_alg».proof.Proof.Gen.KernelIdeal.Frame

set_option maxRecDepth 16384

noncomputable section

namespace Cert.DynConv.K

open Cert.KernelIdeal Cert.KernelIdeal.Gen Idealize.ShloMosaic Idealize.ShloMosaic.TcCoe Idealize.SL.Sem

variable {F : FTy → Type} [FloatOps F]

/-- The 49 pooled blocks `x1[r]` (each 40 × 256), cast and stacked to 40 × 49 × 256, times the first parameter matrix
    `v14` (40 × 256 × 64), then the first layer normalisation with gain `x6` and shift `x7` (no clipping yet). -/
abbrev stack (v14 : FVec F S40x256x64 .bf16) (x1 : Vec F S49x40x256 .f32) (x6 x7 : Vec F S64 .f32) : FVec F S40x49x64 .f32 :=
  k0_pay88 v14 (k0_pay39 (View.ld x1 r0_39)) (k0_pay40 (View.ld x1 r0_40)) (k0_pay41 (View.ld x1 r0_41)) (k0_pay42 (View.ld x1 r0_42)) (k0_pay43 (View.ld x1 r0_43)) (k0_pay44 (View.ld x1 r0_44)) (k0_pay45 (View.ld x1 r0_45)) (k0_pay46 (View.ld x1 r0_46)) (k0_pay47 (View.ld x1 r0_47)) (k0_pay48 (View.ld x1 r0_48)) (k0_pay49 (View.ld x1 r0_49)) (k0_pay50 (View.ld x1 r0_50)) (k0_pay51 (View.ld x1 r0_51)) (k0_pay52 (View.ld x1 r0_52)) (k0_pay53 (View.ld x1 r0_53)) (k0_pay54 (k0_pay5 (View.ld x1 r0_5))) (k0_pay55 (k0_pay6 (View.ld x1 r0_6))) (k0_pay56 (k0_pay7 (View.ld x1 r0_7))) (k0_pay57 (k0_pay8 (View.ld x1 r0_8))) (k0_pay58 (k0_pay9 (View.ld x1 r0_9))) (k0_pay59 (k0_pay10 (View.ld x1 r0_10))) (k0_pay60 (k0_pay11 (View.ld x1 r0_11))) (k0_pay61 (k0_pay12 (View.ld x1 r0_12))) (k0_pay62 (k0_pay13 (View.ld x1 r0_13))) (k0_pay63 (k0_pay14 (View.ld x1 r0_14))) (k0_pay64 (k0_pay15 (View.ld x1 r0_15))) (k0_pay65 (k0_pay16 (View.ld x1 r0_16))) (k0_pay66 (k0_pay17 (View.ld x1 r0_17))) (k0_pay67 (k0_pay18 (View.ld x1 r0_18))) (k0_pay68 (k0_pay19 (View.ld x1 r0_19))) (k0_pay69 (k0_pay20 (View.ld x1 r0_20))) (k0_pay70 (k0_pay21 (View.ld x1 r0_21))) (k0_pay71 (k0_pay22 (View.ld x1 r0_22))) (k0_pay72 (k0_pay23 (View.ld x1 r0_23))) (k0_pay73 (k0_pay24 (View.ld x1 r0_24))) (k0_pay74 (k0_pay25 (View.ld x1 r0_25))) (k0_pay75 (k0_pay26 (View.ld x1 r0_26))) (k0_pay76 (k0_pay27 (View.ld x1 r0_27))) (k0_pay77 (k0_pay28 (View.ld x1 r0_28))) (k0_pay78 (k0_pay29 (View.ld x1 r0_29))) (k0_pay79 (k0_pay30 (View.ld x1 r0_30))) (k0_pay80 (k0_pay31 (View.ld x1 r0_31))) (k0_pay81 (k0_pay32 (View.ld x1 r0_32))) (k0_pay82 (k0_pay33 (View.ld x1 r0_33))) (k0_pay83 (k0_pay34 (View.ld x1 r0_34))) (k0_pay84 (k0_pay35 (View.ld x1 r0_35))) (k0_pay85 (k0_pay36 (View.ld x1 r0_36))) (k0_pay86 (k0_pay37 (View.ld x1 r0_37))) (k0_pay87 (k0_pay38 (View.ld x1 r0_38))) (View.ld x6 r0_54) (View.ld x7 r0_54)

/-- Node T88 of the accumulation: `k0_pay90` applied. -/
abbrev acc88 (v20 : FVec F S40x64x256 .bf16) (v220 v221 : Vec F S256 .f32) (v248 : FVec F S40x49x64 .f32) (cst : F .f32) (x4 : Vec F S49x256x256 .bf16) :=
  k0_pay90 v20 v220 v221 v248 cst (View.ld x4 r0_56)

/-- Node T89 of the accumulation: `k0_pay91` applied. -/
abbrev acc89 (v20 : FVec F S40x64x256 .bf16) (v220 v221 : Vec F S256 .f32) (v248 : FVec F S40x49x64 .f32) (cst : F .f32) (x4 : Vec F S49x256x256 .bf16) :=
  k0_pay91 v20 v220 v221 v248 cst (View.ld x4 r0_57)

/-- Node T90 of the accumulation: `k0_pay92` applied. -/
abbrev acc90 (v20 : FVec F S40x64x256 .bf16) (v220 v221 : Vec F S256 .f32) (v248 : FVec F S40x49x64 .f32) (cst : F .f32) (x4 : Vec F S49x256x256 .bf16) :=
  k0_pay92 (k0_pay89 v20 v220 v221 v248 cst) (acc88 v20 v220 v221 v248 cst x4) (acc89 v20 v220 v221 v248 cst x4) (View.ld x4 r0_58) (View.ld x4 r0_59) (View.ld x4 r0_60) (View.ld x4 r0_61) (View.ld x4 r0_62)

/-- Node T91 of the accumulation: `k0_pay93` applied. -/
abbrev acc91 (v20 : FVec F S40x64x256 .bf16) (v220 v221 : Vec F S256 .f32) (v248 : FVec F S40x49x64 .f32) (cst : F .f32) (x4 : Vec F S49x256x256 .bf16) :=
  k0_pay93 (k0_pay89 v20 v220 v221 v248 cst)

/-- Node T92 of the accumulation: `k0_pay94` applied. -/
abbrev acc92 (v20 : FVec F S40x64x256 .bf16) (v220 v221 : Vec F S256 .f32) (v248 : FVec F S40x49x64 .f32) (cst : F .f32) (x4 : Vec F S49x256x256 .bf16) :=
  k0_pay94 (k0_pay89 v20 v220 v221 v248 cst) (acc90 v20 v220 v221 v248 cst x4) (acc91 v20 v220 v221 v248 cst x4) (View.ld x4 r0_63) (View.ld x4 r0_64) (View.ld x4 r0_65) (View.ld x4 r0_66) (View.ld x4 r0_67)

/-- Node T93 of the accumulation: `k0_pay95` applied. -/
abbrev acc93 (v20 : FVec F S40x64x256 .bf16) (v220 v221 : Vec F S256 .f32) (v248 : FVec F S40x49x64 .f32) (cst : F .f32) (x4 : Vec F S49x256x256 .bf16) :=
  k0_pay95 (k0_pay89 v20 v220 v221 v248 cst)

/-- Node T94 of the accumulation: `k0_pay96` applied. -/
abbrev acc94 (v20 : FVec F S40x64x256 .bf16) (v220 v221 : Vec F S256 .f32) (v248 : FVec F S40x49x64 .f32) (cst : F .f32) (x4 : Vec F S49x256x256 .bf16) :=
  k0_pay96 (View.ld x4 r0_68)

/-- Node T96 of the accumulation: `k0_pay97` applied. -/
abbrev acc96 (v20 : FVec F S40x64x256 .bf16) (v220 v221 : Vec F S256 .f32) (v248 : FVec F S40x49x64 .f32) (cst : F .f32) (x4 : Vec F S49x256x256 .bf16) :=
  k0_pay97 (k0_pay89 v20 v220 v221 v248 cst) (acc92 v20 v220 v221 v248 cst x4) (acc93 v20 v220 v221 v248 cst x4) (acc94 v20 v220 v221 v248 cst x4) (constant S40x256 .f32 0x00000000#32) (View.ld x4 r0_69) (View.ld x4 r0_70) (View.ld x4 r0_71) (View.ld x4 r0_72) (View.ld x4 r0_73)

/-- Node T97 of the accumulation: `k0_pay98` applied. -/
abbrev acc97 (v20 : FVec F S40x64x256 .bf16) (v220 v221 : Vec F S256 .f32) (v248 : FVec F S40x49x64 .f32) (cst : F .f32) (x4 : Vec F S49x256x256 .bf16) :=
  k0_pay98 (k0_pay89 v20 v220 v221 v248 cst)

/-- Node T98 of the accumulation: `k0_pay99` applied. -/
abbrev acc98 (v20 : FVec F S40x64x256 .bf16) (v220 v221 : Vec F S256 .f32) (v248 : FVec F S40x49x64 .f32) (cst : F .f32) (x4 : Vec F S49x256x256 .bf16) :=
  k0_pay99 (k0_pay89 v20 v220 v221 v248 cst) (acc96 v20 v220 v221 v248 cst x4) (acc97 v20 v220 v221 v248 cst x4) (View.ld x4 r0_74) (View.ld x4 r0_75) (View.ld x4 r0_76) (View.ld x4 r0_77) (View.ld x4 r0_78)

/-- Node T99 of the accumulation: `k0_pay100` applied. -/
abbrev acc99 (v20 : FVec F S40x64x256 .bf16) (v220 v221 : Vec F S256 .f32) (v248 : FVec F S40x49x64 .f32) (cst : F .f32) (x4 : Vec F S49x256x256 .bf16) :=
  k0_pay100 (k0_pay89 v20 v220 v221 v248 cst)

/-- Node T100 of the accumulation: `k0_pay101` applied. -/
abbrev acc100 (v20 : FVec F S40x64x256 .bf16) (v220 v221 : Vec F S256 .f32) (v248 : FVec F S40x49x64 .f32) (cst : F .f32) (x4 : Vec F S49x256x256 .bf16) :=
  k0_pay101 (View.ld x4 r0_79)

/-- Node T101 of the accumulation: `k0_pay102` applied. -/
abbrev acc101 (v20 : FVec F S40x64x256 .bf16) (v220 v221 : Vec F S256 .f32) (v248 : FVec F S40x49x64 .f32) (cst : F .f32) (x4 : Vec F S49x256x256 .bf16) :=
  k0_pay102 (k0_pay89 v20 v220 v221 v248 cst) (acc98 v20 v220 v221 v248 cst x4) (acc99 v20 v220 v221 v248 cst x4) (acc100 v20 v220 v221 v248 cst x4) (View.ld x4 r0_80) (View.ld x4 r0_81) (View.ld x4 r0_82) (View.ld x4 r0_83) (View.ld x4 r0_84)

/-- Node T102 of the accumulation: `k0_pay103` applied. -/
abbrev acc102 (v20 : FVec F S40x64x256 .bf16) (v220 v221 : Vec F S256 .f32) (v248 : FVec F S40x49x64 .f32) (cst : F .f32) (x4 : Vec F S49x256x256 .bf16) :=
  k0_pay103 (k0_pay89 v20 v220 v221 v248 cst)

/-- Node T103 of the accumulation: `k0_pay104` applied. -/
abbrev acc103 (v20 : FVec F S40x64x256 .bf16) (v220 v221 : Vec F S256 .f32) (v248 : FVec F S40x49x64 .f32) (cst : F .f32) (x4 : Vec F S49x256x256 .bf16) :=
  k0_pay104 (k0_pay89 v20 v220 v221 v248 cst) (acc101 v20 v220 v221 v248 cst x4) (acc102 v20 v220 v221 v248 cst x4) (View.ld x4 r0_85) (View.ld x4 r0_86) (View.ld x4 r0_87) (View.ld x4 r0_88) (View.ld x4 r0_89)

/-- Node T104 of the accumulation: `k0_pay105` applied. -/
abbrev acc104 (v20 : FVec F S40x64x256 .bf16) (v220 v221 : Vec F S256 .f32) (v248 : FVec F S40x49x64 .f32) (cst : F .f32) (x4 : Vec F S49x256x256 .bf16) :=
  k0_pay105 (k0_pay89 v20 v220 v221 v248 cst)

/-- Node T105 of the accumulation: `k0_pay106` applied. -/
abbrev acc105 (v20 : FVec F S40x64x256 .bf16) (v220 v221 : Vec F S256 .f32) (v248 : FVec F S40x49x64 .f32) (cst : F .f32) (x4 : Vec F S49x256x256 .bf16) :=
  k0_pay106 (k0_pay89 v20 v220 v221 v248 cst) (acc103 v20 v220 v221 v248 cst x4) (acc104 v20 v220 v221 v248 cst x4) (View.ld x4 r0_90) (View.ld x4 r0_91) (View.ld x4 r0_92) (View.ld x4 r0_93) (View.ld x4 r0_94) (View.ld x4 r0_95)

/-- Node T106 of the accumulation: `k0_pay107` applied. -/
abbrev acc106 (v20 : FVec F S40x64x256 .bf16) (v220 v221 : Vec F S256 .f32) (v248 : FVec F S40x49x64 .f32) (cst : F .f32) (x4 : Vec F S49x256x256 .bf16) :=
  k0_pay107 (k0_pay89 v20 v220 v221 v248 cst)

/-- Node T107 of the accumulation: `k0_pay108` applied. -/
abbrev acc107 (v20 : FVec F S40x64x256 .bf16) (v220 v221 : Vec F S256 .f32) (v248 : FVec F S40x49x64 .f32) (cst : F .f32) (x4 : Vec F S49x256x256 .bf16) :=
  k0_pay108 (k0_pay89 v20 v220 v221 v248 cst) (acc105 v20 v220 v221 v248 cst x4) (acc106 v20 v220 v221 v248 cst x4) (View.ld x4 r0_96) (View.ld x4 r0_97) (View.ld x4 r0_98) (View.ld x4 r0_99) (View.ld x4 r0_100)

/-- Node T108 of the accumulation: `k0_pay109` applied. -/
abbrev acc108 (v20 : FVec F S40x64x256 .bf16) (v220 v221 : Vec F S256 .f32) (v248 : FVec F S40x49x64 .f32) (cst : F .f32) (x4 : Vec F S49x256x256 .bf16) :=
  k0_pay109 (k0_pay89 v20 v220 v221 v248 cst)

/-- The output projection's accumulation completed, with the bias `x5`: over the activations `k0_pay89 …`. -/
abbrev projAcc (v20 : FVec F S40x64x256 .bf16) (v220 v221 : Vec F S256 .f32) (v248 : FVec F S40x49x64 .f32) (cst : F .f32) (x4 : Vec F S49x256x256 .bf16) (x5 : Vec F S256 .f32) : FVec F S40x256 .f32 :=
  k0_pay110 (k0_pay89 v20 v220 v221 v248 cst) (acc107 v20 v220 v221 v248 cst x4) (acc108 v20 v220 v221 v248 cst x4) (View.ld x4 r0_101) (View.ld x4 r0_102) (View.ld x4 r0_103) (View.ld x4 r0_104) (View.ld x5 r0_55)

/-- The second-stage activations of a block: what `k0_pay89` is applied to inside `Gen.out0_12`. -/
abbrev actTerm (x0 : Vec F S40x256 .f32) (x1 : Vec F S49x40x256 .f32) (x2 : Vec F S256x32768 .bf16) (x3 : Vec F S32768 .f32) (x4 : Vec F S49x256x256 .bf16) (x5 : Vec F S256 .f32) (x6 : Vec F S64 .f32) (x7 : Vec F S64 .f32) (x8 : Vec F S256 .f32) (x9 : Vec F S256 .f32) (x10 : Vec F S256 .f32) (x11 : Vec F S256 .f32) : FVec F S40x49x256 .f32 :=
  (k0_pay89 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32))

/-- The generated stored value, spelt with the names above. -/
theorem out0_12_eq (x0 : Vec F S40x256 .f32) (x1 : Vec F S49x40x256 .f32) (x2 : Vec F S256x32768 .bf16) (x3 : Vec F S32768 .f32) (x4 : Vec F S49x256x256 .bf16) (x5 : Vec F S256 .f32) (x6 : Vec F S64 .f32) (x7 : Vec F S64 .f32) (x8 : Vec F S256 .f32) (x9 : Vec F S256 .f32) (x10 : Vec F S256 .f32) (x11 : Vec F S256 .f32) :
    out0_12 x0 x1 x2 x3 x4 x5 x6 x7 x8 x9 x10 x11
      = View.canon [(⟨r0_0, k0_pay1 (View.ld x10 r0_55) (View.ld x11 r0_55)
          (k0_pay112 (k0_pay89 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32)) (acc107 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32) x4) (acc108 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32) x4) (View.ld x4 r0_101) (View.ld x4 r0_102) (View.ld x4 r0_103) (View.ld x4 r0_104) (View.ld x5 r0_55))
          (k0_pay113 (k0_pay89 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32)) (acc107 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32) x4) (acc108 (k0_pay4 (View.ld x0 r0_0) (View.ld x2 r0_2) (View.ld x3 r0_4)) (View.ld x8 r0_55) (View.ld x9 r0_55) (stack (k0_pay3 (View.ld x0 r0_0) (View.ld x2 r0_1) (View.ld x3 r0_3)) x1 x6 x7) (Scalar.ofBits .f32 0x00000000#32) x4) (View.ld x4 r0_101) (View.ld x4 r0_102) (View.ld x4 r0_103) (View.ld x4 r0_104) (View.ld x5 r0_55))⟩ : View.Piece (Elt F) S40x256 .f32)] := by
  unfold out0_12
  rfl

end Cert.DynConv.K

end
-- ==== Proof.KMat.lean ====
/-
  The kernel's four matrix products read at an entry, at the exact values: each is the sum over the contracted
  coordinate of the products of the operands' entries (the accumulator is the zero splat, so nothing else is added).
  Two are plain products [40,256]·[256,M]; two are batched over the 40 proposals of a block:
  [40,49,256]·[40,256,64] and [40,49,64]·[40,64,256]. For each, the four (or six) small lemmas say which coordinate of
  an operand's index comes from the result's index and which from the contracted position.
-/
import proofs.«100884_j79053168050560_2_alg».proof.Proof.Gen.KernelIdeal
import Idealize.ShloMosaic.Lib.ValueIdx
import Idealize.ShloMosaic.PureOps.Ideal.Laws

noncomputable section

open scoped BigOperators

namespace Cert.DynConv.K

open Cert.KernelIdeal Idealize.ShloMosaic Idealize.ShloMosaic.ValueIdx

theorem mm_params_l0 (i : S40x16384.Idx) (q : dot_S40x256_S256x16384_S40x16384_1_0_0_1_n_n.contr.Idx) : (dot_S40x256_S256x16384_S40x16384_1_0_0_1_n_n.lhsIdx i q 0).val = (i 0).val := by
  unfold DotDims.lhsIdx
  rw [dif_neg (show ¬(0 : Fin S40x256.rank) ∈ dot_S40x256_S256x16384_S40x16384_1_0_0_1_n_n.lhsBatch by decide), dif_pos (show (0 : Fin S40x256.rank) ∈ dot_S40x256_S256x16384_S40x16384_1_0_0_1_n_n.lhsNonContracting by decide)]
  rfl
theorem mm_params_l1 (i : S40x16384.Idx) (q : dot_S40x256_S256x16384_S40x16384_1_0_0_1_n_n.contr.Idx) : (dot_S40x256_S256x16384_S40x16384_1_0_0_1_n_n.lhsIdx i q 1).val = (q ⟨0, by decide⟩).val :=
  dot_S40x256_S256x16384_S40x16384_1_0_0_1_n_n.lhsIdx_val_of_single rfl i q
theorem mm_params_r0 (i : S40x16384.Idx) (q : dot_S40x256_S256x16384_S40x16384_1_0_0_1_n_n.contr.Idx) : (dot_S40x256_S256x16384_S40x16384_1_0_0_1_n_n.rhsIdx i q 0).val = (q ⟨0, by decide⟩).val :=
  dot_S40x256_S256x16384_S40x16384_1_0_0_1_n_n.rhsIdx_val_of_single rfl i q
theorem mm_params_r1 (i : S40x16384.Idx) (q : dot_S40x256_S256x16384_S40x16384_1_0_0_1_n_n.contr.Idx) : (dot_S40x256_S256x16384_S40x16384_1_0_0_1_n_n.rhsIdx i q 1).val = (i 1).val := by
  unfold DotDims.rhsIdx
  rw [dif_neg (show ¬(1 : Fin S256x16384.rank) ∈ dot_S40x256_S256x16384_S40x16384_1_0_0_1_n_n.rhsBatch by decide), dif_pos (show (1 : Fin S256x16384.rank) ∈ dot_S40x256_S256x16384_S40x16384_1_0_0_1_n_n.rhsNonContracting by decide)]
  rfl

/-- [40,256] · [256,16384] at (p, j): the sum over the 256 contracted places. -/
theorem mm_params (l : FVec Ideal S40x256 .bf16) (r : FVec Ideal S256x16384 .bf16) (p : Fin 40) (j : Fin 16384) :
    matmul dot_S40x256_S256x16384_S40x16384_1_0_0_1_n_n none l r (constant S40x16384 .f32 0x00000000#32) (ix2 p j)
      = ∑ k : Fin 256, l (ix2 p k) * r (ix2 k j) := by
  simp only [matmul]
  rw [Ideal.matmul_constant_zero_apply, ← Equiv.sum_comp (contrEquiv1 dot_S40x256_S256x16384_S40x16384_1_0_0_1_n_n 256 rfl rfl).symm]
  refine Finset.sum_congr rfl fun k _ => ?_
  have hk := contrEquiv1_symm_val dot_S40x256_S256x16384_S40x16384_1_0_0_1_n_n 256 rfl rfl k
  have el : dot_S40x256_S256x16384_S40x16384_1_0_0_1_n_n.lhsIdx (ix2 p j) ((contrEquiv1 dot_S40x256_S256x16384_S40x16384_1_0_0_1_n_n 256 rfl rfl).symm k) = ix2 p k := funext fun a => Fin.ext (by
    match a with
    | ⟨0, _⟩ => exact mm_params_l0 _ _
    | ⟨1, _⟩ => exact (mm_params_l1 _ _).trans hk)
  have er : dot_S40x256_S256x16384_S40x16384_1_0_0_1_n_n.rhsIdx (ix2 p j) ((contrEquiv1 dot_S40x256_S256x16384_S40x16384_1_0_0_1_n_n 256 rfl rfl).symm k) = ix2 k j := funext fun a => Fin.ext (by
    match a with
    | ⟨0, _⟩ => exact (mm_params_r0 _ _).trans hk
    | ⟨1, _⟩ => exact mm_params_r1 _ _)
  rw [el, er]

theorem mm_out_l0 (i : S40x256.Idx) (q : dot_S40x256_S256x256_S40x256_1_0_0_1_n_n.contr.Idx) : (dot_S40x256_S256x256_S40x256_1_0_0_1_n_n.lhsIdx i q 0).val = (i 0).val := by
  unfold DotDims.lhsIdx
  rw [dif_neg (show ¬(0 : Fin S40x256.rank) ∈ dot_S40x256_S256x256_S40x256_1_0_0_1_n_n.lhsBatch by decide), dif_pos (show (0 : Fin S40x256.rank) ∈ dot_S40x256_S256x256_S40x256_1_0_0_1_n_n.lhsNonContracting by decide)]
  rfl
theorem mm_out_l1 (i : S40x256.Idx) (q : dot_S40x256_S256x256_S40x256_1_0_0_1_n_n.contr.Idx) : (dot_S40x256_S256x256_S40x256_1_0_0_1_n_n.lhsIdx i q 1).val = (q ⟨0, by decide⟩).val :=
  dot_S40x256_S256x256_S40x256_1_0_0_1_n_n.lhsIdx_val_of_single rfl i q
theorem mm_out_r0 (i : S40x256.Idx) (q : dot_S40x256_S256x256_S40x256_1_0_0_1_n_n.contr.Idx) : (dot_S40x256_S256x256_S40x256_1_0_0_1_n_n.rhsIdx i q 0).val = (q ⟨0, by decide⟩).val :=
  dot_S40x256_S256x256_S40x256_1_0_0_1_n_n.rhsIdx_val_of_single rfl i q
theorem mm_out_r1 (i : S40x256.Idx) (q : dot_S40x256_S256x256_S40x256_1_0_0_1_n_n.contr.Idx) : (dot_S40x256_S256x256_S40x256_1_0_0_1_n_n.rhsIdx i q 1).val = (i 1).val := by
  unfold DotDims.rhsIdx
  rw [dif_neg (show ¬(1 : Fin S256x256.rank) ∈ dot_S40x256_S256x256_S40x256_1_0_0_1_n_n.rhsBatch by decide), dif_pos (show (1 : Fin S256x256.rank) ∈ dot_S40x256_S256x256_S40x256_1_0_0_1_n_n.rhsNonContracting by decide)]
  rfl

/-- [40,256] · [256,256] at (p, c). -/
theorem mm_out (l : FVec Ideal S40x256 .bf16) (r : FVec Ideal S256x256 .bf16) (p : Fin 40) (c : Fin 256) :
    matmul dot_S40x256_S256x256_S40x256_1_0_0_1_n_n none l r (constant S40x256 .f32 0x00000000#32) (ix2 p c)
      = ∑ k : Fin 256, l (ix2 p k) * r (ix2 k c) := by
  simp only [matmul]
  rw [Ideal.matmul_constant_zero_apply, ← Equiv.sum_comp (contrEquiv1 dot_S40x256_S256x256_S40x256_1_0_0_1_n_n 256 rfl rfl).symm]
  refine Finset.sum_congr rfl fun k _ => ?_
  have hk := contrEquiv1_symm_val dot_S40x256_S256x256_S40x256_1_0_0_1_n_n 256 rfl rfl k
  have el : dot_S40x256_S256x256_S40x256_1_0_0_1_n_n.lhsIdx (ix2 p c) ((contrEquiv1 dot_S40x256_S256x256_S40x256_1_0_0_1_n_n 256 rfl rfl).symm k) = ix2 p k := funext fun a => Fin.ext (by
    match a with
    | ⟨0, _⟩ => exact mm_out_l0 _ _
    | ⟨1, _⟩ => exact (mm_out_l1 _ _).trans hk)
  have er : dot_S40x256_S256x256_S40x256_1_0_0_1_n_n.rhsIdx (ix2 p c) ((contrEquiv1 dot_S40x256_S256x256_S40x256_1_0_0_1_n_n 256 rfl rfl).symm k) = ix2 k c := funext fun a => Fin.ext (by
    match a with
    | ⟨0, _⟩ => exact (mm_out_r0 _ _).trans hk
    | ⟨1, _⟩ => exact mm_out_r1 _ _)
  rw [el, er]

theorem mm_feat1_l0 (i : S40x49x64.Idx) (q : dot_S40x49x256_S40x256x64_S40x49x64_2_1_1_2_0_0.contr.Idx) : (dot_S40x49x256_S40x256x64_S40x49x64_2_1_1_2_0_0.lhsIdx i q 0).val = (i 0).val := by
  unfold DotDims.lhsIdx
  rw [dif_pos (show (0 : Fin S40x49x256.rank) ∈ dot_S40x49x256_S40x256x64_S40x49x64_2_1_1_2_0_0.lhsBatch by decide)]
  rfl
theorem mm_feat1_l1 (i : S40x49x64.Idx) (q : dot_S40x49x256_S40x256x64_S40x49x64_2_1_1_2_0_0.contr.Idx) : (dot_S40x49x256_S40x256x64_S40x49x64_2_1_1_2_0_0.lhsIdx i q 1).val = (i 1).val := by
  unfold DotDims.lhsIdx
  rw [dif_neg (show ¬(1 : Fin S40x49x256.rank) ∈ dot_S40x49x256_S40x256x64_S40x49x64_2_1_1_2_0_0.lhsBatch by decide), dif_pos (show (1 : Fin S40x49x256.rank) ∈ dot_S40x49x256_S40x256x64_S40x49x64_2_1_1_2_0_0.lhsNonContracting by decide)]
  rfl
theorem mm_feat1_l2 (i : S40x49x64.Idx) (q : dot_S40x49x256_S40x256x64_S40x49x64_2_1_1_2_0_0.contr.Idx) : (dot_S40x49x256_S40x256x64_S40x49x64_2_1_1_2_0_0.lhsIdx i q 2).val = (q ⟨0, by decide⟩).val :=
  dot_S40x49x256_S40x256x64_S40x49x64_2_1_1_2_0_0.lhsIdx_val_of_single rfl i q
theorem mm_feat1_r0 (i : S40x49x64.Idx) (q : dot_S40x49x256_S40x256x64_S40x49x64_2_1_1_2_0_0.contr.Idx) : (dot_S40x49x256_S40x256x64_S40x49x64_2_1_1_2_0_0.rhsIdx i q 0).val = (i 0).val := by
  unfold DotDims.rhsIdx
  rw [dif_pos (show (0 : Fin S40x256x64.rank) ∈ dot_S40x49x256_S40x256x64_S40x49x64_2_1_1_2_0_0.rhsBatch by decide)]
  rfl
theorem mm_feat1_r1 (i : S40x49x64.Idx) (q : dot_S40x49x256_S40x256x64_S40x49x64_2_1_1_2_0_0.contr.Idx) : (dot_S40x49x256_S40x256x64_S40x49x64_2_1_1_2_0_0.rhsIdx i q 1).val = (q ⟨0, by decide⟩).val :=
  dot_S40x49x256_S40x256x64_S40x49x64_2_1_1_2_0_0.rhsIdx_val_of_single rfl i q
theorem mm_feat1_r2 (i : S40x49x64.Idx) (q : dot_S40x49x256_S40x256x64_S40x49x64_2_1_1_2_0_0.contr.Idx) : (dot_S40x49x256_S40x256x64_S40x49x64_2_1_1_2_0_0.rhsIdx i q 2).val = (i 2).val := by
  unfold DotDims.rhsIdx
  rw [dif_neg (show ¬(2 : Fin S40x256x64.rank) ∈ dot_S40x49x256_S40x256x64_S40x49x64_2_1_1_2_0_0.rhsBatch by decide), dif_pos (show (2 : Fin S40x256x64.rank) ∈ dot_S40x49x256_S40x256x64_S40x49x64_2_1_1_2_0_0.rhsNonContracting by decide)]
  rfl

/-- Batched over the proposal p: [49,256] · [256,64] at (s, c). -/
theorem mm_feat1 (l : FVec Ideal S40x49x256 .bf16) (r : FVec Ideal S40x256x64 .bf16) (p : Fin 40) (s : Fin 49) (c : Fin 64) :
    matmul dot_S40x49x256_S40x256x64_S40x49x64_2_1_1_2_0_0 none l r (constant S40x49x64 .f32 0x00000000#32) (ix3 p s c)
      = ∑ k : Fin 256, l (ix3 p s k) * r (ix3 p k c) := by
  simp only [matmul]
  rw [Ideal.matmul_constant_zero_apply, ← Equiv.sum_comp (contrEquiv1 dot_S40x49x256_S40x256x64_S40x49x64_2_1_1_2_0_0 256 rfl rfl).symm]
  refine Finset.sum_congr rfl fun k _ => ?_
  have hk := contrEquiv1_symm_val dot_S40x49x256_S40x256x64_S40x49x64_2_1_1_2_0_0 256 rfl rfl k
  have el : dot_S40x49x256_S40x256x64_S40x49x64_2_1_1_2_0_0.lhsIdx (ix3 p s c) ((contrEquiv1 dot_S40x49x256_S40x256x64_S40x49x64_2_1_1_2_0_0 256 rfl rfl).symm k) = ix3 p s k := funext fun a => Fin.ext (by
    match a with
    | ⟨0, _⟩ => exact mm_feat1_l0 _ _
    | ⟨1, _⟩ => exact mm_feat1_l1 _ _
    | ⟨2, _⟩ => exact (mm_feat1_l2 _ _).trans hk)
  have er : dot_S40x49x256_S40x256x64_S40x49x64_2_1_1_2_0_0.rhsIdx (ix3 p s c) ((contrEquiv1 dot_S40x49x256_S40x256x64_S40x49x64_2_1_1_2_0_0 256 rfl rfl).symm k) = ix3 p k c := funext fun a => Fin.ext (by
    match a with
    | ⟨0, _⟩ => exact mm_feat1_r0 _ _
    | ⟨1, _⟩ => exact (mm_feat1_r1 _ _).trans hk
    | ⟨2, _⟩ => exact mm_feat1_r2 _ _)
  rw [el, er]

theorem mm_feat2_l0 (i : S40x49x256.Idx) (q : dot_S40x49x64_S40x64x256_S40x49x256_2_1_1_2_0_0.contr.Idx) : (dot_S40x49x64_S40x64x256_S40x49x256_2_1_1_2_0_0.lhsIdx i q 0).val = (i 0).val := by
  unfold DotDims.lhsIdx
  rw [dif_pos (show (0 : Fin S40x49x64.rank) ∈ dot_S40x49x64_S40x64x256_S40x49x256_2_1_1_2_0_0.lhsBatch by decide)]
  rfl
theorem mm_feat2_l1 (i : S40x49x256.Idx) (q : dot_S40x49x64_S40x64x256_S40x49x256_2_1_1_2_0_0.contr.Idx) : (dot_S40x49x64_S40x64x256_S40x49x256_2_1_1_2_0_0.lhsIdx i q 1).val = (i 1).val := by
  unfold DotDims.lhsIdx
  rw [dif_neg (show ¬(1 : Fin S40x49x64.rank) ∈ dot_S40x49x64_S40x64x256_S40x49x256_2_1_1_2_0_0.lhsBatch by decide), dif_pos (show (1 : Fin S40x49x64.rank) ∈ dot_S40x49x64_S40x64x256_S40x49x256_2_1_1_2_0_0.lhsNonContracting by decide)]
  rfl
theorem mm_feat2_l2 (i : S40x49x256.Idx) (q : dot_S40x49x64_S40x64x256_S40x49x256_2_1_1_2_0_0.contr.Idx) : (dot_S40x49x64_S40x64x256_S40x49x256_2_1_1_2_0_0.lhsIdx i q 2).val = (q ⟨0, by decide⟩).val :=
  dot_S40x49x64_S40x64x256_S40x49x256_2_1_1_2_0_0.lhsIdx_val_of_single rfl i q
theorem mm_feat2_r0 (i : S40x49x256.Idx) (q : dot_S40x49x64_S40x64x256_S40x49x256_2_1_1_2_0_0.contr.Idx) : (dot_S40x49x64_S40x64x256_S40x49x256_2_1_1_2_0_0.rhsIdx i q 0).val = (i 0).val := by
  unfold DotDims.rhsIdx
  rw [dif_pos (show (0 : Fin S40x64x256.rank) ∈ dot_S40x49x64_S40x64x256_S40x49x256_2_1_1_2_0_0.rhsBatch by decide)]
  rfl
theorem mm_feat2_r1 (i : S40x49x256.Idx) (q : dot_S40x49x64_S40x64x256_S40x49x256_2_1_1_2_0_0.contr.Idx) : (dot_S40x49x64_S40x64x256_S40x49x256_2_1_1_2_0_0.rhsIdx i q 1).val = (q ⟨0, by decide⟩).val :=
  dot_S40x49x64_S40x64x256_S40x49x256_2_1_1_2_0_0.rhsIdx_val_of_single rfl i q
theorem mm_feat2_r2 (i : S40x49x256.Idx) (q : dot_S40x49x64_S40x64x256_S40x49x256_2_1_1_2_0_0.contr.Idx) : (dot_S40x49x64_S40x64x256_S40x49x256_2_1_1_2_0_0.rhsIdx i q 2).val = (i 2).val := by
  unfold DotDims.rhsIdx
  rw [dif_neg (show ¬(2 : Fin S40x64x256.rank) ∈ dot_S40x49x64_S40x64x256_S40x49x256_2_1_1_2_0_0.rhsBatch by decide), dif_pos (show (2 : Fin S40x64x256.rank) ∈ dot_S40x49x64_S40x64x256_S40x49x256_2_1_1_2_0_0.rhsNonContracting by decide)]
  rfl

/-- Batched over the proposal p: [49,64] · [64,256] at (s, c). -/
theorem mm_feat2 (l : FVec Ideal S40x49x64 .bf16) (r : FVec Ideal S40x64x256 .bf16) (p : Fin 40) (s : Fin 49) (c : Fin 256) :
    matmul dot_S40x49x64_S40x64x256_S40x49x256_2_1_1_2_0_0 none l r (constant S40x49x256 .f32 0x00000000#32) (ix3 p s c)
      = ∑ k : Fin 64, l (ix3 p s k) * r (ix3 p k c) := by
  simp only [matmul]
  rw [Ideal.matmul_constant_zero_apply, ← Equiv.sum_comp (contrEquiv1 dot_S40x49x64_S40x64x256_S40x49x256_2_1_1_2_0_0 64 rfl rfl).symm]
  refine Finset.sum_congr rfl fun k _ => ?_
  have hk := contrEquiv1_symm_val dot_S40x49x64_S40x64x256_S40x49x256_2_1_1_2_0_0 64 rfl rfl k
  have el : dot_S40x49x64_S40x64x256_S40x49x256_2_1_1_2_0_0.lhsIdx (ix3 p s c) ((contrEquiv1 dot_S40x49x64_S40x64x256_S40x49x256_2_1_1_2_0_0 64 rfl rfl).symm k) = ix3 p s k := funext fun a => Fin.ext (by
    match a with
    | ⟨0, _⟩ => exact mm_feat2_l0 _ _
    | ⟨1, _⟩ => exact mm_feat2_l1 _ _
    | ⟨2, _⟩ => exact (mm_feat2_l2 _ _).trans hk)
  have er : dot_S40x49x64_S40x64x256_S40x49x256_2_1_1_2_0_0.rhsIdx (ix3 p s c) ((contrEquiv1 dot_S40x49x64_S40x64x256_S40x49x256_2_1_1_2_0_0 64 rfl rfl).symm k) = ix3 p k c := funext fun a => Fin.ext (by
    match a with
    | ⟨0, _⟩ => exact mm_feat2_r0 _ _
    | ⟨1, _⟩ => exact (mm_feat2_r1 _ _).trans hk
    | ⟨2, _⟩ => exact mm_feat2_r2 _ _)
  rw [el, er]

end Cert.DynConv.K

end
-- ==== Proof.KDyn.lean ====
/-
  THE KERNEL'S DYNAMIC PARAMETERS. The kernel computes the parameter row of each of a block's 40 proposals in two
  halves: the block of 40 feature rows times the left (resp. right) half of the weight matrix, plus the left (resp.
  right) half of the bias, and reads the first half as 40 matrices of 256 × 64 and the second as 40 matrices of
  64 × 256. Entry (p, h, d) of the first is entry h · 64 + d of proposal p's parameters; entry (p, d, h) of the second
  is entry 16384 + d · 256 + h.
-/
import proofs.«100884_j79053168050560_2_alg».proof.Proof.Spec
import proofs.«100884_j79053168050560_2_alg».proof.Proof.KMat
import proofs.«100884_j79053168050560_2_alg».proof.Proof.Gen.KernelIdeal.Frame
import Idealize.ShloMosaic.Lib.Pipeline.Value
import Idealize.ShloMosaic.Lib.ValueLayout
import Idealize.ShloMosaic.Lib.ValueIdx

noncomputable section

open scoped BigOperators

namespace Cert.DynConv.K

open Cert.KernelIdeal Cert.KernelIdeal.Gen Idealize.ShloMosaic Idealize.ShloMosaic.TcCoe Idealize.ShloMosaic.ValueIdx Cert.DynConv

/-! ## What the loads read -/

/-- The block of feature rows is read whole. -/
theorem ld_x (x0 : Vec Ideal S40x256 .f32) (p : Fin 40) (k : Fin 256) : View.ld x0 r0_0 (ix2 p k) = x0 (ix2 p k) := by
  refine congrArg x0 (funext fun a => Fin.ext ?_)
  match a with
  | ⟨0, _⟩ => show 0 + 1 * p.val = p.val; omega
  | ⟨1, _⟩ => show 0 + 1 * k.val = k.val; omega

/-- The left half of the weight matrix: its column `j` is the matrix's column `j`. -/
theorem ld_w_lo (x2 : Vec Ideal S256x32768 .bf16) (k : Fin 256) (j : Fin 16384) (J : Fin 32768) (hJ : J.val = j.val) :
    View.ld x2 r0_1 (ix2 k j) = x2 (ix2 k J) := by
  refine congrArg x2 (funext fun a => Fin.ext ?_)
  match a with
  | ⟨0, _⟩ => show 0 + 1 * k.val = k.val; omega
  | ⟨1, _⟩ => show 0 + 1 * j.val = J.val; omega

/-- The right half of the weight matrix: its column `j` is the matrix's column `16384 + j`. -/
theorem ld_w_hi (x2 : Vec Ideal S256x32768 .bf16) (k : Fin 256) (j : Fin 16384) (J : Fin 32768)
    (hJ : J.val = 16384 + j.val) : View.ld x2 r0_2 (ix2 k j) = x2 (ix2 k J) := by
  refine congrArg x2 (funext fun a => Fin.ext ?_)
  match a with
  | ⟨0, _⟩ => show 0 + 1 * k.val = k.val; omega
  | ⟨1, _⟩ => show 16384 + 1 * j.val = J.val; omega

/-- The left half of the bias. -/
theorem ld_b_lo (x3 : Vec Ideal S32768 .f32) (j : Fin 16384) (J : Fin 32768) (hJ : J.val = j.val) :
    View.ld x3 r0_3 (ix1 j) = x3 (ix1 J) := by
  refine congrArg x3 (funext fun a => Fin.ext ?_)
  match a with
  | ⟨0, _⟩ => show 0 + 1 * j.val = J.val; omega

/-- The right half of the bias. -/
theorem ld_b_hi (x3 : Vec Ideal S32768 .f32) (j : Fin 16384) (J : Fin 32768) (hJ : J.val = 16384 + j.val) :
    View.ld x3 r0_4 (ix1 j) = x3 (ix1 J) := by
  refine congrArg x3 (funext fun a => Fin.ext ?_)
  match a with
  | ⟨0, _⟩ => show 16384 + 1 * j.val = J.val; omega

/-! ## One half of the parameter rows, before it is read as matrices -/

/-- The feature rows as the products take them: a cast to the same shape and a change of format, both the identity
    on the exact values. -/
theorem pay2_apply (v0 : Vec Ideal S40x256 .f32) (p : Fin 40) (k : Fin 256) :
    k0_pay2 (F := Ideal) v0 (ix2 p k) = v0 (ix2 p k) := by
  unfold k0_pay2
  exact congrFun (shapeCast_self v0 shapeCasts_S40x256_S40x256) (ix2 p k)

/-- A half bias, cast to one row and broadcast over the 40 proposals, read at (p, j). -/
theorem biasHalf_apply (v : FVec Ideal S16384 .f32) (p : Fin 40) (j : Fin 16384) :
    broadcastTo S40x16384 (shapeCast S1x16384 v shapeCasts_S16384_S1x16384) broadcasts_S1x16384_S40x16384 (ix2 p j)
      = v (ix1 j) :=
  (broadcastTo_1b_ab_apply _ broadcasts_S1x16384_S40x16384 p j).trans
    (shapeCast_a_1a_apply v shapeCasts_S16384_S1x16384 (0 : Fin 1) j)

/-- Entry (p, j) of a half: the product of proposal p's feature row with column `j` of the half weight matrix, plus
    entry `j` of the half bias. -/
theorem half_apply (v0 : Vec Ideal S40x256 .f32) (w : FVec Ideal S256x16384 .bf16) (b : FVec Ideal S16384 .f32)
    (p : Fin 40) (j : Fin 16384) :
    addf (matmul dot_S40x256_S256x16384_S40x16384_1_0_0_1_n_n none (k0_pay2 (F := Ideal) v0)
            (shapeCast S256x16384 w shapeCasts_S256x16384_S256x16384) (constant S40x16384 .f32 0x00000000#32))
        (broadcastTo S40x16384 (shapeCast S1x16384 b shapeCasts_S16384_S1x16384) broadcasts_S1x16384_S40x16384)
        (ix2 p j)
      = (∑ k : Fin 256, v0 (ix2 p k) * w (ix2 k j)) + b (ix1 j) := by
  refine (addf_apply _ _ (ix2 p j)).trans (congrArg₂ (· + ·) ?_ (biasHalf_apply b p j))
  refine (mm_params _ _ p j).trans (Finset.sum_congr rfl fun k _ => ?_)
  exact congrArg₂ (· * ·) (pay2_apply v0 p k)
    (congrFun (shapeCast_self w shapeCasts_S256x16384_S256x16384) (ix2 k j))

/-! ## The two halves read as matrices -/

/-- Entry (p, h, d) of the first parameter matrices is entry `j1 h d` of proposal p's parameters. -/
theorem pay3_apply (x0 : Vec Ideal S40x256 .f32) (x2 : Vec Ideal S256x32768 .bf16) (x3 : Vec Ideal S32768 .f32)
    (p : Fin 40) (h : Fin 256) (d : Fin 64) :
    k0_pay3 (F := Ideal) (View.ld x0 r0_0) (View.ld x2 r0_1) (View.ld x3 r0_3) (ix3 p h d)
      = params (fun k => x0 (ix2 p k)) (fun k j => x2 (ix2 k j)) (fun j => x3 (ix1 j)) (j1 h d) := by
  have hh := h.isLt; have hd := d.isLt
  unfold k0_pay3
  -- the change of format is the identity on the exact values;
  -- the reshape [40, 16384] → [40, 256, 64]: entry (p, h, d) is entry (p, h · 64 + d)
  refine (truncf_apply _ bitsLt_bf16_f32 (ix3 p h d)).trans ?_
  refine (shapeCast_apply _ shapeCasts_S40x16384_S40x256x64 (ix3 p h d)
    (ix2 p (⟨h.val * 64 + d.val, by omega⟩ : Fin 16384)) ?_).trans ?_
  · rw [Shape.rowMajor_val_two, Shape.rowMajor_val_three]
    show p.val * 16384 + (h.val * 64 + d.val) = (p.val * 256 + h.val) * 64 + d.val
    omega
  · refine (half_apply _ _ _ p _).trans ?_
    unfold params
    refine congrArg₂ (· + ·) (Finset.sum_congr rfl fun k _ => ?_) (ld_b_lo x3 _ (j1 h d) rfl)
    exact congrArg₂ (· * ·) (ld_x x0 p k) (ld_w_lo x2 k _ (j1 h d) rfl)

/-- Entry (p, d, h) of the second parameter matrices is entry `j2 d h` of proposal p's parameters. -/
theorem pay4_apply (x0 : Vec Ideal S40x256 .f32) (x2 : Vec Ideal S256x32768 .bf16) (x3 : Vec Ideal S32768 .f32)
    (p : Fin 40) (d : Fin 64) (h : Fin 256) :
    k0_pay4 (F := Ideal) (View.ld x0 r0_0) (View.ld x2 r0_2) (View.ld x3 r0_4) (ix3 p d h)
      = params (fun k => x0 (ix2 p k)) (fun k j => x2 (ix2 k j)) (fun j => x3 (ix1 j)) (j2 d h) := by
  have hh := h.isLt; have hd := d.isLt
  unfold k0_pay4
  -- the change of format is the identity on the exact values;
  -- the reshape [40, 16384] → [40, 64, 256]: entry (p, d, h) is entry (p, d · 256 + h)
  refine (truncf_apply _ bitsLt_bf16_f32 (ix3 p d h)).trans ?_
  refine (shapeCast_apply _ shapeCasts_S40x16384_S40x64x256 (ix3 p d h)
    (ix2 p (⟨d.val * 256 + h.val, by omega⟩ : Fin 16384)) ?_).trans ?_
  · rw [Shape.rowMajor_val_two, Shape.rowMajor_val_three]
    show p.val * 16384 + (d.val * 256 + h.val) = (p.val * 64 + d.val) * 256 + h.val
    omega
  · refine (half_apply _ _ _ p _).trans ?_
    unfold params
    refine congrArg₂ (· + ·) (Finset.sum_congr rfl fun k _ => ?_) (ld_b_hi x3 _ (j2 d h) rfl)
    exact congrArg₂ (· * ·) (ld_x x0 p k) (ld_w_hi x2 k _ (j2 d h) rfl)

end Cert.DynConv.K

end
-- ==== Proof.KLay.lean ====
/-
  Casts, broadcasts and sums over the last axis read at an entry — the layout steps of a layer normalisation over
  the last axis of a [40,49,n] array (the per-row statistics live in a [40,49] array, are cast to [40,49,1] and
  broadcast back; the gain and the shift are [n] vectors cast to [1,1,n] and broadcast), and the same for a
  [40,n] array (statistics [40] → [40,1] → [40,n]; gain and shift [n] → [1,n] → [40,n]).
-/
import Idealize.ShloMosaic.Lib.ValueIdx
import Idealize.ShloMosaic.Lib.Pipeline.Value
import Idealize.ShloMosaic.PureOps.Ideal.Laws

noncomputable section

open scoped BigOperators

namespace Cert.DynConv.K

open Idealize.ShloMosaic Idealize.ShloMosaic.ValueIdx

variable {α : Type}

/-! ## Rank 3: statistics of a [40,49,n] array -/

/-- [40,49] cast to [40,49,1]: entry (p, r, 0) is entry (p, r). -/
theorem cast_stat3 (v : (⟨2, ![40, 49]⟩ : Shape).Idx → α) (h : (⟨2, ![40, 49]⟩ : Shape).ShapeCasts ⟨3, ![40, 49, 1]⟩)
    (p : Fin 40) (r : Fin 49) (z : Fin 1) : shapeCast ⟨3, ![40, 49, 1]⟩ v h (ix3 p r z) = v (ix2 p r) := by
  refine shapeCast_apply v h _ _ ?_
  rw [Shape.rowMajor_val_two, Shape.rowMajor_val_three]
  show p.val * 49 + r.val = (p.val * 49 + r.val) * 1 + z.val
  have := z.isLt; omega

/-- [40,49,1] broadcast to [40,49,n]: entry (p, r, d) is entry (p, r, 0). -/
theorem bcast_stat3 {n : ℕ} (v : (⟨3, ![40, 49, 1]⟩ : Shape).Idx → α) (h : (⟨3, ![40, 49, 1]⟩ : Shape).Broadcasts ⟨3, ![40, 49, n]⟩)
    (p : Fin 40) (r : Fin 49) (d : Fin n) : broadcastTo ⟨3, ![40, 49, n]⟩ v h (ix3 p r d) = v (ix3 p r (0 : Fin 1)) := by
  refine broadcastTo_apply v h _ _ fun a => ?_
  match a with
  | ⟨0, _⟩ => show p.val = if (40 : ℕ) = 1 then 0 else p.val; rw [if_neg (by decide)]
  | ⟨1, _⟩ => show r.val = if (49 : ℕ) = 1 then 0 else r.val; rw [if_neg (by decide)]
  | ⟨2, _⟩ => show (0 : ℕ) = if (1 : ℕ) = 1 then 0 else d.val; rw [if_pos rfl]

/-- An [n] vector cast to [1,1,n] and broadcast to [40,49,n]: entry (p, r, d) is entry d. -/
theorem bcast_vec3 {n : ℕ} (hn : n ≠ 1) (v : (⟨1, ![n]⟩ : Shape).Idx → α) (h1 : (⟨1, ![n]⟩ : Shape).ShapeCasts ⟨3, ![1, 1, n]⟩)
    (h2 : (⟨3, ![1, 1, n]⟩ : Shape).Broadcasts ⟨3, ![40, 49, n]⟩) (p : Fin 40) (r : Fin 49) (d : Fin n) :
    broadcastTo ⟨3, ![40, 49, n]⟩ (shapeCast ⟨3, ![1, 1, n]⟩ v h1) h2 (ix3 p r d) = v (ix1 d) := by
  refine (broadcastTo_apply _ h2 _ (ix3 (0 : Fin 1) (0 : Fin 1) d) fun a => ?_).trans ?_
  · match a with
    | ⟨0, _⟩ => show (0 : ℕ) = if (1 : ℕ) = 1 then 0 else p.val; rw [if_pos rfl]
    | ⟨1, _⟩ => show (0 : ℕ) = if (1 : ℕ) = 1 then 0 else r.val; rw [if_pos rfl]
    | ⟨2, _⟩ => show d.val = if n = 1 then 0 else d.val; rw [if_neg hn]
  · refine shapeCast_apply v h1 _ _ ?_
    rw [Shape.rowMajor_val_one, Shape.rowMajor_val_three]
    show d.val = ((0 : ℕ) * 1 + 0) * n + d.val
    omega

/-- A sum over the last axis of a [40,49,n] array at (p, r): the sum of the n entries of that row. -/
theorem sum_last3 {n : ℕ} (v : FVec Ideal (⟨3, ![40, 49, n]⟩ : Shape) .f32)
    (h : (⟨3, ![40, 49, n]⟩ : Shape).Reduces [2] ⟨2, ![40, 49]⟩) (p : Fin 40) (r : Fin 49) :
    multiReduction .add [2] ⟨2, ![40, 49]⟩ v 0x00000000#32 h (.inl rfl) rfl (ix2 p r) = ∑ k : Fin n, v (ix3 p r k) := by
  refine (Ideal.multiReduction_add_single v 0x00000000#32 h (.inl rfl) rfl (ix2 p r)).trans ?_
  refine Finset.sum_congr rfl fun k _ => congrArg v (funext fun a => Fin.ext ?_)
  match a with
  | ⟨0, _⟩ => rfl
  | ⟨1, _⟩ => rfl
  | ⟨2, _⟩ => rfl

/-! ## Rank 2: statistics of a [40,n] array -/

/-- [40] cast to [40,1]: entry (p, 0) is entry p. -/
theorem cast_stat2 (v : (⟨1, ![40]⟩ : Shape).Idx → α) (h : (⟨1, ![40]⟩ : Shape).ShapeCasts ⟨2, ![40, 1]⟩)
    (p : Fin 40) (z : Fin 1) : shapeCast ⟨2, ![40, 1]⟩ v h (ix2 p z) = v (ix1 p) := by
  refine shapeCast_apply v h _ _ ?_
  rw [Shape.rowMajor_val_one, Shape.rowMajor_val_two]
  show p.val = p.val * 1 + z.val
  have := z.isLt; omega

/-- [40,1] broadcast to [40,n]: entry (p, d) is entry (p, 0). -/
theorem bcast_stat2 {n : ℕ} (v : (⟨2, ![40, 1]⟩ : Shape).Idx → α) (h : (⟨2, ![40, 1]⟩ : Shape).Broadcasts ⟨2, ![40, n]⟩)
    (p : Fin 40) (d : Fin n) : broadcastTo ⟨2, ![40, n]⟩ v h (ix2 p d) = v (ix2 p (0 : Fin 1)) := by
  refine broadcastTo_apply v h _ _ fun a => ?_
  match a with
  | ⟨0, _⟩ => show p.val = if (40 : ℕ) = 1 then 0 else p.val; rw [if_neg (by decide)]
  | ⟨1, _⟩ => show (0 : ℕ) = if (1 : ℕ) = 1 then 0 else d.val; rw [if_pos rfl]

/-- An [n] vector cast to [1,n] and broadcast to [40,n]: entry (p, d) is entry d. -/
theorem bcast_vec2 {n : ℕ} (hn : n ≠ 1) (v : (⟨1, ![n]⟩ : Shape).Idx → α) (h1 : (⟨1, ![n]⟩ : Shape).ShapeCasts ⟨2, ![1, n]⟩)
    (h2 : (⟨2, ![1, n]⟩ : Shape).Broadcasts ⟨2, ![40, n]⟩) (p : Fin 40) (d : Fin n) :
    broadcastTo ⟨2, ![40, n]⟩ (shapeCast ⟨2, ![1, n]⟩ v h1) h2 (ix2 p d) = v (ix1 d) := by
  refine (broadcastTo_apply _ h2 _ (ix2 (0 : Fin 1) d) fun a => ?_).trans ?_
  · match a with
    | ⟨0, _⟩ => show (0 : ℕ) = if (1 : ℕ) = 1 then 0 else p.val; rw [if_pos rfl]
    | ⟨1, _⟩ => show d.val = if n = 1 then 0 else d.val; rw [if_neg hn]
  · refine shapeCast_apply v h1 _ _ ?_
    rw [Shape.rowMajor_val_one, Shape.rowMajor_val_two]
    show d.val = (0 : ℕ) * n + d.val
    omega

/-- A sum over the last axis of a [40,n] array at p. -/
theorem sum_last2 {n : ℕ} (v : FVec Ideal (⟨2, ![40, n]⟩ : Shape) .f32)
    (h : (⟨2, ![40, n]⟩ : Shape).Reduces [1] ⟨1, ![40]⟩) (p : Fin 40) :
    multiReduction .add [1] ⟨1, ![40]⟩ v 0x00000000#32 h (.inl rfl) rfl (ix1 p) = ∑ k : Fin n, v (ix2 p k) := by
  refine (Ideal.multiReduction_add_single v 0x00000000#32 h (.inl rfl) rfl (ix1 p)).trans ?_
  refine Finset.sum_congr rfl fun k _ => congrArg v (funext fun a => Fin.ext ?_)
  match a with
  | ⟨0, _⟩ => rfl
  | ⟨1, _⟩ => rfl

end Cert.DynConv.K

end
-- ==== Proof.KNorm.lean ====
/-
  A layer normalisation over the last axis, as the kernel writes it with whole-array operations, read at an entry:
  it is Spec.lean's `lnorm` of that row. The kernel sums the row, casts and divides by the splat of the length's
  literal, broadcasts the mean back and subtracts, squares, sums and divides again for the variance, adds the splat of
  the epsilon, takes the reciprocal root, broadcasts it back and multiplies the centred value by it, then by the
  gain and adds the shift (both broadcast along the rows). Reading every step at one entry gives exactly `lnorm`.
-/
import proofs.«100884_j79053168050560_2_alg».proof.Proof.Spec
import proofs.«100884_j79053168050560_2_alg».proof.Proof.KLay

noncomputable section

open scoped BigOperators

namespace Cert.DynConv.K

open Idealize.ShloMosaic Idealize.ShloMosaic.ValueIdx Cert.DynConv

/-- A reciprocal root at an entry. -/
theorem rsqrt_apply {s : Shape} (a : FVec Ideal s .f32) (i : s.Idx) : rsqrt a i = Ideal.rsqrt (a i) := rfl

/-- The normalisation of a [40,49,n] array over its last axis, in the kernel's order of operations: `wN` is the
    word of the length's literal; the shape facts are those the printed operations carry. -/
def lnVec3 {n : ℕ} (wN : BitVec 32) (f : FVec Ideal (⟨3, ![40, 49, n]⟩ : Shape) .f32) (g b : Vec Ideal (⟨1, ![n]⟩ : Shape) .f32)
    (hr : (⟨3, ![40, 49, n]⟩ : Shape).Reduces [2] ⟨2, ![40, 49]⟩)
    (hc : (⟨2, ![40, 49]⟩ : Shape).ShapeCasts ⟨3, ![40, 49, 1]⟩)
    (hb : (⟨3, ![40, 49, 1]⟩ : Shape).Broadcasts ⟨3, ![40, 49, n]⟩)
    (hc1 : (⟨1, ![n]⟩ : Shape).ShapeCasts ⟨3, ![1, 1, n]⟩)
    (hb1 : (⟨3, ![1, 1, n]⟩ : Shape).Broadcasts ⟨3, ![40, 49, n]⟩) : FVec Ideal (⟨3, ![40, 49, n]⟩ : Shape) .f32 :=
  let mu : FVec Ideal (⟨3, ![40, 49, 1]⟩ : Shape) .f32 :=
    divf (shapeCast ⟨3, ![40, 49, 1]⟩ (multiReduction .add [2] ⟨2, ![40, 49]⟩ f 0x00000000#32 hr (.inl rfl) rfl) hc)
      (broadcast ⟨3, ![40, 49, 1]⟩ (Scalar.ofBits .f32 wN))
  let ctr : FVec Ideal (⟨3, ![40, 49, n]⟩ : Shape) .f32 := subf f (broadcastTo ⟨3, ![40, 49, n]⟩ mu hb)
  let var : FVec Ideal (⟨3, ![40, 49, 1]⟩ : Shape) .f32 :=
    divf (shapeCast ⟨3, ![40, 49, 1]⟩ (multiReduction .add [2] ⟨2, ![40, 49]⟩ (mulf ctr ctr) 0x00000000#32 hr (.inl rfl) rfl) hc)
      (broadcast ⟨3, ![40, 49, 1]⟩ (Scalar.ofBits .f32 wN))
  addf (mulf (mulf ctr (broadcastTo ⟨3, ![40, 49, n]⟩ (rsqrt (addf var (broadcast ⟨3, ![40, 49, 1]⟩ (Scalar.ofBits .f32 0x3727C5AC#32)))) hb))
      (broadcastTo ⟨3, ![40, 49, n]⟩ (shapeCast ⟨3, ![1, 1, n]⟩ g hc1) hb1))
    (broadcastTo ⟨3, ![40, 49, n]⟩ (shapeCast ⟨3, ![1, 1, n]⟩ b hc1) hb1)

/-- Entry (p, r, d) of it is `lnorm` of row (p, r). -/
theorem lnVec3_apply {n : ℕ} (hn : n ≠ 1) (wN : BitVec 32) (f : FVec Ideal (⟨3, ![40, 49, n]⟩ : Shape) .f32)
    (g b : Vec Ideal (⟨1, ![n]⟩ : Shape) .f32) (hr hc hb hc1 hb1) (p : Fin 40) (r : Fin 49) (d : Fin n) :
    lnVec3 wN f g b hr hc hb hc1 hb1 (ix3 p r d)
      = lnorm (Ideal.ofBits .f32 wN) (fun k => g (ix1 k)) (fun k => b (ix1 k)) (fun k => f (ix3 p r k)) d := by
  unfold lnVec3 lnorm mean
  simp only [addf_apply, mulf_apply, subf_apply, divf_apply, rsqrt_apply, broadcast_apply, bcast_stat3, cast_stat3, bcast_vec3 hn]
  rw [sum_last3]
  try simp only [addf_apply, mulf_apply, subf_apply, divf_apply, rsqrt_apply, broadcast_apply, bcast_stat3, cast_stat3, bcast_vec3 hn]
  try rw [sum_last3]
  try simp only [addf_apply, mulf_apply, subf_apply, divf_apply, rsqrt_apply, broadcast_apply, bcast_stat3, cast_stat3, bcast_vec3 hn]
  try rw [sum_last3]
  rfl

/-- The same for a [40,n] array. -/
def lnVec2 {n : ℕ} (wN : BitVec 32) (f : FVec Ideal (⟨2, ![40, n]⟩ : Shape) .f32) (g b : Vec Ideal (⟨1, ![n]⟩ : Shape) .f32)
    (hr : (⟨2, ![40, n]⟩ : Shape).Reduces [1] ⟨1, ![40]⟩)
    (hc : (⟨1, ![40]⟩ : Shape).ShapeCasts ⟨2, ![40, 1]⟩)
    (hb : (⟨2, ![40, 1]⟩ : Shape).Broadcasts ⟨2, ![40, n]⟩)
    (hc1 : (⟨1, ![n]⟩ : Shape).ShapeCasts ⟨2, ![1, n]⟩)
    (hb1 : (⟨2, ![1, n]⟩ : Shape).Broadcasts ⟨2, ![40, n]⟩) : FVec Ideal (⟨2, ![40, n]⟩ : Shape) .f32 :=
  let mu : FVec Ideal (⟨2, ![40, 1]⟩ : Shape) .f32 :=
    divf (shapeCast ⟨2, ![40, 1]⟩ (multiReduction .add [1] ⟨1, ![40]⟩ f 0x00000000#32 hr (.inl rfl) rfl) hc)
      (broadcast ⟨2, ![40, 1]⟩ (Scalar.ofBits .f32 wN))
  let ctr : FVec Ideal (⟨2, ![40, n]⟩ : Shape) .f32 := subf f (broadcastTo ⟨2, ![40, n]⟩ mu hb)
  let var : FVec Ideal (⟨2, ![40, 1]⟩ : Shape) .f32 :=
    divf (shapeCast ⟨2, ![40, 1]⟩ (multiReduction .add [1] ⟨1, ![40]⟩ (mulf ctr ctr) 0x00000000#32 hr (.inl rfl) rfl) hc)
      (broadcast ⟨2, ![40, 1]⟩ (Scalar.ofBits .f32 wN))
  addf (mulf (mulf ctr (broadcastTo ⟨2, ![40, n]⟩ (rsqrt (addf var (broadcast ⟨2, ![40, 1]⟩ (Scalar.ofBits .f32 0x3727C5AC#32)))) hb))
      (broadcastTo ⟨2, ![40, n]⟩ (shapeCast ⟨2, ![1, n]⟩ g hc1) hb1))
    (broadcastTo ⟨2, ![40, n]⟩ (shapeCast ⟨2, ![1, n]⟩ b hc1) hb1)

/-- Entry (p, d) of it is `lnorm` of row p. -/
theorem lnVec2_apply {n : ℕ} (hn : n ≠ 1) (wN : BitVec 32) (f : FVec Ideal (⟨2, ![40, n]⟩ : Shape) .f32)
    (g b : Vec Ideal (⟨1, ![n]⟩ : Shape) .f32) (hr hc hb hc1 hb1) (p : Fin 40) (d : Fin n) :
    lnVec2 wN f g b hr hc hb hc1 hb1 (ix2 p d)
      = lnorm (Ideal.ofBits .f32 wN) (fun k => g (ix1 k)) (fun k => b (ix1 k)) (fun k => f (ix2 p k)) d := by
  unfold lnVec2 lnorm mean
  simp only [addf_apply, mulf_apply, subf_apply, divf_apply, rsqrt_apply, broadcast_apply, bcast_stat2, cast_stat2, bcast_vec2 hn]
  rw [sum_last2]
  try simp only [addf_apply, mulf_apply, subf_apply, divf_apply, rsqrt_apply, broadcast_apply, bcast_stat2, cast_stat2, bcast_vec2 hn]
  try rw [sum_last2]
  try simp only [addf_apply, mulf_apply, subf_apply, divf_apply, rsqrt_apply, broadcast_apply, bcast_stat2, cast_stat2, bcast_vec2 hn]
  try rw [sum_last2]
  rfl

end Cert.DynConv.K

end
-- ==== Proof.KStack.lean ====
/-
  The first normalised activations of a block, read at an entry.

  The kernel loads the 49 pooled slabs of a block one by one (slab r is the 40 × 256 array of the block's 40 proposals at
  pooled position r), casts each to 40 × 1 × 256 and stacks them along the middle axis, so that entry (p, r, h) of the
  stack is entry (r, p, h) of the pooled block. It multiplies the stack with the first parameter matrices, batched over
  the proposal p and contracting h — entry (p, r, d') of the product is ∑ h, pooled (r, p, h) · matrix (p, h, d') — and
  normalises every row (p, r) of the product over its 64 entries with gain x6 and shift x7. Read at (p, r, d) this is
  Spec.lean's `lnorm` of that row.

  The 49 pieces are listed once (`pieces`); a piece read at (p, 0, h) is slab r at (p, h) — two casts and a load through
  the rectangle at offsets (r, 0, 0) —, and a stack of unit-extent pieces read at middle coordinate r is piece r.
-/
import proofs.«100884_j79053168050560_2_alg».proof.Proof.Spec
import proofs.«100884_j79053168050560_2_alg».proof.Proof.KTerms
import proofs.«100884_j79053168050560_2_alg».proof.Proof.KMat
import proofs.«100884_j79053168050560_2_alg».proof.Proof.KNorm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.DynConv.K

open Cert.KernelIdeal Cert.KernelIdeal.Gen Idealize.ShloMosaic Idealize.ShloMosaic.TcCoe Idealize.ShloMosaic.ValueIdx Cert.DynConv

namespace Stack
/-- A load through the unit-stride rectangle at offsets (r, 0, 0) with sizes (1, 40, 256) reads slab r. -/
theorem ld_slab (x1 : Vec Ideal S49x40x256 .f32) (r : ℕ) (hr : r < 49)
    (inb : ∀ a, (![r, 0, 0] : Fin 3 → ℕ) a + S1x40x256.size a ≤ S49x40x256.size a)
    (u : Fin 1) (p : Fin 40) (h : Fin 256) :
    View.ld x1 (Rect.unit (s := S49x40x256) ![r, 0, 0] S1x40x256.size inb) (ix3 u p h) = x1 (ix3 ⟨r, hr⟩ p h) := by
  show x1 _ = x1 _
  refine congrArg x1 (funext fun a => Fin.ext ?_)
  match a with
  | ⟨0, _⟩ => show r + 1 * u.val = r; omega
  | ⟨1, _⟩ => show 0 + 1 * p.val = p.val; omega
  | ⟨2, _⟩ => show 0 + 1 * h.val = h.val; omega

/-- The two casts [1,40,256] → [40,256] → [40,1,256] (with the format change in between, the identity on extended reals)
    read at (p, u, h): the operand at (0, p, h). -/
theorem cast2_apply (v : Vec Ideal S1x40x256 .f32) (p : Fin 40) (u : Fin 1) (h : Fin 256) :
    (shapeCast S40x1x256 (truncf (F := Ideal) .bf16 (shapeCast S40x256 v shapeCasts_S1x40x256_S40x256) bitsLt_bf16_f32)
        shapeCasts_S40x256_S40x1x256 (ix3 p u h) : EReal) = v (ix3 (0 : Fin 1) p h) := by
  refine (shapeCast_apply _ _ (ix3 p u h) (ix2 p h) ?_).trans ?_
  · rw [Shape.rowMajor_val_three, Shape.rowMajor_val_two]
    show p.val * 256 + h.val = (p.val * 1 + u.val) * 256 + h.val
    omega
  · exact shapeCast_1ab_ab_apply v _ p h

/-- The 49 pooled blocks as the kernel stacks them: block r is slab r of the pooled array, cast to 40 × 1 × 256. -/
def pieces (x1 : Vec Ideal S49x40x256 .f32) : List ((s : Shape) × (s.Idx → Ideal .bf16)) :=
  [⟨S40x1x256, k0_pay54 (k0_pay5 (View.ld x1 r0_5))⟩,
   ⟨S40x1x256, k0_pay55 (k0_pay6 (View.ld x1 r0_6))⟩,
   ⟨S40x1x256, k0_pay56 (k0_pay7 (View.ld x1 r0_7))⟩,
   ⟨S40x1x256, k0_pay57 (k0_pay8 (View.ld x1 r0_8))⟩,
   ⟨S40x1x256, k0_pay58 (k0_pay9 (View.ld x1 r0_9))⟩,
   ⟨S40x1x256, k0_pay59 (k0_pay10 (View.ld x1 r0_10))⟩,
   ⟨S40x1x256, k0_pay60 (k0_pay11 (View.ld x1 r0_11))⟩,
   ⟨S40x1x256, k0_pay61 (k0_pay12 (View.ld x1 r0_12))⟩,
   ⟨S40x1x256, k0_pay62 (k0_pay13 (View.ld x1 r0_13))⟩,
   ⟨S40x1x256, k0_pay63 (k0_pay14 (View.ld x1 r0_14))⟩,
   ⟨S40x1x256, k0_pay64 (k0_pay15 (View.ld x1 r0_15))⟩,
   ⟨S40x1x256, k0_pay65 (k0_pay16 (View.ld x1 r0_16))⟩,
   ⟨S40x1x256, k0_pay66 (k0_pay17 (View.ld x1 r0_17))⟩,
   ⟨S40x1x256, k0_pay67 (k0_pay18 (View.ld x1 r0_18))⟩,
   ⟨S40x1x256, k0_pay68 (k0_pay19 (View.ld x1 r0_19))⟩,
   ⟨S40x1x256, k0_pay69 (k0_pay20 (View.ld x1 r0_20))⟩,
   ⟨S40x1x256, k0_pay70 (k0_pay21 (View.ld x1 r0_21))⟩,
   ⟨S40x1x256, k0_pay71 (k0_pay22 (View.ld x1 r0_22))⟩,
   ⟨S40x1x256, k0_pay72 (k0_pay23 (View.ld x1 r0_23))⟩,
   ⟨S40x1x256, k0_pay73 (k0_pay24 (View.ld x1 r0_24))⟩,
   ⟨S40x1x256, k0_pay74 (k0_pay25 (View.ld x1 r0_25))⟩,
   ⟨S40x1x256, k0_pay75 (k0_pay26 (View.ld x1 r0_26))⟩,
   ⟨S40x1x256, k0_pay76 (k0_pay27 (View.ld x1 r0_27))⟩,
   ⟨S40x1x256, k0_pay77 (k0_pay28 (View.ld x1 r0_28))⟩,
   ⟨S40x1x256, k0_pay78 (k0_pay29 (View.ld x1 r0_29))⟩,
   ⟨S40x1x256, k0_pay79 (k0_pay30 (View.ld x1 r0_30))⟩,
   ⟨S40x1x256, k0_pay80 (k0_pay31 (View.ld x1 r0_31))⟩,
   ⟨S40x1x256, k0_pay81 (k0_pay32 (View.ld x1 r0_32))⟩,
   ⟨S40x1x256, k0_pay82 (k0_pay33 (View.ld x1 r0_33))⟩,
   ⟨S40x1x256, k0_pay83 (k0_pay34 (View.ld x1 r0_34))⟩,
   ⟨S40x1x256, k0_pay84 (k0_pay35 (View.ld x1 r0_35))⟩,
   ⟨S40x1x256, k0_pay85 (k0_pay36 (View.ld x1 r0_36))⟩,
   ⟨S40x1x256, k0_pay86 (k0_pay37 (View.ld x1 r0_37))⟩,
   ⟨S40x1x256, k0_pay87 (k0_pay38 (View.ld x1 r0_38))⟩,
   ⟨S40x1x256, shapeCast S40x1x256 (k0_pay39 (View.ld x1 r0_39)) shapeCasts_S40x256_S40x1x256⟩,
   ⟨S40x1x256, shapeCast S40x1x256 (k0_pay40 (View.ld x1 r0_40)) shapeCasts_S40x256_S40x1x256⟩,
   ⟨S40x1x256, shapeCast S40x1x256 (k0_pay41 (View.ld x1 r0_41)) shapeCasts_S40x256_S40x1x256⟩,
   ⟨S40x1x256, shapeCast S40x1x256 (k0_pay42 (View.ld x1 r0_42)) shapeCasts_S40x256_S40x1x256⟩,
   ⟨S40x1x256, shapeCast S40x1x256 (k0_pay43 (View.ld x1 r0_43)) shapeCasts_S40x256_S40x1x256⟩,
   ⟨S40x1x256, shapeCast S40x1x256 (k0_pay44 (View.ld x1 r0_44)) shapeCasts_S40x256_S40x1x256⟩,
   ⟨S40x1x256, shapeCast S40x1x256 (k0_pay45 (View.ld x1 r0_45)) shapeCasts_S40x256_S40x1x256⟩,
   ⟨S40x1x256, shapeCast S40x1x256 (k0_pay46 (View.ld x1 r0_46)) shapeCasts_S40x256_S40x1x256⟩,
   ⟨S40x1x256, shapeCast S40x1x256 (k0_pay47 (View.ld x1 r0_47)) shapeCasts_S40x256_S40x1x256⟩,
   ⟨S40x1x256, shapeCast S40x1x256 (k0_pay48 (View.ld x1 r0_48)) shapeCasts_S40x256_S40x1x256⟩,
   ⟨S40x1x256, shapeCast S40x1x256 (k0_pay49 (View.ld x1 r0_49)) shapeCasts_S40x256_S40x1x256⟩,
   ⟨S40x1x256, shapeCast S40x1x256 (k0_pay50 (View.ld x1 r0_50)) shapeCasts_S40x256_S40x1x256⟩,
   ⟨S40x1x256, shapeCast S40x1x256 (k0_pay51 (View.ld x1 r0_51)) shapeCasts_S40x256_S40x1x256⟩,
   ⟨S40x1x256, shapeCast S40x1x256 (k0_pay52 (View.ld x1 r0_52)) shapeCasts_S40x256_S40x1x256⟩,
   ⟨S40x1x256, shapeCast S40x1x256 (k0_pay53 (View.ld x1 r0_53)) shapeCasts_S40x256_S40x1x256⟩]

/-- Every listed piece has the shape 40 × 1 × 256. -/
theorem pieces_shapes (x1 : Vec Ideal S49x40x256 .f32) : (pieces x1).map (·.1) = List.replicate 49 S40x1x256 := rfl

theorem pieces_length (x1 : Vec Ideal S49x40x256 .f32) : (pieces x1).length = 49 := rfl

/-- One block of the stack read at (p, k, h), given what the k-th listed piece is: the pieces before it take up k
    positions along the middle axis (each has extent one there). -/
theorem piece_case (x1 : Vec Ideal S49x40x256 .f32) (hC : Shape.Concatenates ((pieces x1).map (·.1)) S40x49x256 1)
    (p : Fin 40) (h : Fin 256) (k : ℕ) (hk49 : k < 49)
    (x₁ : S40x1x256.Idx → Ideal .bf16) (hxk : (pieces x1)[k]'((pieces_length x1).symm ▸ hk49) = ⟨S40x1x256, x₁⟩)
    (hx : (x₁ (ix3 p (0 : Fin 1) h) : EReal) = x1 (ix3 ⟨k, hk49⟩ p h)) :
    (concatenate S40x49x256 1 (pieces x1) hC (ix3 p ⟨k, hk49⟩ h) : EReal) = x1 (ix3 ⟨k, hk49⟩ p h) := by
  have hpre : ((((pieces x1).take k).map (·.1)).map fun s =>
      if h : s.rank = S40x49x256.rank then s.size ((1 : Fin S40x49x256.rank).cast h.symm) else 0).sum = k := by
    rw [List.map_take, pieces_shapes, List.take_replicate, List.map_replicate, List.sum_replicate, smul_eq_mul,
      Nat.min_eq_left (Nat.le_of_lt hk49)]
    exact Nat.mul_one k
  exact (concatenate_apply_piece (1 : Fin S40x49x256.rank) (pieces x1) hC (ix3 p ⟨k, hk49⟩ h) k
    ((pieces_length x1).symm ▸ hk49) S40x1x256 x₁ hxk rfl k hpre
    (ix3 p (0 : Fin 1) h)
    (fun b hb => by
      match b with
      | ⟨0, _⟩ => rfl
      | ⟨1, _⟩ => exact absurd rfl hb
      | ⟨2, _⟩ => rfl)
    (Nat.add_zero k)).trans hx

/-- The stack read at (p, r, h): entry (r, p, h) of the pooled array. -/
theorem lhsStack_apply (x1 : Vec Ideal S49x40x256 .f32) (hC : Shape.Concatenates ((pieces x1).map (·.1)) S40x49x256 1)
    (p : Fin 40) (r : Fin 49) (h : Fin 256) :
    (concatenate S40x49x256 1 (pieces x1) hC (ix3 p r h) : EReal) = x1 (ix3 r p h) :=
  match r with
  | ⟨0, _⟩ => piece_case x1 hC p h 0 (by decide) _ rfl ((cast2_apply _ p 0 h).trans (ld_slab x1 0 (by decide) _ 0 p h))
  | ⟨1, _⟩ => piece_case x1 hC p h 1 (by decide) _ rfl ((cast2_apply _ p 0 h).trans (ld_slab x1 1 (by decide) _ 0 p h))
  | ⟨2, _⟩ => piece_case x1 hC p h 2 (by decide) _ rfl ((cast2_apply _ p 0 h).trans (ld_slab x1 2 (by decide) _ 0 p h))
  | ⟨3, _⟩ => piece_case x1 hC p h 3 (by decide) _ rfl ((cast2_apply _ p 0 h).trans (ld_slab x1 3 (by decide) _ 0 p h))
  | ⟨4, _⟩ => piece_case x1 hC p h 4 (by decide) _ rfl ((cast2_apply _ p 0 h).trans (ld_slab x1 4 (by decide) _ 0 p h))
  | ⟨5, _⟩ => piece_case x1 hC p h 5 (by decide) _ rfl ((cast2_apply _ p 0 h).trans (ld_slab x1 5 (by decide) _ 0 p h))
  | ⟨6, _⟩ => piece_case x1 hC p h 6 (by decide) _ rfl ((cast2_apply _ p 0 h).trans (ld_slab x1 6 (by decide) _ 0 p h))
  | ⟨7, _⟩ => piece_case x1 hC p h 7 (by decide) _ rfl ((cast2_apply _ p 0 h).trans (ld_slab x1 7 (by decide) _ 0 p h))
  | ⟨8, _⟩ => piece_case x1 hC p h 8 (by decide) _ rfl ((cast2_apply _ p 0 h).trans (ld_slab x1 8 (by decide) _ 0 p h))
  | ⟨9, _⟩ => piece_case x1 hC p h 9 (by decide) _ rfl ((cast2_apply _ p 0 h).trans (ld_slab x1 9 (by decide) _ 0 p h))
  | ⟨10, _⟩ => piece_case x1 hC p h 10 (by decide) _ rfl ((cast2_apply _ p 0 h).trans (ld_slab x1 10 (by decide) _ 0 p h))
  | ⟨11, _⟩ => piece_case x1 hC p h 11 (by decide) _ rfl ((cast2_apply _ p 0 h).trans (ld_slab x1 11 (by decide) _ 0 p h))
  | ⟨12, _⟩ => piece_case x1 hC p h 12 (by decide) _ rfl ((cast2_apply _ p 0 h).trans (ld_slab x1 12 (by decide) _ 0 p h))
  | ⟨13, _⟩ => piece_case x1 hC p h 13 (by decide) _ rfl ((cast2_apply _ p 0 h).trans (ld_slab x1 13 (by decide) _ 0 p h))
  | ⟨14, _⟩ => piece_case x1 hC p h 14 (by decide) _ rfl ((cast2_apply _ p 0 h).trans (ld_slab x1 14 (by decide) _ 0 p h))
  | ⟨15, _⟩ => piece_case x1 hC p h 15 (by decide) _ rfl ((cast2_apply _ p 0 h).trans (ld_slab x1 15 (by decide) _ 0 p h))
  | ⟨16, _⟩ => piece_case x1 hC p h 16 (by decide) _ rfl ((cast2_apply _ p 0 h).trans (ld_slab x1 16 (by decide) _ 0 p h))
  | ⟨17, _⟩ => piece_case x1 hC p h 17 (by decide) _ rfl ((cast2_apply _ p 0 h).trans (ld_slab x1 17 (by decide) _ 0 p h))
  | ⟨18, _⟩ => piece_case x1 hC p h 18 (by decide) _ rfl ((cast2_apply _ p 0 h).trans (ld_slab x1 18 (by decide) _ 0 p h))
  | ⟨19, _⟩ => piece_case x1 hC p h 19 (by decide) _ rfl ((cast2_apply _ p 0 h).trans (ld_slab x1 19 (by decide) _ 0 p h))
  | ⟨20, _⟩ => piece_case x1 hC p h 20 (by decide) _ rfl ((cast2_apply _ p 0 h).trans (ld_slab x1 20 (by decide) _ 0 p h))
  | ⟨21, _⟩ => piece_case x1 hC p h 21 (by decide) _ rfl ((cast2_apply _ p 0 h).trans (ld_slab x1 21 (by decide) _ 0 p h))
  | ⟨22, _⟩ => piece_case x1 hC p h 22 (by decide) _ rfl ((cast2_apply _ p 0 h).trans (ld_slab x1 22 (by decide) _ 0 p h))
  | ⟨23, _⟩ => piece_case x1 hC p h 23 (by decide) _ rfl ((cast2_apply _ p 0 h).trans (ld_slab x1 23 (by decide) _ 0 p h))
  | ⟨24, _⟩ => piece_case x1 hC p h 24 (by decide) _ rfl ((cast2_apply _ p 0 h).trans (ld_slab x1 24 (by decide) _ 0 p h))
  | ⟨25, _⟩ => piece_case x1 hC p h 25 (by decide) _ rfl ((cast2_apply _ p 0 h).trans (ld_slab x1 25 (by decide) _ 0 p h))
  | ⟨26, _⟩ => piece_case x1 hC p h 26 (by decide) _ rfl ((cast2_apply _ p 0 h).trans (ld_slab x1 26 (by decide) _ 0 p h))
  | ⟨27, _⟩ => piece_case x1 hC p h 27 (by decide) _ rfl ((cast2_apply _ p 0 h).trans (ld_slab x1 27 (by decide) _ 0 p h))
  | ⟨28, _⟩ => piece_case x1 hC p h 28 (by decide) _ rfl ((cast2_apply _ p 0 h).trans (ld_slab x1 28 (by decide) _ 0 p h))
  | ⟨29, _⟩ => piece_case x1 hC p h 29 (by decide) _ rfl ((cast2_apply _ p 0 h).trans (ld_slab x1 29 (by decide) _ 0 p h))
  | ⟨30, _⟩ => piece_case x1 hC p h 30 (by decide) _ rfl ((cast2_apply _ p 0 h).trans (ld_slab x1 30 (by decide) _ 0 p h))
  | ⟨31, _⟩ => piece_case x1 hC p h 31 (by decide) _ rfl ((cast2_apply _ p 0 h).trans (ld_slab x1 31 (by decide) _ 0 p h))
  | ⟨32, _⟩ => piece_case x1 hC p h 32 (by decide) _ rfl ((cast2_apply _ p 0 h).trans (ld_slab x1 32 (by decide) _ 0 p h))
  | ⟨33, _⟩ => piece_case x1 hC p h 33 (by decide) _ rfl ((cast2_apply _ p 0 h).trans (ld_slab x1 33 (by decide) _ 0 p h))
  | ⟨34, _⟩ => piece_case x1 hC p h 34 (by decide) _ rfl ((cast2_apply _ p 0 h).trans (ld_slab x1 34 (by decide) _ 0 p h))
  | ⟨35, _⟩ => piece_case x1 hC p h 35 (by decide) _ rfl ((cast2_apply _ p 0 h).trans (ld_slab x1 35 (by decide) _ 0 p h))
  | ⟨36, _⟩ => piece_case x1 hC p h 36 (by decide) _ rfl ((cast2_apply _ p 0 h).trans (ld_slab x1 36 (by decide) _ 0 p h))
  | ⟨37, _⟩ => piece_case x1 hC p h 37 (by decide) _ rfl ((cast2_apply _ p 0 h).trans (ld_slab x1 37 (by decide) _ 0 p h))
  | ⟨38, _⟩ => piece_case x1 hC p h 38 (by decide) _ rfl ((cast2_apply _ p 0 h).trans (ld_slab x1 38 (by decide) _ 0 p h))
  | ⟨39, _⟩ => piece_case x1 hC p h 39 (by decide) _ rfl ((cast2_apply _ p 0 h).trans (ld_slab x1 39 (by decide) _ 0 p h))
  | ⟨40, _⟩ => piece_case x1 hC p h 40 (by decide) _ rfl ((cast2_apply _ p 0 h).trans (ld_slab x1 40 (by decide) _ 0 p h))
  | ⟨41, _⟩ => piece_case x1 hC p h 41 (by decide) _ rfl ((cast2_apply _ p 0 h).trans (ld_slab x1 41 (by decide) _ 0 p h))
  | ⟨42, _⟩ => piece_case x1 hC p h 42 (by decide) _ rfl ((cast2_apply _ p 0 h).trans (ld_slab x1 42 (by decide) _ 0 p h))
  | ⟨43, _⟩ => piece_case x1 hC p h 43 (by decide) _ rfl ((cast2_apply _ p 0 h).trans (ld_slab x1 43 (by decide) _ 0 p h))
  | ⟨44, _⟩ => piece_case x1 hC p h 44 (by decide) _ rfl ((cast2_apply _ p 0 h).trans (ld_slab x1 44 (by decide) _ 0 p h))
  | ⟨45, _⟩ => piece_case x1 hC p h 45 (by decide) _ rfl ((cast2_apply _ p 0 h).trans (ld_slab x1 45 (by decide) _ 0 p h))
  | ⟨46, _⟩ => piece_case x1 hC p h 46 (by decide) _ rfl ((cast2_apply _ p 0 h).trans (ld_slab x1 46 (by decide) _ 0 p h))
  | ⟨47, _⟩ => piece_case x1 hC p h 47 (by decide) _ rfl ((cast2_apply _ p 0 h).trans (ld_slab x1 47 (by decide) _ 0 p h))
  | ⟨48, _⟩ => piece_case x1 hC p h 48 (by decide) _ rfl ((cast2_apply _ p 0 h).trans (ld_slab x1 48 (by decide) _ 0 p h))
  | ⟨n + 49, hn⟩ => absurd hn (by omega)

/-- A load of a whole 64-vector reads the vector. -/
theorem ld_vec64 (x : Vec Ideal S64 .f32) (k : Fin 64) : View.ld x r0_54 (ix1 k) = x (ix1 k) := by
  show x _ = x _
  refine congrArg x (funext fun a => Fin.ext ?_)
  match a with
  | ⟨0, _⟩ => show 0 + 1 * k.val = k.val; omega

/-- The kernel's term, regrouped: the normalisation of the product of the stack with the first parameter matrix. -/
theorem stack_eq (v14 : FVec Ideal S40x256x64 .bf16) (x1 : Vec Ideal S49x40x256 .f32) (x6 x7 : Vec Ideal S64 .f32) :
    stack (F := Ideal) v14 x1 x6 x7
      = lnVec3 0x42800000#32 (matmul dot_S40x49x256_S40x256x64_S40x49x64_2_1_1_2_0_0 none
          (concatenate S40x49x256 1 (pieces x1) concatenates_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x49x256_d1)
          v14 (constant S40x49x64 .f32 0x00000000#32)) (View.ld x6 r0_54) (View.ld x7 r0_54)
          reduces_S40x49x64_S40x49 shapeCasts_S40x49_S40x49x1 broadcasts_S40x49x1_S40x49x64 shapeCasts_S64_S1x1x64
          broadcasts_S1x1x64_S40x49x64 := rfl

end Stack

open Stack in
/-- Entry (p, r, d) of the first normalised activations: the layer normalisation (gain x6, shift x7) of the 64 products
    of pooled row r of proposal p with the first parameter matrix of that proposal. -/
theorem stack_apply (v14 : FVec Ideal S40x256x64 .bf16) (x1 : Vec Ideal S49x40x256 .f32) (x6 x7 : Vec Ideal S64 .f32)
    (p : Fin 40) (r : Fin 49) (d : Fin 64) :
    stack (F := Ideal) v14 x1 x6 x7 (ix3 p r d)
      = lnorm w64 (fun d => x6 (ix1 d)) (fun d => x7 (ix1 d)) (fun d' => ∑ h : Fin 256, x1 (ix3 r p h) * v14 (ix3 p h d')) d := by
  refine (congrFun (stack_eq v14 x1 x6 x7) (ix3 p r d)).trans ?_
  refine (lnVec3_apply (show (64 : ℕ) ≠ 1 by decide) _ _ _ _ _ _ _ _ _ p r d).trans ?_
  have hg : (fun k : Fin 64 => View.ld x6 r0_54 (ix1 k)) = fun k => x6 (ix1 k) := funext fun k => ld_vec64 x6 k
  have hb : (fun k : Fin 64 => View.ld x7 r0_54 (ix1 k)) = fun k => x7 (ix1 k) := funext fun k => ld_vec64 x7 k
  have hf : (fun k : Fin 64 => matmul dot_S40x49x256_S40x256x64_S40x49x64_2_1_1_2_0_0 none
        (concatenate S40x49x256 1 (pieces x1) concatenates_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x1x256_S40x49x256_d1)
        v14 (constant S40x49x64 .f32 0x00000000#32) (ix3 p r k))
      = fun d' => ∑ h : Fin 256, x1 (ix3 r p h) * v14 (ix3 p h d') :=
    funext fun k => (mm_feat1 _ v14 p r k).trans
      (Finset.sum_congr rfl fun h _ => congrArg (· * v14 (ix3 p h k)) (lhsStack_apply x1 _ p r h))
  rw [hg, hb, hf]

end Cert.DynConv.K

end
-- ==== Proof.KAct.lean ====
/-
  The second-stage activations of a block read at an entry: the clipped first-stage features of row (p, r), through the
  proposal's second parameter matrix (a batched product), normalised over the 256 results and clipped at zero.
-/
import proofs.«100884_j79053168050560_2_alg».proof.Proof.Spec
import proofs.«100884_j79053168050560_2_alg».proof.Proof.KMat
import proofs.«100884_j79053168050560_2_alg».proof.Proof.KNorm
import proofs.«100884_j79053168050560_2_alg».proof.Proof.Gen.KernelIdeal.Skeleton

noncomputable section

open scoped BigOperators

namespace Cert.DynConv.K

open Cert.KernelIdeal Cert.KernelIdeal.Gen Idealize.ShloMosaic Idealize.ShloMosaic.ValueIdx Cert.DynConv

/-- The word of 0.0 denotes zero. -/
theorem scalar_zero : (Scalar.ofBits (F := Ideal) .f32 0x00000000#32 : EReal) = 0 := Ideal.ofBits_zero_f32

/-- Entry (p, r, h) of the second-stage activations, from the first-stage features `v248` (before their clipping against
    `cst`), the second parameter matrix `v20` and the gain and shift `v220`, `v221`. -/
theorem pay89_apply (v20 : FVec Ideal S40x64x256 .bf16) (v220 v221 : Vec Ideal S256 .f32) (v248 : FVec Ideal S40x49x64 .f32)
    (cst : Ideal .f32) (p : Fin 40) (r : Fin 49) (h : Fin 256) :
    k0_pay89 (F := Ideal) v20 v220 v221 v248 cst (ix3 p r h)
      = max (lnorm w256 (fun k => v220 (ix1 k)) (fun k => v221 (ix1 k))
          (fun h' => ∑ d : Fin 64, max (v248 (ix3 p r d)) cst * v20 (ix3 p d h')) h) 0 := by
  have e : k0_pay89 (F := Ideal) v20 v220 v221 v248 cst
      = maximumf (lnVec3 0x43800000#32
          (matmul dot_S40x49x64_S40x64x256_S40x49x256_2_1_1_2_0_0 none
            (truncf .bf16 (maximumf v248 (broadcast S40x49x64 cst)) bitsLt_bf16_f32) v20 (constant S40x49x256 .f32 0x00000000#32))
          v220 v221 reduces_S40x49x256_S40x49 shapeCasts_S40x49_S40x49x1 broadcasts_S40x49x1_S40x49x256
          shapeCasts_S256_S1x1x256 broadcasts_S1x1x256_S40x49x256)
        (broadcast S40x49x256 (Scalar.ofBits .f32 0x00000000#32)) := rfl
  rw [e, maximumf_apply, lnVec3_apply (by decide), broadcast_apply, scalar_zero]
  refine congrArg (fun f => max (lnorm w256 (fun k => v220 (ix1 k)) (fun k => v221 (ix1 k)) f h) 0) (funext fun h' => ?_)
  rw [mm_feat2]
  rfl

end Cert.DynConv.K

end
-- ==== Proof.KChain.lean ====
/-
  The kernel's output projection read at an entry.

  The second-stage activations `A` (40 × 49 × 256) are projected to 256 features row by row: for each of the 49 rows
  `r` the kernel takes the slab `A[·, r, ·]` (40 × 256), multiplies it with the `r`-th weight block (256 × 256) and adds
  the product into an accumulator that starts at zero; after the last row it adds the bias. Read at an entry `(p, c)`
  every product is a sum over the 256 contracted places, so the accumulator there is the sum, over the rows and the
  places, of `A (p, r, h) · W (r, h, c)`, plus the bias at `c`.

  The additions are written one after the other from zero, and a sum over 49 rows unrolls to the same left-nested chain
  with the same leading zero, so the two sides meet term by term: no law of the extended reals' arithmetic is used.
-/
import proofs.«100884_j79053168050560_2_alg».proof.Proof.Spec
import proofs.«100884_j79053168050560_2_alg».proof.Proof.KTerms
import Idealize.ShloMosaic.Lib.ValueLayout
import Idealize.ShloMosaic.PureOps.Ideal.Laws

set_option maxRecDepth 16384

noncomputable section

open scoped BigOperators

namespace Cert.DynConv.K

open Cert.KernelIdeal Cert.KernelIdeal.Gen Idealize.ShloMosaic Idealize.ShloMosaic.TcCoe Idealize.ShloMosaic.ValueIdx Cert.DynConv

/-! ## Rows as indices below 49 -/

/-- Row number `r` as an index below 49 (a total function of the natural number; only `r < 49` is ever read). -/
def row49 (r : ℕ) : Fin 49 := ⟨r % 49, Nat.mod_lt _ (by decide)⟩

theorem row49_val {r : ℕ} (h : r < 49) : (row49 r).val = r := Nat.mod_eq_of_lt h

theorem row49_fin (r : Fin 49) : row49 r.val = r := Fin.ext (Nat.mod_eq_of_lt r.isLt)

/-! ## The layout operations of one step, read at an entry -/

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Row `r` of the activations, cut out, flattened to 40 × 256 and cast to bf16 (the identity on exact values), reads at
    `(p, h)` the activation at `(p, r, h)`. -/
theorem rowSlice_apply (A : FVec Ideal S40x49x256 .f32) (r : ℕ) (hs : S40x49x256.Slices ![0, r, 0] S40x1x256)
    (p : Fin 40) (h : Fin 256) :
    (truncf .bf16 (shapeCast S40x256 (extractStridedSlice S40x1x256 ![0, r, 0] A hs) shapeCasts_S40x1x256_S40x256)
        bitsLt_bf16_f32 : FVec Ideal S40x256 .bf16) (ix2 p h) = A (ix3 p (row49 r) h) := by
  have hr : r < 49 := by
    have h1 : r + 1 ≤ 49 := hs.2 1
    omega
  refine (truncf_apply (shapeCast S40x256 (extractStridedSlice S40x1x256 ![0, r, 0] A hs) shapeCasts_S40x1x256_S40x256) bitsLt_bf16_f32 (ix2 p h)).trans ?_
  refine (shapeCast_a1b_ab_apply _ shapeCasts_S40x1x256_S40x256 p h).trans ?_
  exact slice3_axis1_apply r A hs p 0 h (row49 r) (by rw [row49_val hr]; rfl)

/-- A 1 × 256 × 256 weight block flattened to 256 × 256 reads at `(h, c)` the block at `(0, h, c)`. -/
theorem blockCast_apply (w : Vec Ideal S1x256x256 .bf16) (h c : Fin 256) :
    (shapeCast S256x256 w shapeCasts_S1x256x256_S256x256 : FVec Ideal S256x256 .bf16) (ix2 h c) = w (ix3 (0 : Fin 1) h c) :=
  shapeCast_1ab_ab_apply (α := Ideal .bf16) w shapeCasts_S1x256x256_S256x256 h c

/-- Block `r` of the 49 × 256 × 256 weights, loaded, reads at `(0, h, c)` the weight at `(r, h, c)`. -/
theorem ldRow_apply (x4 : Vec Ideal S49x256x256 .bf16) (r : ℕ)
    (inb : ∀ a, (![r, 0, 0] : Fin 3 → ℕ) a + S1x256x256.size a ≤ S49x256x256.size a) (h c : Fin 256) :
    View.ld x4 (Rect.unit ![r, 0, 0] S1x256x256.size inb) (ix3 (0 : Fin 1) h c) = x4 (ix3 (row49 r) h c) := by
  have hr : r < 49 := by
    have h1 : r + 1 ≤ 49 := inb 0
    omega
  show x4 _ = x4 _
  refine congrArg x4 (funext fun a => Fin.ext ?_)
  match a with
  | ⟨0, _⟩ => show r + 1 * 0 = r % 49; rw [Nat.mod_eq_of_lt hr, Nat.mul_zero, Nat.add_zero]
  | ⟨1, _⟩ => show 0 + 1 * h.val = h.val; omega
  | ⟨2, _⟩ => show 0 + 1 * c.val = c.val; omega

/-! ## One product into the zero accumulator, read at an entry -/

/-- The left operand's index of the 40 × 256 by 256 × 256 product: its row is the output's row … -/
theorem dotOut_lhs0 (i : S40x256.Idx) (q : dot_S40x256_S256x256_S40x256_1_0_0_1_n_n.contr.Idx) :
    (dot_S40x256_S256x256_S40x256_1_0_0_1_n_n.lhsIdx i q 0).val = (i 0).val := by
  unfold DotDims.lhsIdx
  rw [dif_neg (show ¬(0 : Fin S40x256.rank) ∈ dot_S40x256_S256x256_S40x256_1_0_0_1_n_n.lhsBatch by decide),
    dif_pos (show (0 : Fin S40x256.rank) ∈ dot_S40x256_S256x256_S40x256_1_0_0_1_n_n.lhsNonContracting by decide)]
  rfl
/-- … and its column the contracted place. -/
theorem dotOut_lhs1 (i : S40x256.Idx) (q : dot_S40x256_S256x256_S40x256_1_0_0_1_n_n.contr.Idx) :
    (dot_S40x256_S256x256_S40x256_1_0_0_1_n_n.lhsIdx i q 1).val = (q ⟨0, by decide⟩).val :=
  dot_S40x256_S256x256_S40x256_1_0_0_1_n_n.lhsIdx_val_of_single rfl i q
/-- The right operand's index: its row is the contracted place … -/
theorem dotOut_rhs0 (i : S40x256.Idx) (q : dot_S40x256_S256x256_S40x256_1_0_0_1_n_n.contr.Idx) :
    (dot_S40x256_S256x256_S40x256_1_0_0_1_n_n.rhsIdx i q 0).val = (q ⟨0, by decide⟩).val :=
  dot_S40x256_S256x256_S40x256_1_0_0_1_n_n.rhsIdx_val_of_single rfl i q
/-- … and its column the output's column. -/
theorem dotOut_rhs1 (i : S40x256.Idx) (q : dot_S40x256_S256x256_S40x256_1_0_0_1_n_n.contr.Idx) :
    (dot_S40x256_S256x256_S40x256_1_0_0_1_n_n.rhsIdx i q 1).val = (i 1).val := by
  unfold DotDims.rhsIdx
  rw [dif_neg (show ¬(1 : Fin S256x256.rank) ∈ dot_S40x256_S256x256_S40x256_1_0_0_1_n_n.rhsBatch by decide),
    dif_pos (show (1 : Fin S256x256.rank) ∈ dot_S40x256_S256x256_S40x256_1_0_0_1_n_n.rhsNonContracting by decide)]
  rfl

/-- A 40 × 256 by 256 × 256 product into the zero accumulator reads at `(p, c)` the sum over the contracted place `h` of
    left `(p, h)` times right `(h, c)`. -/
theorem mm_apply (L : FVec Ideal S40x256 .bf16) (R : FVec Ideal S256x256 .bf16) (p : Fin 40) (c : Fin 256) :
    matmul dot_S40x256_S256x256_S40x256_1_0_0_1_n_n none L R (constant (F := Ideal) S40x256 .f32 0x00000000#32) (ix2 p c)
      = ∑ h : Fin 256, L (ix2 p h) * R (ix2 h c) := by
  simp only [matmul]
  rw [Ideal.matmul_constant_zero_apply,
    ← Equiv.sum_comp (contrEquiv1 dot_S40x256_S256x256_S40x256_1_0_0_1_n_n 256 rfl rfl).symm]
  refine Finset.sum_congr rfl fun h _ => ?_
  have hk := contrEquiv1_symm_val dot_S40x256_S256x256_S40x256_1_0_0_1_n_n 256 rfl rfl h
  have el : dot_S40x256_S256x256_S40x256_1_0_0_1_n_n.lhsIdx (ix2 p c)
      ((contrEquiv1 dot_S40x256_S256x256_S40x256_1_0_0_1_n_n 256 rfl rfl).symm h) = ix2 p h :=
    funext fun a => Fin.ext (by
      match a with
      | ⟨0, _⟩ => exact dotOut_lhs0 _ _
      | ⟨1, _⟩ => exact (dotOut_lhs1 _ _).trans hk)
  have er : dot_S40x256_S256x256_S40x256_1_0_0_1_n_n.rhsIdx (ix2 p c)
      ((contrEquiv1 dot_S40x256_S256x256_S40x256_1_0_0_1_n_n 256 rfl rfl).symm h) = ix2 h c :=
    funext fun a => Fin.ext (by
      match a with
      | ⟨0, _⟩ => exact (dotOut_rhs0 _ _).trans hk
      | ⟨1, _⟩ => exact dotOut_rhs1 _ _)
  rw [el, er]

/-- Block `r` of the weights, loaded and flattened to 256 × 256, reads at `(h, c)` the weight at `(r, h, c)`. -/
theorem ldBlock_apply (x4 : Vec Ideal S49x256x256 .bf16) (r : ℕ)
    (inb : ∀ a, (![r, 0, 0] : Fin 3 → ℕ) a + S1x256x256.size a ≤ S49x256x256.size a) (h c : Fin 256) :
    (shapeCast S256x256 (View.ld x4 (Rect.unit ![r, 0, 0] S1x256x256.size inb) : Vec Ideal S1x256x256 .bf16)
        shapeCasts_S1x256x256_S256x256 : FVec Ideal S256x256 .bf16) (ix2 h c) = x4 (ix3 (row49 r) h c) :=
  (blockCast_apply _ h c).trans (ldRow_apply x4 r inb h c)

/-- The bias, loaded whole, written as one row and repeated over the 40 rows, reads at `(p, c)` the bias at `c`. -/
theorem bias_apply (x5 : Vec Ideal S256 .f32) (inb : ∀ a, (![0] : Fin 1 → ℕ) a + S256.size a ≤ S256.size a)
    (p : Fin 40) (c : Fin 256) :
    (broadcastTo S40x256 (shapeCast S1x256 (View.ld x5 (Rect.unit ![0] S256.size inb) : Vec Ideal S256 .f32)
        shapeCasts_S256_S1x256 : FVec Ideal S1x256 .f32) broadcasts_S1x256_S40x256 : FVec Ideal S40x256 .f32) (ix2 p c)
      = x5 (ix1 c) := by
  refine (broadcastTo_1b_ab_apply _ broadcasts_S1x256_S40x256 p c).trans ?_
  refine (shapeCast_a_1a_apply _ shapeCasts_S256_S1x256 0 c).trans ?_
  show x5 _ = x5 _
  refine congrArg x5 (funext fun a => Fin.ext ?_)
  match a with
  | ⟨0, _⟩ => show 0 + 1 * c.val = c.val; omega

/-! ## The accumulation, read at an entry -/

/-- Row `r`'s contribution to entry `(p, c)`: the sum over the 256 places of activation times weight. -/
def rowDot (A : FVec Ideal S40x49x256 .f32) (x4 : Vec Ideal S49x256x256 .bf16) (p : Fin 40) (c : Fin 256) (r : ℕ) : EReal :=
  ∑ h : Fin 256, A (ix3 p (row49 r) h) * x4 (ix3 (row49 r) h c)

/-- The sum over the 49 rows, written as the chain the accumulator adds up: from zero, one row after the other. -/
theorem sum_rows_chain (A : FVec Ideal S40x49x256 .f32) (x4 : Vec Ideal S49x256x256 .bf16) (p : Fin 40) (c : Fin 256) :
    (∑ r : Fin 49, ∑ h : Fin 256, A (ix3 p r h) * x4 (ix3 r h c)) = ∑ r ∈ Finset.range 49, rowDot A x4 p c r := by
  rw [← sum49_chain (rowDot A x4 p c)]
  refine Finset.sum_congr rfl fun r _ => ?_
  unfold rowDot
  rw [row49_fin]

/-- THE PROJECTION AT AN ENTRY: the kernel's accumulated output projection of the activations `k0_pay89 …`, with the
    bias, is at `(p, c)` the sum over the rows `r` and the places `h` of activation `(p, r, h)` times weight
    `(r, h, c)`, plus the bias at `c`. -/
theorem projAcc_apply (v20 : FVec Ideal S40x64x256 .bf16) (v220 v221 : Vec Ideal S256 .f32) (v248 : FVec Ideal S40x49x64 .f32)
    (cst : Ideal .f32) (x4 : Vec Ideal S49x256x256 .bf16) (x5 : Vec Ideal S256 .f32) (p : Fin 40) (c : Fin 256) :
    projAcc (F := Ideal) v20 v220 v221 v248 cst x4 x5 (ix2 p c)
      = (∑ r : Fin 49, ∑ h : Fin 256, k0_pay89 v20 v220 v221 v248 cst (ix3 p r h) * x4 (ix3 r h c)) + x5 (ix1 c) := by
  -- the names of the accumulation's nodes, then the pieces of the kernel's payload they stand for
  unfold projAcc acc107 acc108 acc105 acc106 acc103 acc104 acc101 acc102 acc98 acc99 acc100 acc96 acc97 acc92 acc93 acc94 acc90 acc91 acc88 acc89
  unfold k0_pay110 k0_pay109 k0_pay108 k0_pay107 k0_pay106 k0_pay105 k0_pay104 k0_pay103 k0_pay102 k0_pay101 k0_pay100 k0_pay99 k0_pay98 k0_pay97 k0_pay96 k0_pay95 k0_pay94 k0_pay93 k0_pay92 k0_pay91 k0_pay90
  -- the activations stay one opaque array
  generalize k0_pay89 v20 v220 v221 v248 cst = A
  -- the last addition is the bias
  rw [addf_apply]
  refine congrArg₂ (· + ·) ?_ (bias_apply x5 _ p c)
  -- the other 49 additions: each adds one product, read as its sum over the contracted place
  rw [sum_rows_chain]
  simp only [addf_apply, mm_apply, rowSlice_apply, ldBlock_apply, broadcast_apply, Ideal.ofBits_def, Ideal.ofBits_zero_f32,
    Finset.sum_range_succ, Finset.sum_range_zero, rowDot]

end Cert.DynConv.K

end
-- ==== Proof.KFin.lean ====
/-
  The last normalisation of a block read at an entry: whatever the accumulated projection `k0_pay110 …` is, the stored
  value at (p, q) is the normalisation of its row p over the 256 columns, with gain `v222` and shift `v223`, clipped.
-/
import proofs.«100884_j79053168050560_2_alg».proof.Proof.Spec
import proofs.«100884_j79053168050560_2_alg».proof.Proof.KNorm
import proofs.«100884_j79053168050560_2_alg».proof.Proof.KAct
import proofs.«100884_j79053168050560_2_alg».proof.Proof.Gen.KernelIdeal.Skeleton

noncomputable section

open scoped BigOperators

namespace Cert.DynConv.K

open Cert.KernelIdeal Cert.KernelIdeal.Gen Idealize.ShloMosaic Idealize.ShloMosaic.ValueIdx Cert.DynConv

/-- Entry (p, q) of the stored value from the projection's row p. -/
theorem fin_apply (v222 v223 : Vec Ideal S256 .f32) (a : FVec Ideal S40x49x256 .f32) (v594 : FVec Ideal S40x256 .f32)
    (v597 : FVec Ideal S40x256 .bf16) (l1 l2 l3 l4 : Vec Ideal S1x256x256 .bf16) (bo : Vec Ideal S256 .f32)
    (p : Fin 40) (q : Fin 256) :
    k0_pay1 (F := Ideal) v222 v223 (k0_pay112 a v594 v597 l1 l2 l3 l4 bo) (k0_pay113 a v594 v597 l1 l2 l3 l4 bo) (ix2 p q)
      = max (lnorm w256 (fun k => v222 (ix1 k)) (fun k => v223 (ix1 k))
          (fun c => k0_pay110 a v594 v597 l1 l2 l3 l4 bo (ix2 p c)) q) 0 := by
  have e : k0_pay1 (F := Ideal) v222 v223 (k0_pay112 a v594 v597 l1 l2 l3 l4 bo) (k0_pay113 a v594 v597 l1 l2 l3 l4 bo)
      = maximumf (lnVec2 0x43800000#32 (k0_pay110 a v594 v597 l1 l2 l3 l4 bo) v222 v223
          reduces_S40x256_S40 shapeCasts_S40_S40x1 broadcasts_S40x1_S40x256 shapeCasts_S256_S1x256 broadcasts_S1x256_S40x256)
        (broadcast S40x256 (Scalar.ofBits .f32 0x00000000#32)) := rfl
  rw [e, maximumf_apply, lnVec2_apply (by decide), broadcast_apply, scalar_zero]

end Cert.DynConv.K

end
-- ==== Proof.KBlock.lean ====
/-
  THE KERNEL'S BLOCK IS THE ROW FUNCTION. What the kernel body stores for a block of 40 proposals, read at row `p` and
  column `q`, is the row function (Spec.lean) of row `p` of the block's inputs: the proposal's feature row, its 49
  pooled rows, and the weights (the output matrix read through its 49 × 256 × 256 arrangement).

  The stored value is the last normalisation of the accumulated projection (KFin.lean); the projection, added up row by
  row over the 49 rows of the second-stage activations, is the double sum over rows and places (KChain.lean), which is
  the row function's single sum over the 12544 flattened positions regrouped (Spec.lean, `proj_rows`); the activations
  are the normalised, clipped second product (KAct.lean) of the normalised, clipped first product (KStack.lean) with the
  proposal's two parameter matrices (KDyn.lean). Every step is the same expression on both sides; only the sum over
  the flattened positions is regrouped.
-/
import proofs.«100884_j79053168050560_2_alg».proof.Proof.Spec
import proofs.«100884_j79053168050560_2_alg».proof.Proof.KTerms
import proofs.«100884_j79053168050560_2_alg».proof.Proof.KDyn
import proofs.«100884_j79053168050560_2_alg».proof.Proof.KStack
import proofs.«100884_j79053168050560_2_alg».proof.Proof.KAct
import proofs.«100884_j79053168050560_2_alg».proof.Proof.KChain
import proofs.«100884_j79053168050560_2_alg».proof.Proof.KFin

noncomputable section

open scoped BigOperators

namespace Cert.DynConv.K

open Cert.KernelIdeal Cert.KernelIdeal.Gen Idealize.ShloMosaic Idealize.ShloMosaic.TcCoe Idealize.ShloMosaic.ValueIdx Cert.DynConv

theorem zero2 : (![0, 0] : Fin 2 → Nat) = fun _ => 0 := funext fun a => by fin_cases a <;> rfl
theorem zero1 : (![0] : Fin 1 → Nat) = fun _ => 0 := funext fun a => by fin_cases a; rfl

/-- A whole 256-vector loaded is itself. -/
theorem ld_vec256 (x : Vec Ideal S256 .f32) : View.ld x r0_55 = x := View.ld_unit_zero zero1 _ x

/-- Entry (p, q) of the stored block is `rowOut` of row `p` of the input blocks. -/
theorem block_row (x0 : Vec Ideal S40x256 .f32) (x1 : Vec Ideal S49x40x256 .f32) (x2 : Vec Ideal S256x32768 .bf16)
    (x3 : Vec Ideal S32768 .f32) (x4 : Vec Ideal S49x256x256 .bf16) (x5 : Vec Ideal S256 .f32) (x6 x7 : Vec Ideal S64 .f32)
    (x8 x9 x10 x11 : Vec Ideal S256 .f32) (p : Fin 40) (q : Fin 256) :
    out0_12 (F := Ideal) x0 x1 x2 x3 x4 x5 x6 x7 x8 x9 x10 x11 (ix2 p q)
      = rowOut (fun k => x0 (ix2 p k)) (fun r k => x1 (ix3 r p k)) (fun k j => x2 (ix2 k j)) (fun j => x3 (ix1 j))
          (fun k c => x4 (ix3 (⟨k.val / 256, by have := k.isLt; omega⟩ : Fin 49) (⟨k.val % 256, Nat.mod_lt _ (by decide)⟩ : Fin 256) c))
          (fun c => x5 (ix1 c)) (fun d => x6 (ix1 d)) (fun d => x7 (ix1 d)) (fun c => x8 (ix1 c)) (fun c => x9 (ix1 c))
          (fun c => x10 (ix1 c)) (fun c => x11 (ix1 c)) q := by
  rw [out0_12_eq, View.canon_unit_zero zero2, fin_apply, ld_vec256 x10, ld_vec256 x11]
  unfold rowOut lnrelu
  refine congrArg (fun f => max (lnorm w256 (fun c => x10 (ix1 c)) (fun c => x11 (ix1 c)) f q) 0) (funext fun c => ?_)
  refine (projAcc_apply _ _ _ _ _ x4 x5 p c).trans ?_
  rw [proj_rows]
  refine congrArg (· + x5 (ix1 c)) (Finset.sum_congr rfl fun r _ => Finset.sum_congr rfl fun h _ => ?_)
  have hk : x4 (ix3 r h c) = x4 (ix3 (⟨(kflat r h).val / 256, by have := (kflat r h).isLt; omega⟩ : Fin 49)
      (⟨(kflat r h).val % 256, Nat.mod_lt _ (by decide)⟩ : Fin 256) c) := by
    have e1 : (⟨(kflat r h).val / 256, by have := (kflat r h).isLt; omega⟩ : Fin 49) = r :=
      Fin.ext (by show (r.val * 256 + h.val) / 256 = r.val; have := h.isLt; omega)
    have e2 : (⟨(kflat r h).val % 256, Nat.mod_lt _ (by decide)⟩ : Fin 256) = h :=
      Fin.ext (by show (r.val * 256 + h.val) % 256 = h.val; have := h.isLt; omega)
    rw [e1, e2]
  rw [← hk]
  refine congrArg (· * x4 (ix3 r h c)) ?_
  rw [pay89_apply, ld_vec256 x8, ld_vec256 x9, scalar_zero]
  unfold act2 lnrelu feat2
  refine congrArg (fun f => max (lnorm w256 (fun c => x8 (ix1 c)) (fun c => x9 (ix1 c)) f h) 0)
    (funext fun h' => Finset.sum_congr rfl fun d _ => ?_)
  rw [stack_apply, pay4_apply]
  unfold act1 lnrelu feat1
  refine congrArg (fun f => max (lnorm w64 (fun d => x6 (ix1 d)) (fun d => x7 (ix1 d)) f d) 0 * _)
    (funext fun d' => Finset.sum_congr rfl fun h'' _ => ?_)
  rw [pay3_apply]

end Cert.DynConv.K

end
-- ==== Proof.RefRow.lean ====
/-
  THE REFERENCE'S RESULT IS THE ROW FUNCTION. Entry (n, q) of what the reference program computes from the twelve argument
  arrays is the row function (Spec.lean) of proposal `n`'s feature row and its 49 pooled rows.

  The reference is read stage by stage, each stage at an index built from its coordinates: the dynamic parameters
  (a product with the weight matrix plus the bias), the two batched products whose matrices are the two halves of the
  parameter row read as 256 × 64 and 64 × 256, the three layer normalisations (a sum over the last axis divided by the
  literal of its length, the centred values, their squares' mean, the reciprocal root, gain and shift) each followed by
  a clip at zero, the flattening of the 49 × 256 activations, and the output projection.
-/
import proofs.«100884_j79053168050560_2_alg».proof.Proof.Spec
import proofs.«100884_j79053168050560_2_alg».proof.Proof.RefReadP

noncomputable section

open scoped BigOperators

namespace Cert.DynConv.Ref

open Cert.ReferenceIdeal Cert.ReferenceIdeal.ReadP Idealize.ShloMosaic Idealize.ShloMosaic.TcCoe Idealize.ShloMosaic.ValueIdx Cert.DynConv

/-- Two indices are equal when their coordinates are: rank 1, 2 and 3. -/
local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

/-! ## The arguments as the row function takes them -/

/-- Proposal `n`'s feature row. -/
abbrev xrow (a0 : (⟨S1x2000x256, .f32⟩ : BufTy).Contents (Elt Ideal)) (n : Fin 2000) : Fin 256 → EReal :=
  fun k => a0 (ix3 (0 : Fin 1) n k)
/-- Proposal `n`'s 49 pooled rows. -/
abbrev yrows (a1 : (⟨S49x2000x256, .f32⟩ : BufTy).Contents (Elt Ideal)) (n : Fin 2000) : Fin 49 → Fin 256 → EReal :=
  fun r k => a1 (ix3 r n k)
/-- A matrix argument by its two coordinates. -/
abbrev mat {p q : Nat} (w : (⟨⟨2, ![p, q]⟩, .f32⟩ : BufTy).Contents (Elt Ideal)) : Fin p → Fin q → EReal :=
  fun k j => w (ix2 k j)
/-- A vector argument by its coordinate. -/
abbrev vec {p : Nat} (v : (⟨⟨1, ![p]⟩, .f32⟩ : BufTy).Contents (Elt Ideal)) : Fin p → EReal := fun j => v (ix1 j)

section Stages

variable (a0 : (⟨S1x2000x256, .f32⟩ : BufTy).Contents (Elt Ideal)) (a1 : (⟨S49x2000x256, .f32⟩ : BufTy).Contents (Elt Ideal))
  (a2 : (⟨S256x32768, .f32⟩ : BufTy).Contents (Elt Ideal)) (a3 : (⟨S32768, .f32⟩ : BufTy).Contents (Elt Ideal))
  (a4 : (⟨S12544x256, .f32⟩ : BufTy).Contents (Elt Ideal)) (a5 : (⟨S256, .f32⟩ : BufTy).Contents (Elt Ideal))
  (a6 a7 : (⟨S64, .f32⟩ : BufTy).Contents (Elt Ideal)) (a8 a9 a10 a11 : (⟨S256, .f32⟩ : BufTy).Contents (Elt Ideal))
  (n : Fin 2000)

/-! ## The dynamic parameters -/

/-- Entry (n, j) of the product with the weight matrix plus the bias is entry `j` of proposal `n`'s parameters. -/
theorem params_ref (j : Fin 32768) :
    val_main_v5 (F := Ideal) a0 a2 a3 (ix2 n j) = params (xrow a0 n) (mat a2) (vec a3) j := by
  rw [val_main_v5_apply, val_main_v2_apply, val_main_v4_apply, val_main_v3_apply]
  show (∑ k : Fin 256, _) + _ = (∑ k : Fin 256, _) + _
  refine congrArg₂ (· + ·) (Finset.sum_congr rfl fun k _ => ?_) (congrArg a3 (by idx1))
  rw [val_main_v1_apply]
  refine congrArg₂ (· * ·) (congrArg a0 ?_) (congrArg a2 (by idx2))
  -- the reshape [1, 2000, 256] → [2000, 256] keeps the row and the place in it
  refine funext fun a => Fin.ext ?_
  have hn := n.isLt; have hk := k.isLt
  match a with
  | ⟨0, _⟩ => rfl
  | ⟨1, _⟩ => show (n.val * 256 + k.val) / 256 % 2000 = n.val; omega
  | ⟨2, _⟩ => show (n.val * 256 + k.val) % 256 = k.val; omega

/-! ## The first product -/

/-- Entry (n, r, d) of the first batched product: pooled row `r` through the first parameter matrix. -/
theorem feat1_ref (r : Fin 49) (d : Fin 64) :
    val_main_v10 (F := Ideal) a0 a1 a2 a3 (ix3 n r d)
      = feat1 (yrows a1 n) (params (xrow a0 n) (mat a2) (vec a3)) r d := by
  rw [val_main_v10_apply]
  show (∑ h : Fin 256, _) = (∑ h : Fin 256, _)
  refine Finset.sum_congr rfl fun h _ => ?_
  rw [val_main_v0_apply, val_main_v7_apply, val_main_v6_apply, ← params_ref a0 a2 a3 n (j1 h d)]
  refine congrArg₂ (· * ·) (congrArg a1 (by idx3)) (congrArg (val_main_v5 (F := Ideal) a0 a2 a3) ?_)
  -- the first half of the parameter row, read as 256 × 64: entry (h, d) is column h · 64 + d
  refine funext fun a => Fin.ext ?_
  have hn := n.isLt; have hh := h.isLt; have hd := d.isLt
  match a with
  | ⟨0, _⟩ => show ((n.val * 256 + h.val) * 64 + d.val) / 16384 = n.val; omega
  | ⟨1, _⟩ => show ((n.val * 256 + h.val) * 64 + d.val) % 16384 = h.val * 64 + d.val; omega

/-! ## The first normalisation: over the 64 features of pooled row `r` -/

section Norm1
variable (r : Fin 49)

/-- The mean: the sum over the 64 features (added to the literal zero) divided by the literal 64. -/
theorem mean1 (z : Fin 1) :
    val_main_v14 (F := Ideal) a0 a1 a2 a3 (ix3 n r z)
      = mean w64 (fun k : Fin 64 => val_main_v10 (F := Ideal) a0 a1 a2 a3 (ix3 n r k)) := by
  rw [val_main_v14_apply, val_main_v12_apply, val_main_v11_apply, val_main_v13_apply, val_main_cst_0_apply,
    val_main_cst_apply]
  show Ideal.div (Ideal.ofBits .f32 0x00000000#32 + ∑ k : Fin 64, _) w64 = Ideal.div (∑ k : Fin 64, _) w64
  rw [Ideal.ofBits_zero_f32, zero_add]
  exact congrArg (Ideal.div · w64) (Finset.sum_congr rfl fun k _ => congrArg _ (by idx3))

/-- The centred value, as the variance uses it. -/
theorem cen1 (d : Fin 64) :
    val_main_v16 (F := Ideal) a0 a1 a2 a3 (ix3 n r d)
      = val_main_v10 (F := Ideal) a0 a1 a2 a3 (ix3 n r d)
        - mean w64 (fun k : Fin 64 => val_main_v10 (F := Ideal) a0 a1 a2 a3 (ix3 n r k)) := by
  rw [val_main_v16_apply, val_main_v15_apply]
  have e : idx_main_v15 (ix3 n r d) = ix3 n r (0 : Fin 1) := by idx3
  rw [e, mean1]
  rfl

/-- The variance: the mean of the squared centred values. -/
theorem var1 (z : Fin 1) :
    val_main_v21 (F := Ideal) a0 a1 a2 a3 (ix3 n r z)
      = mean w64 (fun k : Fin 64 =>
          (val_main_v10 (F := Ideal) a0 a1 a2 a3 (ix3 n r k)
            - mean w64 (fun k : Fin 64 => val_main_v10 (F := Ideal) a0 a1 a2 a3 (ix3 n r k)))
          * (val_main_v10 (F := Ideal) a0 a1 a2 a3 (ix3 n r k)
            - mean w64 (fun k : Fin 64 => val_main_v10 (F := Ideal) a0 a1 a2 a3 (ix3 n r k)))) := by
  rw [val_main_v21_apply, val_main_v19_apply, val_main_v18_apply, val_main_v20_apply, val_main_cst_2_apply,
    val_main_cst_1_apply]
  show Ideal.div (Ideal.ofBits .f32 0x00000000#32 + ∑ k : Fin 64, _) w64 = Ideal.div (∑ k : Fin 64, _) w64
  rw [Ideal.ofBits_zero_f32, zero_add]
  refine congrArg (Ideal.div · w64) (Finset.sum_congr rfl fun k _ => ?_)
  have e : idx_main_v18 (idx_main_v19 (ix3 n r z)) k = ix3 n r k := by idx3
  rw [e, val_main_v17_apply, cen1]
  rfl

/-- The reciprocal root of the variance plus the epsilon. -/
theorem rstd1 (z : Fin 1) :
    val_main_v26 (F := Ideal) a0 a1 a2 a3 (ix3 n r z)
      = Ideal.rsqrt (mean w64 (fun k : Fin 64 =>
          (val_main_v10 (F := Ideal) a0 a1 a2 a3 (ix3 n r k)
            - mean w64 (fun k : Fin 64 => val_main_v10 (F := Ideal) a0 a1 a2 a3 (ix3 n r k)))
          * (val_main_v10 (F := Ideal) a0 a1 a2 a3 (ix3 n r k)
            - mean w64 (fun k : Fin 64 => val_main_v10 (F := Ideal) a0 a1 a2 a3 (ix3 n r k)))) + wEps) := by
  rw [val_main_v26_apply, val_main_v25_apply, val_main_v24_apply, val_main_cst_3_apply, var1]
  rfl

/-- The normalised, scaled and shifted value is `lnorm` of the row of first-product features. -/
theorem norm1 (d : Fin 64) :
    val_main_v34 (F := Ideal) a0 a1 a2 a3 a6 a7 (ix3 n r d)
      = lnorm w64 (vec a6) (vec a7) (fun k : Fin 64 => val_main_v10 (F := Ideal) a0 a1 a2 a3 (ix3 n r k)) d := by
  rw [val_main_v34_apply, val_main_v31_apply, val_main_v28_apply, val_main_v23_apply, val_main_v22_apply,
    val_main_v27_apply, val_main_v30_apply, val_main_v29_apply, val_main_v33_apply, val_main_v32_apply]
  have e22 : idx_main_v22 (ix3 n r d) = ix3 n r (0 : Fin 1) := by idx3
  have e27 : idx_main_v27 (ix3 n r d) = ix3 n r (0 : Fin 1) := by idx3
  have e29 : idx_main_v29 (idx_main_v30 (ix3 n r d)) = ix1 d := by idx1
  have e32 : idx_main_v32 (idx_main_v33 (ix3 n r d)) = ix1 d := by idx1
  rw [e22, e27, e29, e32, mean1, rstd1]
  rfl

/-- Clipped at zero: the activations after the first normalisation. -/
theorem act1_ref (d : Fin 64) :
    val_main_v35 (F := Ideal) a0 a1 a2 a3 a6 a7 (ix3 n r d)
      = act1 (xrow a0 n) (yrows a1 n) (mat a2) (vec a3) (vec a6) (vec a7) r d := by
  rw [val_main_v35_apply, val_main_call0_v0_apply, val_main_call0_cst_apply, norm1]
  have e : (fun k : Fin 64 => val_main_v10 (F := Ideal) a0 a1 a2 a3 (ix3 n r k))
      = feat1 (yrows a1 n) (params (xrow a0 n) (mat a2) (vec a3)) r := funext fun k => feat1_ref a0 a1 a2 a3 n r k
  rw [e]
  show max _ (Ideal.ofBits .f32 0x00000000#32) = max _ 0
  rw [Ideal.ofBits_zero_f32]

end Norm1

/-! ## The second product -/

/-- Entry (n, r, h) of the second batched product: the 64 activations of row `r` through the second parameter matrix. -/
theorem feat2_ref (r : Fin 49) (h : Fin 256) :
    val_main_v36 (F := Ideal) a0 a1 a2 a3 a6 a7 (ix3 n r h)
      = feat2 (act1 (xrow a0 n) (yrows a1 n) (mat a2) (vec a3) (vec a6) (vec a7))
          (params (xrow a0 n) (mat a2) (vec a3)) r h := by
  rw [val_main_v36_apply]
  show (∑ d : Fin 64, _) = (∑ d : Fin 64, _)
  refine Finset.sum_congr rfl fun d _ => ?_
  rw [val_main_v9_apply, val_main_v8_apply, ← params_ref a0 a2 a3 n (j2 d h), ← act1_ref a0 a1 a2 a3 a6 a7 n r d]
  refine congrArg₂ (· * ·) (congrArg (val_main_v35 (F := Ideal) a0 a1 a2 a3 a6 a7) (by idx3))
    (congrArg (val_main_v5 (F := Ideal) a0 a2 a3) ?_)
  -- the second half of the parameter row, read as 64 × 256: entry (d, h) is column 16384 + d · 256 + h
  refine funext fun a => Fin.ext ?_
  have hn := n.isLt; have hh := h.isLt; have hd := d.isLt
  match a with
  | ⟨0, _⟩ => show ((n.val * 64 + d.val) * 256 + h.val) / 16384 = n.val; omega
  | ⟨1, _⟩ => show 16384 + ((n.val * 64 + d.val) * 256 + h.val) % 16384 = 16384 + (d.val * 256 + h.val); omega

/-! ## The second normalisation: over the 256 features of row `r` -/

section Norm2
variable (r : Fin 49)

/-- The mean: the sum over the 256 features (added to the literal zero) divided by the literal 256. -/
theorem mean2 (z : Fin 1) :
    val_main_v40 (F := Ideal) a0 a1 a2 a3 a6 a7 (ix3 n r z)
      = mean w256 (fun k : Fin 256 => val_main_v36 (F := Ideal) a0 a1 a2 a3 a6 a7 (ix3 n r k)) := by
  rw [val_main_v40_apply, val_main_v38_apply, val_main_v37_apply, val_main_v39_apply, val_main_cst_5_apply,
    val_main_cst_4_apply]
  show Ideal.div (Ideal.ofBits .f32 0x00000000#32 + ∑ k : Fin 256, _) w256 = Ideal.div (∑ k : Fin 256, _) w256
  rw [Ideal.ofBits_zero_f32, zero_add]
  exact congrArg (Ideal.div · w256) (Finset.sum_congr rfl fun k _ => congrArg _ (by idx3))

/-- The centred value, as the variance uses it. -/
theorem cen2 (h : Fin 256) :
    val_main_v42 (F := Ideal) a0 a1 a2 a3 a6 a7 (ix3 n r h)
      = val_main_v36 (F := Ideal) a0 a1 a2 a3 a6 a7 (ix3 n r h)
        - mean w256 (fun k : Fin 256 => val_main_v36 (F := Ideal) a0 a1 a2 a3 a6 a7 (ix3 n r k)) := by
  rw [val_main_v42_apply, val_main_v41_apply]
  have e : idx_main_v41 (ix3 n r h) = ix3 n r (0 : Fin 1) := by idx3
  rw [e, mean2]
  rfl

/-- The variance: the mean of the squared centred values. -/
theorem var2 (z : Fin 1) :
    val_main_v47 (F := Ideal) a0 a1 a2 a3 a6 a7 (ix3 n r z)
      = mean w256 (fun k : Fin 256 =>
          (val_main_v36 (F := Ideal) a0 a1 a2 a3 a6 a7 (ix3 n r k)
            - mean w256 (fun k : Fin 256 => val_main_v36 (F := Ideal) a0 a1 a2 a3 a6 a7 (ix3 n r k)))
          * (val_main_v36 (F := Ideal) a0 a1 a2 a3 a6 a7 (ix3 n r k)
            - mean w256 (fun k : Fin 256 => val_main_v36 (F := Ideal) a0 a1 a2 a3 a6 a7 (ix3 n r k)))) := by
  rw [val_main_v47_apply, val_main_v45_apply, val_main_v44_apply, val_main_v46_apply, val_main_cst_7_apply,
    val_main_cst_6_apply]
  show Ideal.div (Ideal.ofBits .f32 0x00000000#32 + ∑ k : Fin 256, _) w256 = Ideal.div (∑ k : Fin 256, _) w256
  rw [Ideal.ofBits_zero_f32, zero_add]
  refine congrArg (Ideal.div · w256) (Finset.sum_congr rfl fun k _ => ?_)
  have e : idx_main_v44 (idx_main_v45 (ix3 n r z)) k = ix3 n r k := by idx3
  rw [e, val_main_v43_apply, cen2]
  rfl

/-- The reciprocal root of the variance plus the epsilon. -/
theorem rstd2 (z : Fin 1) :
    val_main_v52 (F := Ideal) a0 a1 a2 a3 a6 a7 (ix3 n r z)
      = Ideal.rsqrt (mean w256 (fun k : Fin 256 =>
          (val_main_v36 (F := Ideal) a0 a1 a2 a3 a6 a7 (ix3 n r k)
            - mean w256 (fun k : Fin 256 => val_main_v36 (F := Ideal) a0 a1 a2 a3 a6 a7 (ix3 n r k)))
          * (val_main_v36 (F := Ideal) a0 a1 a2 a3 a6 a7 (ix3 n r k)
            - mean w256 (fun k : Fin 256 => val_main_v36 (F := Ideal) a0 a1 a2 a3 a6 a7 (ix3 n r k)))) + wEps) := by
  rw [val_main_v52_apply, val_main_v51_apply, val_main_v50_apply, val_main_cst_8_apply, var2]
  rfl

/-- The normalised, scaled and shifted value is `lnorm` of the row of second-product features. -/
theorem norm2 (h : Fin 256) :
    val_main_v60 (F := Ideal) a0 a1 a2 a3 a6 a7 a8 a9 (ix3 n r h)
      = lnorm w256 (vec a8) (vec a9)
          (fun k : Fin 256 => val_main_v36 (F := Ideal) a0 a1 a2 a3 a6 a7 (ix3 n r k)) h := by
  rw [val_main_v60_apply, val_main_v57_apply, val_main_v54_apply, val_main_v49_apply, val_main_v48_apply,
    val_main_v53_apply, val_main_v56_apply, val_main_v55_apply, val_main_v59_apply, val_main_v58_apply]
  have e48 : idx_main_v48 (ix3 n r h) = ix3 n r (0 : Fin 1) := by idx3
  have e53 : idx_main_v53 (ix3 n r h) = ix3 n r (0 : Fin 1) := by idx3
  have e55 : idx_main_v55 (idx_main_v56 (ix3 n r h)) = ix1 h := by idx1
  have e58 : idx_main_v58 (idx_main_v59 (ix3 n r h)) = ix1 h := by idx1
  rw [e48, e53, e55, e58, mean2, rstd2]
  rfl

/-- Clipped at zero: the activations after the second normalisation. -/
theorem act2_ref (h : Fin 256) :
    val_main_v61 (F := Ideal) a0 a1 a2 a3 a6 a7 a8 a9 (ix3 n r h)
      = act2 (xrow a0 n) (yrows a1 n) (mat a2) (vec a3) (vec a6) (vec a7) (vec a8) (vec a9) r h := by
  rw [val_main_v61_apply, val_main_call1_v0_apply, val_main_call1_cst_apply, norm2]
  have e : (fun k : Fin 256 => val_main_v36 (F := Ideal) a0 a1 a2 a3 a6 a7 (ix3 n r k))
      = feat2 (act1 (xrow a0 n) (yrows a1 n) (mat a2) (vec a3) (vec a6) (vec a7))
          (params (xrow a0 n) (mat a2) (vec a3)) r := funext fun k => feat2_ref a0 a1 a2 a3 a6 a7 n r k
  rw [e]
  show max _ (Ideal.ofBits .f32 0x00000000#32) = max _ 0
  rw [Ideal.ofBits_zero_f32]

end Norm2

/-! ## The output projection -/

/-- Entry (n, c) of the flattened activations times the output matrix, plus the bias. -/
theorem proj_ref (c : Fin 256) :
    val_main_v66 (F := Ideal) a0 a1 a2 a3 a4 a5 a6 a7 a8 a9 (ix2 n c)
      = proj (act2 (xrow a0 n) (yrows a1 n) (mat a2) (vec a3) (vec a6) (vec a7) (vec a8) (vec a9)) (mat a4) (vec a5) c := by
  rw [val_main_v66_apply, val_main_v63_apply, val_main_v65_apply, val_main_v64_apply]
  show (∑ k : Fin 12544, _) + _ = (∑ k : Fin 12544, _) + _
  refine congrArg₂ (· + ·) (Finset.sum_congr rfl fun k _ => ?_) (congrArg a5 (by idx1))
  rw [val_main_v62_apply]
  have hk := k.isLt
  rw [← act2_ref a0 a1 a2 a3 a6 a7 a8 a9 n ⟨k.val / 256, by omega⟩ ⟨k.val % 256, Nat.mod_lt _ (by decide)⟩]
  refine congrArg₂ (· * ·) (congrArg (val_main_v61 (F := Ideal) a0 a1 a2 a3 a6 a7 a8 a9) ?_) (congrArg a4 (by idx2))
  -- the flattening [2000, 49, 256] → [2000, 12544]: place k of row n is entry (k / 256, k % 256)
  refine funext fun a => Fin.ext ?_
  have hn := n.isLt
  match a with
  | ⟨0, _⟩ => show (n.val * 12544 + k.val) / 12544 = n.val; omega
  | ⟨1, _⟩ => show (n.val * 12544 + k.val) / 256 % 49 = k.val / 256; omega
  | ⟨2, _⟩ => show (n.val * 12544 + k.val) % 256 = k.val % 256; omega

/-! ## The last normalisation: over the 256 projected features of proposal `n` -/

section Norm3

/-- The mean: the sum over the 256 features (added to the literal zero) divided by the literal 256. -/
theorem mean3 (z : Fin 1) :
    val_main_v70 (F := Ideal) a0 a1 a2 a3 a4 a5 a6 a7 a8 a9 (ix2 n z)
      = mean w256 (fun k : Fin 256 => val_main_v66 (F := Ideal) a0 a1 a2 a3 a4 a5 a6 a7 a8 a9 (ix2 n k)) := by
  rw [val_main_v70_apply, val_main_v68_apply, val_main_v67_apply, val_main_v69_apply, val_main_cst_10_apply,
    val_main_cst_9_apply]
  show Ideal.div (Ideal.ofBits .f32 0x00000000#32 + ∑ k : Fin 256, _) w256 = Ideal.div (∑ k : Fin 256, _) w256
  rw [Ideal.ofBits_zero_f32, zero_add]
  exact congrArg (Ideal.div · w256) (Finset.sum_congr rfl fun k _ => congrArg _ (by idx2))

/-- The centred value, as the variance uses it. -/
theorem cen3 (c : Fin 256) :
    val_main_v72 (F := Ideal) a0 a1 a2 a3 a4 a5 a6 a7 a8 a9 (ix2 n c)
      = val_main_v66 (F := Ideal) a0 a1 a2 a3 a4 a5 a6 a7 a8 a9 (ix2 n c)
        - mean w256 (fun k : Fin 256 => val_main_v66 (F := Ideal) a0 a1 a2 a3 a4 a5 a6 a7 a8 a9 (ix2 n k)) := by
  rw [val_main_v72_apply, val_main_v71_apply]
  have e : idx_main_v71 (ix2 n c) = ix2 n (0 : Fin 1) := by idx2
  rw [e, mean3]
  rfl

/-- The variance: the mean of the squared centred values. -/
theorem var3 (z : Fin 1) :
    val_main_v77 (F := Ideal) a0 a1 a2 a3 a4 a5 a6 a7 a8 a9 (ix2 n z)
      = mean w256 (fun k : Fin 256 =>
          (val_main_v66 (F := Ideal) a0 a1 a2 a3 a4 a5 a6 a7 a8 a9 (ix2 n k)
            - mean w256 (fun k : Fin 256 => val_main_v66 (F := Ideal) a0 a1 a2 a3 a4 a5 a6 a7 a8 a9 (ix2 n k)))
          * (val_main_v66 (F := Ideal) a0 a1 a2 a3 a4 a5 a6 a7 a8 a9 (ix2 n k)
            - mean w256 (fun k : Fin 256 => val_main_v66 (F := Ideal) a0 a1 a2 a3 a4 a5 a6 a7 a8 a9 (ix2 n k)))) := by
  rw [val_main_v77_apply, val_main_v75_apply, val_main_v74_apply, val_main_v76_apply, val_main_cst_12_apply,
    val_main_cst_11_apply]
  show Ideal.div (Ideal.ofBits .f32 0x00000000#32 + ∑ k : Fin 256, _) w256 = Ideal.div (∑ k : Fin 256, _) w256
  rw [Ideal.ofBits_zero_f32, zero_add]
  refine congrArg (Ideal.div · w256) (Finset.sum_congr rfl fun k _ => ?_)
  have e : idx_main_v74 (idx_main_v75 (ix2 n z)) k = ix2 n k := by idx2
  rw [e, val_main_v73_apply, cen3]
  rfl

/-- The reciprocal root of the variance plus the epsilon. -/
theorem rstd3 (z : Fin 1) :
    val_main_v82 (F := Ideal) a0 a1 a2 a3 a4 a5 a6 a7 a8 a9 (ix2 n z)
      = Ideal.rsqrt (mean w256 (fun k : Fin 256 =>
          (val_main_v66 (F := Ideal) a0 a1 a2 a3 a4 a5 a6 a7 a8 a9 (ix2 n k)
            - mean w256 (fun k : Fin 256 => val_main_v66 (F := Ideal) a0 a1 a2 a3 a4 a5 a6 a7 a8 a9 (ix2 n k)))
          * (val_main_v66 (F := Ideal) a0 a1 a2 a3 a4 a5 a6 a7 a8 a9 (ix2 n k)
            - mean w256 (fun k : Fin 256 => val_main_v66 (F := Ideal) a0 a1 a2 a3 a4 a5 a6 a7 a8 a9 (ix2 n k)))) + wEps) := by
  rw [val_main_v82_apply, val_main_v81_apply, val_main_v80_apply, val_main_cst_13_apply, var3]
  rfl

/-- The normalised, scaled and shifted value is `lnorm` of the row of projected features. -/
theorem norm3 (c : Fin 256) :
    val_main_v90 (F := Ideal) a0 a1 a2 a3 a4 a5 a6 a7 a8 a9 a10 a11 (ix2 n c)
      = lnorm w256 (vec a10) (vec a11)
          (fun k : Fin 256 => val_main_v66 (F := Ideal) a0 a1 a2 a3 a4 a5 a6 a7 a8 a9 (ix2 n k)) c := by
  rw [val_main_v90_apply, val_main_v87_apply, val_main_v84_apply, val_main_v79_apply, val_main_v78_apply,
    val_main_v83_apply, val_main_v86_apply, val_main_v85_apply, val_main_v89_apply, val_main_v88_apply]
  have e78 : idx_main_v78 (ix2 n c) = ix2 n (0 : Fin 1) := by idx2
  have e83 : idx_main_v83 (ix2 n c) = ix2 n (0 : Fin 1) := by idx2
  have e85 : idx_main_v85 (idx_main_v86 (ix2 n c)) = ix1 c := by idx1
  have e88 : idx_main_v88 (idx_main_v89 (ix2 n c)) = ix1 c := by idx1
  rw [e78, e83, e85, e88, mean3, rstd3]
  rfl

end Norm3

/-! ## The row -/

/-- Entry (n, q) of the reference's last stage, in the arguments' own words. -/
theorem ref_row_aux (q : Fin 256) :
    val_main_v91 (F := Ideal) a0 a1 a2 a3 a4 a5 a6 a7 a8 a9 a10 a11 (ix2 n q)
      = rowOut (xrow a0 n) (yrows a1 n) (mat a2) (vec a3) (mat a4) (vec a5) (vec a6) (vec a7) (vec a8) (vec a9)
          (vec a10) (vec a11) q := by
  rw [val_main_v91_apply, val_main_call2_v0_apply, val_main_call2_cst_apply, norm3]
  have e : (fun k : Fin 256 => val_main_v66 (F := Ideal) a0 a1 a2 a3 a4 a5 a6 a7 a8 a9 (ix2 n k))
      = proj (act2 (xrow a0 n) (yrows a1 n) (mat a2) (vec a3) (vec a6) (vec a7) (vec a8) (vec a9)) (mat a4) (vec a5) :=
    funext fun k => proj_ref a0 a1 a2 a3 a4 a5 a6 a7 a8 a9 n k
  rw [e]
  show max _ (Ideal.ofBits .f32 0x00000000#32) = max _ 0
  rw [Ideal.ofBits_zero_f32]

end Stages

/-- Entry (n, q) of the reference's last stage is `rowOut` of row `n` of the arguments. -/
theorem ref_row (a0 : (⟨S1x2000x256, .f32⟩ : BufTy).Contents (Elt Ideal)) (a1 : (⟨S49x2000x256, .f32⟩ : BufTy).Contents (Elt Ideal))
    (a2 : (⟨S256x32768, .f32⟩ : BufTy).Contents (Elt Ideal)) (a3 : (⟨S32768, .f32⟩ : BufTy).Contents (Elt Ideal))
    (a4 : (⟨S12544x256, .f32⟩ : BufTy).Contents (Elt Ideal)) (a5 : (⟨S256, .f32⟩ : BufTy).Contents (Elt Ideal))
    (a6 a7 : (⟨S64, .f32⟩ : BufTy).Contents (Elt Ideal)) (a8 a9 a10 a11 : (⟨S256, .f32⟩ : BufTy).Contents (Elt Ideal))
    (n : Fin 2000) (q : Fin 256) :
    val_main_v91 (F := Ideal) a0 a1 a2 a3 a4 a5 a6 a7 a8 a9 a10 a11 (ix2 n q)
      = rowOut (fun k => a0 (ix3 (0 : Fin 1) n k)) (fun r k => a1 (ix3 r n k)) (fun k j => a2 (ix2 k j)) (fun j => a3 (ix1 j))
          (fun k c => a4 (ix2 k c)) (fun c => a5 (ix1 c)) (fun d => a6 (ix1 d)) (fun d => a7 (ix1 d)) (fun c => a8 (ix1 c))
          (fun c => a9 (ix1 c)) (fun c => a10 (ix1 c)) (fun c => a11 (ix1 c)) q :=
  ref_row_aux a0 a1 a2 a3 a4 a5 a6 a7 a8 a9 a10 a11 n q

end Cert.DynConv.Ref

end
-- ==== Proof.Blocks.lean ====
/-
  FROM BLOCKS TO THE WHOLE ARRAY. The result of both programs is ONE function `G` of the twelve argument arrays:
  entry (n, q) of the 2000 × 256 result is the row function (Spec.lean) of proposal `n`'s feature row and of its 49
  pooled rows, at column `q`.

  The kernel works through the 2000 proposals forty at a time, in fifty steps. At step `t` it is given rows
  40t … 40t + 39 of the feature rows and of each of the 49 pooled arrays, and all of every weight array, and it writes
  back rows 40t … 40t + 39 of the result. Three of the arrays it is given were rearranged beforehand: the feature rows
  lose a leading axis of length one, the output matrix's 12544 rows are regrouped as 49 × 256 (row r · 256 + h becomes
  entry (r, h)), and two weight arrays change number format, which is the identity on extended reals. So row `p` of what
  step `t` writes back is, by the statement about one block (KBlock.lean), the row function of proposal 40t + p: block
  `t` of `G`. Every row `n` lies in the block of step n / 40, so the fifty blocks fill the array and the kernel's
  result is `G` of its arguments. The reference's last stage is `G` of its arguments entry by entry (RefRow.lean).
-/
import proofs.«100884_j79053168050560_2_alg».proof.Proof.Spec
import proofs.«100884_j79053168050560_2_alg».proof.Proof.KBlock
import proofs.«100884_j79053168050560_2_alg».proof.Proof.RefRow
import proofs.«100884_j79053168050560_2_alg».proof.Proof.Gen.KernelIdeal.Value
import Idealize.ShloMosaic.Lib.Pipeline.Value
import Idealize.ShloMosaic.Lib.ValueLayout

noncomputable section

open scoped BigOperators

namespace Cert.DynConv

open Idealize.ShloMosaic Idealize.ShloMosaic.ValueIdx

/-- THE WHOLE RESULT as one function of the twelve argument arrays: entry (n, q) is the row function of proposal
    `n`'s feature row and of its 49 pooled rows, at column `q`. -/
def G (a0 : (⟨3, ![1, 2000, 256]⟩ : Shape).Idx → EReal) (a1 : (⟨3, ![49, 2000, 256]⟩ : Shape).Idx → EReal)
    (a2 : (⟨2, ![256, 32768]⟩ : Shape).Idx → EReal) (a3 : (⟨1, ![32768]⟩ : Shape).Idx → EReal)
    (a4 : (⟨2, ![12544, 256]⟩ : Shape).Idx → EReal) (a5 : (⟨1, ![256]⟩ : Shape).Idx → EReal)
    (a6 a7 : (⟨1, ![64]⟩ : Shape).Idx → EReal) (a8 a9 a10 a11 : (⟨1, ![256]⟩ : Shape).Idx → EReal) :
    (⟨2, ![2000, 256]⟩ : Shape).Idx → EReal :=
  fun i => rowOut (fun k => a0 (ix3 (0 : Fin 1) (⟨(i 0).val, idx2_lt0 i⟩ : Fin 2000) k))
    (fun r k => a1 (ix3 r (⟨(i 0).val, idx2_lt0 i⟩ : Fin 2000) k))
    (fun k j => a2 (ix2 k j)) (fun j => a3 (ix1 j)) (fun k c => a4 (ix2 k c)) (fun c => a5 (ix1 c))
    (fun d => a6 (ix1 d)) (fun d => a7 (ix1 d)) (fun c => a8 (ix1 c)) (fun c => a9 (ix1 c)) (fun c => a10 (ix1 c))
    (fun c => a11 (ix1 c)) (⟨(i 1).val, idx2_lt1 i⟩ : Fin 256)

/-- Two applications of the row function to equal data are equal. -/
theorem rowOut_congr {x x' : Fin 256 → EReal} {y y' : Fin 49 → Fin 256 → EReal} {W W' : Fin 256 → Fin 32768 → EReal}
    {b b' : Fin 32768 → EReal} {Wo Wo' : Fin 12544 → Fin 256 → EReal} {bo bo' : Fin 256 → EReal} {g1 g1' b1 b1' : Fin 64 → EReal}
    {g2 g2' b2 b2' g3 g3' b3 b3' : Fin 256 → EReal} (hx : x = x') (hy : y = y') (hW : W = W') (hb : b = b') (hWo : Wo = Wo')
    (hbo : bo = bo') (hg1 : g1 = g1') (hb1 : b1 = b1') (hg2 : g2 = g2') (hb2 : b2 = b2') (hg3 : g3 = g3') (hb3 : b3 = b3')
    (q : Fin 256) : rowOut x y W b Wo bo g1 b1 g2 b2 g3 b3 q = rowOut x' y' W' b' Wo' bo' g1' b1' g2' b2' g3' b3' q := by
  subst hx hy hW hb hWo hbo hg1 hb1 hg2 hb2 hg3 hb3; rfl

end Cert.DynConv

namespace Cert.DynConv.Blocks

open Cert.KernelIdeal Cert.KernelIdeal.Gen Idealize.ShloMosaic Idealize.ShloMosaic.TcCoe Idealize.ShloMosaic.ValueIdx Idealize.SL.Sem Cert.DynConv
open Idealize.ShloMosaic.Pipeline (Dat)

variable (m : (ℓ : Loc nD τ sig) → Buf (Elt Ideal) ℓ) (ρ : Dev nD → PrngReg)

/-! ## The grid and the windows' index maps -/

/-- The grid has fifty points. -/
theorem t_lt (t : Fin cfg0.N) : t.val < 50 := lt_of_lt_of_eq t.isLt N_0

/-- The proposal that row `p` of the block of point `t` belongs to: point `t` handles proposals 40t … 40t + 39. -/
def row (t : Fin cfg0.N) (p : Fin 40) : Fin 2000 := ⟨40 * t.val + p.val, by have := t_lt t; have := p.isLt; omega⟩

/-- The printed index maps, decided over the fifty points: the feature rows, the pooled rows and the result move with
    the point along their proposal axis; every other window is its whole array at every point. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 1) = 0 ∧ win0_6.index t (0 : Fin 1) = 0 ∧ win0_7.index t (0 : Fin 1) = 0
    ∧ win0_8.index t (0 : Fin 1) = 0 ∧ win0_9.index t (0 : Fin 1) = 0 ∧ win0_10.index t (0 : Fin 1) = 0
    ∧ win0_11.index t (0 : Fin 1) = 0
    ∧ win0_12.index t (0 : Fin 2) = t.val ∧ win0_12.index t (1 : Fin 2) = 0 :=
  (by decide +kernel : ∀ t : Fin grid0.N, _)

/-! ## The arrays the host operations wrote before the region -/

/-- The feature rows as the region finds them: the argument with its leading unit axis dropped. -/
theorem V_v0 (c : Dev nD) : (V m c main_v0 : S2000x256.Idx → EReal)
    = shapeCast S2000x256 (m ((c : Thread nD τ).loc main_arg0) : S1x2000x256.Idx → EReal) shapeCasts_S1x2000x256_S2000x256 := by
  dsimp only [Gen.V, Gen.hostOps0]; after_results; rfl

/-- The parameter weights as the region finds them: the argument (the change of format is the identity here). -/
theorem V_v1 (c : Dev nD) : (V m c main_v1 : S256x32768.Idx → EReal)
    = (m ((c : Thread nD τ).loc main_arg2) : S256x32768.Idx → EReal) := by
  dsimp only [Gen.V, Gen.hostOps0]; after_results; rfl

/-- The output matrix as the region finds it: the argument's 12544 rows regrouped as 49 × 256. -/
theorem V_v3 (c : Dev nD) : (V m c main_v3 : S49x256x256.Idx → EReal)
    = shapeCast S49x256x256 (m ((c : Thread nD τ).loc main_arg4) : S12544x256.Idx → EReal) shapeCasts_S12544x256_S49x256x256 := by
  dsimp only [Gen.V, Gen.hostOps0]; after_results; rfl

/-! ## Each input block, read where its window's rectangle says -/

theorem blk0_apply (c : Dev nD) (t : Fin cfg0.N) (p : Fin 40) (k : Fin 256) :
    (iblk m c 0 t : Vec Ideal S40x256 .f32) (ix2 p k)
      = (m ((c : Thread nD τ).loc main_arg0) : S1x2000x256.Idx → EReal) (ix3 (0 : Fin 1) (row t p) k) := by
  obtain ⟨e0, e1, -⟩ := idx_facts t
  unfold iblk
  rw [View.read_apply]
  show (V m c main_v0 : S2000x256.Idx → EReal) _ = _
  rw [V_v0]
  refine Eq.trans (congrArg _ (funext fun a => Fin.ext ?_)) (shapeCast_1ab_ab_apply _ shapeCasts_S1x2000x256_S2000x256 (row t p) k)
  match a with
  | ⟨0, _⟩ => show win0_0.index t (0 : Fin 2) * 40 + 1 * p.val = 40 * t.val + p.val; omega
  | ⟨1, _⟩ => show win0_0.index t (1 : Fin 2) * 256 + 1 * k.val = k.val; omega

theorem blk1_apply (c : Dev nD) (t : Fin cfg0.N) (r : Fin 49) (p : Fin 40) (k : Fin 256) :
    (iblk m c 1 t : Vec Ideal S49x40x256 .f32) (ix3 r p k)
      = (m ((c : Thread nD τ).loc main_arg1) : S49x2000x256.Idx → EReal) (ix3 r (row t p) k) := by
  obtain ⟨-, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 49 + 1 * r.val = r.val; omega
  | ⟨1, _⟩ => show win0_1.index t (1 : Fin 3) * 40 + 1 * p.val = 40 * t.val + p.val; omega
  | ⟨2, _⟩ => show win0_1.index t (2 : Fin 3) * 256 + 1 * k.val = k.val; omega

theorem blk2_apply (c : Dev nD) (t : Fin cfg0.N) (k : Fin 256) (j : Fin 32768) :
    (iblk m c 2 t : Vec Ideal S256x32768 .bf16) (ix2 k j)
      = (m ((c : Thread nD τ).loc main_arg2) : S256x32768.Idx → EReal) (ix2 k j) := by
  obtain ⟨-, -, -, -, -, e0, e1, -⟩ := idx_facts t
  unfold iblk
  rw [View.read_apply]
  show (V m c main_v1 : S256x32768.Idx → EReal) _ = _
  rw [V_v1]
  refine congrArg _ (funext fun a => Fin.ext ?_)
  match a with
  | ⟨0, _⟩ => show win0_2.index t (0 : Fin 2) * 256 + 1 * k.val = k.val; omega
  | ⟨1, _⟩ => show win0_2.index t (1 : Fin 2) * 32768 + 1 * j.val = j.val; omega

theorem blk3_apply (c : Dev nD) (t : Fin cfg0.N) (j : Fin 32768) :
    (iblk m c 3 t : Vec Ideal S32768 .f32) (ix1 j)
      = (m ((c : Thread nD τ).loc main_arg3) : S32768.Idx → EReal) (ix1 j) := by
  obtain ⟨-, -, -, -, -, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 32768 + 1 * j.val = j.val; omega

/-- Entry (k / 256, k % 256, c) of the regrouped output matrix is entry (k, c) of the argument. -/
theorem blk4_apply (c : Dev nD) (t : Fin cfg0.N) (k : Fin 12544) (q : Fin 256) :
    (iblk m c 4 t : Vec Ideal S49x256x256 .bf16)
        (ix3 (⟨k.val / 256, by have := k.isLt; omega⟩ : Fin 49) (⟨k.val % 256, Nat.mod_lt _ (by decide)⟩ : Fin 256) q)
      = (m ((c : Thread nD τ).loc main_arg4) : S12544x256.Idx → EReal) (ix2 k q) := by
  obtain ⟨-, -, -, -, -, -, -, -, e0, e1, e2, -⟩ := idx_facts t
  unfold iblk
  rw [View.read_apply]
  show (V m c main_v3 : S49x256x256.Idx → EReal) _ = _
  rw [V_v3]
  refine Eq.trans (congrArg _ (funext fun a => Fin.ext ?_))
    (shapeCast_apply _ shapeCasts_S12544x256_S49x256x256
      (ix3 (⟨k.val / 256, by have := k.isLt; omega⟩ : Fin 49) (⟨k.val % 256, Nat.mod_lt _ (by decide)⟩ : Fin 256) q) (ix2 k q) ?_)
  · match a with
    | ⟨0, _⟩ => show win0_4.index t (0 : Fin 3) * 49 + 1 * (k.val / 256) = k.val / 256; omega
    | ⟨1, _⟩ => show win0_4.index t (1 : Fin 3) * 256 + 1 * (k.val % 256) = k.val % 256; omega
    | ⟨2, _⟩ => show win0_4.index t (2 : Fin 3) * 256 + 1 * q.val = q.val; omega
  · rw [Shape.rowMajor_val_two, Shape.rowMajor_val_three]
    show k.val * 256 + q.val = (k.val / 256 * 256 + k.val % 256) * 256 + q.val
    omega

theorem blk5_apply (c : Dev nD) (t : Fin cfg0.N) (j : Fin 256) :
    (iblk m c 5 t : Vec Ideal S256 .f32) (ix1 j)
      = (m ((c : Thread nD τ).loc main_arg5) : S256.Idx → EReal) (ix1 j) := by
  have e0 : win0_5.index t (0 : Fin 1) = 0 := (idx_facts t).2.2.2.2.2.2.2.2.2.2.2.1
  unfold iblk
  rw [View.read_apply]
  show V m c main_arg5 _ = _
  rw [V_main_arg5]
  refine congrArg _ (funext fun a => Fin.ext ?_)
  match a with
  | ⟨0, _⟩ => show win0_5.index t (0 : Fin 1) * 256 + 1 * j.val = j.val; omega

theorem blk6_apply (c : Dev nD) (t : Fin cfg0.N) (j : Fin 64) :
    (iblk m c 6 t : Vec Ideal S64 .f32) (ix1 j)
      = (m ((c : Thread nD τ).loc main_arg6) : S64.Idx → EReal) (ix1 j) := by
  have e0 : win0_6.index t (0 : Fin 1) = 0 := (idx_facts t).2.2.2.2.2.2.2.2.2.2.2.2.1
  unfold iblk
  rw [View.read_apply]
  show V m c main_arg6 _ = _
  rw [V_main_arg6]
  refine congrArg _ (funext fun a => Fin.ext ?_)
  match a with
  | ⟨0, _⟩ => show win0_6.index t (0 : Fin 1) * 64 + 1 * j.val = j.val; omega

theorem blk7_apply (c : Dev nD) (t : Fin cfg0.N) (j : Fin 64) :
    (iblk m c 7 t : Vec Ideal S64 .f32) (ix1 j)
      = (m ((c : Thread nD τ).loc main_arg7) : S64.Idx → EReal) (ix1 j) := by
  have e0 : win0_7.index t (0 : Fin 1) = 0 := (idx_facts t).2.2.2.2.2.2.2.2.2.2.2.2.2.1
  unfold iblk
  rw [View.read_apply]
  show V m c main_arg7 _ = _
  rw [V_main_arg7]
  refine congrArg _ (funext fun a => Fin.ext ?_)
  match a with
  | ⟨0, _⟩ => show win0_7.index t (0 : Fin 1) * 64 + 1 * j.val = j.val; omega

theorem blk8_apply (c : Dev nD) (t : Fin cfg0.N) (j : Fin 256) :
    (iblk m c 8 t : Vec Ideal S256 .f32) (ix1 j)
      = (m ((c : Thread nD τ).loc main_arg8) : S256.Idx → EReal) (ix1 j) := by
  have e0 : win0_8.index t (0 : Fin 1) = 0 := (idx_facts t).2.2.2.2.2.2.2.2.2.2.2.2.2.2.1
  unfold iblk
  rw [View.read_apply]
  show V m c main_arg8 _ = _
  rw [V_main_arg8]
  refine congrArg _ (funext fun a => Fin.ext ?_)
  match a with
  | ⟨0, _⟩ => show win0_8.index t (0 : Fin 1) * 256 + 1 * j.val = j.val; omega

theorem blk9_apply (c : Dev nD) (t : Fin cfg0.N) (j : Fin 256) :
    (iblk m c 9 t : Vec Ideal S256 .f32) (ix1 j)
      = (m ((c : Thread nD τ).loc main_arg9) : S256.Idx → EReal) (ix1 j) := by
  have e0 : win0_9.index t (0 : Fin 1) = 0 := (idx_facts t).2.2.2.2.2.2.2.2.2.2.2.2.2.2.2.1
  unfold iblk
  rw [View.read_apply]
  show V m c main_arg9 _ = _
  rw [V_main_arg9]
  refine congrArg _ (funext fun a => Fin.ext ?_)
  match a with
  | ⟨0, _⟩ => show win0_9.index t (0 : Fin 1) * 256 + 1 * j.val = j.val; omega

theorem blk10_apply (c : Dev nD) (t : Fin cfg0.N) (j : Fin 256) :
    (iblk m c 10 t : Vec Ideal S256 .f32) (ix1 j)
      = (m ((c : Thread nD τ).loc main_arg10) : S256.Idx → EReal) (ix1 j) := by
  have e0 : win0_10.index t (0 : Fin 1) = 0 := (idx_facts t).2.2.2.2.2.2.2.2.2.2.2.2.2.2.2.2.1
  unfold iblk
  rw [View.read_apply]
  show V m c main_arg10 _ = _
  rw [V_main_arg10]
  refine congrArg _ (funext fun a => Fin.ext ?_)
  match a with
  | ⟨0, _⟩ => show win0_10.index t (0 : Fin 1) * 256 + 1 * j.val = j.val; omega

theorem blk11_apply (c : Dev nD) (t : Fin cfg0.N) (j : Fin 256) :
    (iblk m c 11 t : Vec Ideal S256 .f32) (ix1 j)
      = (m ((c : Thread nD τ).loc main_arg11) : S256.Idx → EReal) (ix1 j) := by
  have e0 : win0_11.index t (0 : Fin 1) = 0 := (idx_facts t).2.2.2.2.2.2.2.2.2.2.2.2.2.2.2.2.2.1
  unfold iblk
  rw [View.read_apply]
  show V m c main_arg11 _ = _
  rw [V_main_arg11]
  refine congrArg _ (funext fun a => Fin.ext ?_)
  match a with
  | ⟨0, _⟩ => show win0_11.index t (0 : Fin 1) * 256 + 1 * j.val = j.val; omega

/-! ## What each point writes back, and the whole array -/

/-- An element of the result's block at point `t` sits at row 40t + p of the array. -/
theorem emb12 (t : Fin cfg0.N) (p : Fin 40) (q : Fin 256) :
    (((cfg0.win 12).blk t).view.emb (ix2 p q) : S2000x256.Idx) = ix2 (row t p) q := by
  have e0 : win0_12.index t (0 : Fin 2) = t.val := (idx_facts t).2.2.2.2.2.2.2.2.2.2.2.2.2.2.2.2.2.2.1
  have e1 : win0_12.index t (1 : Fin 2) = 0 := (idx_facts t).2.2.2.2.2.2.2.2.2.2.2.2.2.2.2.2.2.2.2
  funext a
  apply Fin.ext
  match a with
  | ⟨0, _⟩ => show win0_12.index t (0 : Fin 2) * 40 + 1 * p.val = 40 * t.val + p.val; omega
  | ⟨1, _⟩ => show win0_12.index t (1 : Fin 2) * 256 + 1 * q.val = q.val; omega

/-- The result array as the kernel's run leaves it: `G` of the argument arrays as launched. -/
abbrev kres (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- WHAT POINT `t` WRITES BACK is block `t` of `G` of the argument arrays: row `p` of the stored block is the row
    function of row `p` of the input blocks, which are proposal 40t + p's feature row and pooled rows and the weights. -/
theorem flushed_eq (c : Dev nD) (t : Fin cfg0.N) :
    (dats m 0 c).flushed 12 t = ((cfg0.win 12).blk t).view.read (Elt Ideal) (kres m c) := by
  rw [Value.flushed12]
  funext j
  obtain ⟨p, q, rfl⟩ : ∃ (p : Fin 40) (q : Fin 256), j = ix2 p q := ⟨j 0, j 1, eq_ix2 j⟩
  show out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 p q)
    = kres m c (((cfg0.win 12).blk t).view.emb (ix2 p q))
  rw [emb12 t p q]
  refine (K.block_row (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) p q).trans ?_
  exact rowOut_congr (funext fun k => blk0_apply m c t p k) (funext fun r => funext fun k => blk1_apply m c t r p k)
    (funext fun k => funext fun j => blk2_apply m c t k j) (funext fun j => blk3_apply m c t j)
    (funext fun k => funext fun q' => blk4_apply m c t k q') (funext fun j => blk5_apply m c t j)
    (funext fun j => blk6_apply m c t j) (funext fun j => blk7_apply m c t j) (funext fun j => blk8_apply m c t j)
    (funext fun j => blk9_apply m c t j) (funext fun j => blk10_apply m c t j) (funext fun j => blk11_apply m c t j) q

/-- An index of the result array is in point `t`'s block iff each coordinate is in the block's range on its axis. -/
theorem mem_blk (t : Fin cfg0.N) (i : S2000x256.Idx) :
    i ∈ ((cfg0.win 12).blk t).view.set ↔ ∀ a : Fin 2, win0_12.index t a * S40x256.size a ≤ (i a).val ∧ (i a).val < win0_12.index t a * S40x256.size a + S40x256.size a := by
  show i ∈ ((View.whole main_v4).slice (win0_12.rect t)).set ↔ _
  rw [View.set_slice_whole, Rect.mem_set_unit]
  exact Iff.rfl

/-- Every row of the result belongs to some point's block: row `n` to point `n / 40`. -/
theorem cover (i : S2000x256.Idx) : ∃ t : Fin cfg0.N, (cfg0.win 12).flush t = true ∧ i ∈ ((cfg0.win 12).blk t).view.set := by
  have hi0 : (i 0).val < 2000 := idx2_lt0 i
  have hi1 : (i 1).val < 256 := idx2_lt1 i
  have hN : cfg0.N = 50 := N_0
  let t : Fin cfg0.N := ⟨(i 0).val / 40, by rw [hN]; omega⟩
  have ht : t.val = (i 0).val / 40 := rfl
  have e0 : win0_12.index t (0 : Fin 2) = t.val := (idx_facts t).2.2.2.2.2.2.2.2.2.2.2.2.2.2.2.2.2.2.1
  have e1 : win0_12.index t (1 : Fin 2) = 0 := (idx_facts t).2.2.2.2.2.2.2.2.2.2.2.2.2.2.2.2.2.2.2
  refine ⟨t, flush0_12 t, ?_⟩
  rw [mem_blk]
  intro a
  match a with
  | ⟨0, _⟩ => show win0_12.index t (0 : Fin 2) * 40 ≤ (i 0).val ∧ (i 0).val < win0_12.index t (0 : Fin 2) * 40 + 40; omega
  | ⟨1, _⟩ => show win0_12.index t (1 : Fin 2) * 256 ≤ (i 1).val ∧ (i 1).val < win0_12.index t (1 : Fin 2) * 256 + 256; omega

/-- THE RESULT ARRAY after the run is `G` of the argument arrays. -/
theorem final (c : Dev nD) : (dats m 0 c).arrAt 12 cfg0.N = kres m c :=
  (dats m 0 c).arrAt_eq_of_cover 12 (kres m c) (fun t _ => flushed_eq m c t) cover

/-- THE KERNEL'S RUN: every weakly fair execution ends with the result array at `G` of the arguments, the arguments unchanged. -/
theorem kernel_run : θ_run defs (onTc (τ := τ) (main (F := Ideal))) ⟨m, fun _ => 0, ρ⟩ fun r => ∀ c : Dev nD,
      r.2.mem ((c : Thread nD τ).loc main_v4) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.DynConv.Blocks

/-! ## The reference's result array -/

namespace Cert.DynConv.RefArr

open Cert.ReferenceIdeal Cert.ReferenceIdeal.Gen Idealize.ShloMosaic Idealize.ShloMosaic.TcCoe Idealize.ShloMosaic.ValueIdx Idealize.SL.Sem Cert.DynConv

variable (m : (ℓ : Loc nD τ sig) → Buf (Elt Ideal) ℓ) (ρ : Dev nD → PrngReg)

/-- The reference's last stage, as a function of the twelve argument arrays, is `G`: entry by entry it is the row
    function of that proposal's rows. -/
theorem val_eq (a0 : (⟨S1x2000x256, .f32⟩ : BufTy).Contents (Elt Ideal)) (a1 : (⟨S49x2000x256, .f32⟩ : BufTy).Contents (Elt Ideal))
    (a2 : (⟨S256x32768, .f32⟩ : BufTy).Contents (Elt Ideal)) (a3 : (⟨S32768, .f32⟩ : BufTy).Contents (Elt Ideal))
    (a4 : (⟨S12544x256, .f32⟩ : BufTy).Contents (Elt Ideal)) (a5 : (⟨S256, .f32⟩ : BufTy).Contents (Elt Ideal))
    (a6 a7 : (⟨S64, .f32⟩ : BufTy).Contents (Elt Ideal)) (a8 a9 a10 a11 : (⟨S256, .f32⟩ : BufTy).Contents (Elt Ideal)) :
    ReadP.val_main_v91 (F := Ideal) a0 a1 a2 a3 a4 a5 a6 a7 a8 a9 a10 a11 = G a0 a1 a2 a3 a4 a5 a6 a7 a8 a9 a10 a11 := by
  funext i
  obtain ⟨n, q, rfl⟩ : ∃ (n : Fin 2000) (q : Fin 256), i = ix2 n q := ⟨i 0, i 1, eq_ix2 i⟩
  exact Ref.ref_row a0 a1 a2 a3 a4 a5 a6 a7 a8 a9 a10 a11 n q

/-- The result array as the reference's run leaves it: `G` of the argument arrays as launched. -/
abbrev rres (c : Dev nD) : Buf (Elt Ideal) ((c.tc : Thread nD τ).loc main_v91) :=
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- THE REFERENCE'S RUN: every weakly fair execution ends with the result array at `G` of the arguments, the arguments unchanged. -/
theorem reference_run : θ_run defs (onTc (τ := τ) (main (F := Ideal))) ⟨m, fun _ => 0, ρ⟩ fun r => ∀ c : Dev nD,
      r.2.mem ((c.tc : Thread nD τ).loc main_v91) = rres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans ((ReadP.val_main_v91_eq m c).trans (val_eq _ _ _ _ _ _ _ _ _ _ _ _)), (h c).2⟩)
    (ValueP.run (F := Ideal) m ρ)

end Cert.DynConv.RefArr

end
-- ==== Proof.lean ====
/-
  Both programs compute, for each of 2000 proposals, a row of 256 numbers from that proposal's feature row, its 49 pooled
  rows and the shared weights: dynamic parameters from the feature row, two small matrix products with them, each followed by
  a layer normalisation clipped at zero, then one projection of the flattened result, normalised and clipped again
  (Proof/Spec.lean states that row function). The kernel does it forty proposals at a time and adds the projection up
  pooled row by pooled row; the reference does it for all proposals at once. Over the extended reals the two differ only
  in how finite sums are grouped, so both end with the same array (Proof/Blocks.lean), and no finiteness is needed.
-/
import proofs.«100884_j79053168050560_2_alg».proof.Defs
import proofs.«100884_j79053168050560_2_alg».proof.Proof.Gen.Kernel
import proofs.«100884_j79053168050560_2_alg».proof.Proof.Gen.Kernel.Skeleton
import proofs.«100884_j79053168050560_2_alg».proof.Proof.Gen.Kernel.Launch
import proofs.«100884_j79053168050560_2_alg».proof.Proof.Gen.Kernel.Points
import proofs.«100884_j79053168050560_2_alg».proof.Proof.Gen.Kernel.Frame
import proofs.«100884_j79053168050560_2_alg».proof.Proof.Gen.KernelIdeal
import proofs.«100884_j79053168050560_2_alg».proof.Proof.Gen.KernelIdeal.Skeleton
import proofs.«100884_j79053168050560_2_alg».proof.Proof.Gen.KernelIdeal.Launch
import proofs.«100884_j79053168050560_2_alg».proof.Proof.Gen.KernelIdeal.Points
import proofs.«100884_j79053168050560_2_alg».proof.Proof.Gen.KernelIdeal.Frame
import proofs.«100884_j79053168050560_2_alg».proof.Proof.Gen.ReferenceIdeal
import proofs.«100884_j79053168050560_2_alg».proof.Proof.Gen.Pre_finite_inputs
import proofs.«100884_j79053168050560_2_alg».proof.Proof.Gen.KernelIdeal.Value
import proofs.«100884_j79053168050560_2_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Reading the kernel over the extended reals rewrote nothing, so there is nothing to preserve. -/
theorem preserves : Cert.preserves_Kernel_KernelIdeal := trivial

/-- From memories that agree on the twelve arguments both programs end with the result array at the same function `G`
    of the arguments. -/
theorem algebraic : Cert.algebraic_KernelIdeal_ReferenceIdeal := by
  intro m ρ m' ρ' _ hagree
  refine ⟨fun c => Cert.DynConv.Blocks.kres m c, Cert.DynConv.Blocks.kernel_run m ρ, ?_⟩
  refine (θ_run Cert.ReferenceIdeal.defs _ _).mono (fun _ h c => ⟨(h c).1.trans ?_, (h c).2⟩)
    (Cert.DynConv.RefArr.reference_run m' ρ')
  obtain ⟨h0, h1, h2, h3, h4, h5, h6, h7, h8, h9, h10, h11⟩ := hagree c
  unfold Cert.DynConv.RefArr.rres Cert.DynConv.Blocks.kres
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
